-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x4224 : Shape := ⟨2, ![1024, 4224]⟩
abbrev S4224 : Shape := ⟨1, ![4224]⟩
abbrev S2x128 : Shape := ⟨2, ![2, 128]⟩
abbrev S2048x1024 : Shape := ⟨2, ![2048, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4224 : S_.BroadcastsInDim S1024x4224 (![] : Fin 0 → Fin S1024x4224.rank)
  reducesTo_S1024x4224_S_d0_1 : S1024x4224.ReducesTo [0, 1] S_
  bcast_S_S4224 : S_.BroadcastsInDim S4224 (![] : Fin 0 → Fin S4224.rank)
  reducesTo_S4224_S_d0 : S4224.ReducesTo [0] S_
  bcast_S_S2x128 : S_.BroadcastsInDim S2x128 (![] : Fin 0 → Fin S2x128.rank)
  reducesTo_S2x128_S_d0_1 : S2x128.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2x128 .f32) (main_arg5 : FVec F S2048x1024 .f32) (main_arg6 : FVec F S1024 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128 .f32 := Host.absf main_arg4
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x4224 .f32) (main_arg2 : FVec F S4224 .f32) (main_arg3 : FVec F S2x128 .f32) (main_arg4 : FVec F S2x128 .f32) (main_arg5 : FVec F S2048x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x4224 .f32 := Host.absf main_arg1
  let main_cst_0 : FVec F S_ .f32 := constant S_ .f32 0x7F800000#32
  let main_v5 : FVec F S1024x4224 .f32 := broadcastInDim S1024x4224 ![] bcast_S_S1024x4224 main_cst_0
  let main_v6 : IVec S1024x4224 1 := cmpf .olt main_v4 main_v5
  let main_c_1 : IVec S_ 1 := constantI S_ 1 1#1
  let main_v7 : IVec S_ 1 := (fun x v => Host.reduce IntOp.andi x v reducesTo_S1024x4224_S_d0_1 h_S_) main_v6 main_c_1
  let main_v8 : IVec S_ 1 := andi main_v3 main_v7
  let main_v9 : FVec F S4224 .f32 := Host.absf main_arg2
  let main_cst_2 : FVec F S_ .f32 := constant S_ .f32 0x7F800000#32
  let main_v10 : FVec F S4224 .f32 := broadcastInDim S4224 ![] bcast_S_S4224 main_cst_2
  let main_v11 : IVec S4224 1 := cmpf .olt main_v9 main_v10
  let main_c_3 : IVec S_ 1 := constantI S_ 1 1#1
  let main_v12 : IVec S_ 1 := (fun x v => Host.reduce IntOp.andi x v reducesTo_S4224_S_d0 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg4 main_arg5 main_arg6 main_v13 main_v16
-- ==== Kernel.lean ====
abbrev S4x2048x1024 : Shape := ⟨3, ![4, 2048, 1024]⟩
abbrev S1024x4224 : Shape := ⟨2, ![1024, 4224]⟩
abbrev S4224 : Shape := ⟨1, ![4224]⟩
abbrev S2x128 : Shape := ⟨2, ![2, 128]⟩
abbrev S2048x1024 : Shape := ⟨2, ![2048, 1024]⟩
abbrev S1024 : Shape := ⟨1, ![1024]⟩
abbrev S8192x1024 : Shape := ⟨2, ![8192, 1024]⟩
abbrev S1x4224 : Shape := ⟨2, ![1, 4224]⟩
abbrev S8192x128 : Shape := ⟨2, ![8192, 128]⟩
abbrev S8192x2048 : Shape := ⟨2, ![8192, 2048]⟩
abbrev S256x1024 : Shape := ⟨2, ![256, 1024]⟩
abbrev S256x128 : Shape := ⟨2, ![256, 128]⟩
abbrev S256x2048 : Shape := ⟨2, ![256, 2048]⟩
abbrev S256x4224 : Shape := ⟨2, ![256, 4224]⟩
abbrev S1x128 : Shape := ⟨2, ![1, 128]⟩
abbrev S4x2048x128 : Shape := ⟨3, ![4, 2048, 128]⟩
abbrev S4x2048x2048 : Shape := ⟨3, ![4, 2048, 2048]⟩
abbrev S1x1024 : Shape := ⟨2, ![1, 1024]⟩
abbrev S1x256x128 : Shape := ⟨3, ![1, 256, 128]⟩
abbrev S1x2048x128 : Shape := ⟨3, ![1, 2048, 128]⟩
abbrev S1x2048x2048 : Shape := ⟨3, ![1, 2048, 2048]⟩
abbrev S1x256x2048 : Shape := ⟨3, ![1, 256, 2048]⟩
abbrev S1x256x1024 : Shape := ⟨3, ![1, 256, 1024]⟩
abbrev S1x512x128 : Shape := ⟨3, ![1, 512, 128]⟩
abbrev S512x128 : Shape := ⟨2, ![512, 128]⟩
abbrev S1x512x2048 : Shape := ⟨3, ![1, 512, 2048]⟩
abbrev S512x2048 : Shape := ⟨2, ![512, 2048]⟩
abbrev S128x512 : Shape := ⟨2, ![128, 512]⟩
abbrev S256x512 : Shape := ⟨2, ![256, 512]⟩

abbrev nBuf : Space → Nat
  | .hbm => 21
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S1024x4224, .f32⟩
  | .hbm, ⟨2, _⟩ => ⟨S4224, .f32⟩
  | .hbm, ⟨3, _⟩ => ⟨S2x128, .f32⟩
  | .hbm, ⟨4, _⟩ => ⟨S2x128, .f32⟩
  | .hbm, ⟨5, _⟩ => ⟨S2048x1024, .f32⟩
  | .hbm, ⟨6, _⟩ => ⟨S1024, .f32⟩
  | .hbm, ⟨7, _⟩ => ⟨S8192x1024, .f32⟩
  | .hbm, ⟨8, _⟩ => ⟨S1024x4224, .bf16⟩
  | .hbm, ⟨9, _⟩ => ⟨S1x4224, .f32⟩
  | .hbm, ⟨10, _⟩ => ⟨S8192x128, .bf16⟩
  | .hbm, ⟨11, _⟩ => ⟨S8192x128, .bf16⟩
  | .hbm, ⟨12, _⟩ => ⟨S8192x2048, .bf16⟩
  | .hbm, ⟨13, _⟩ => ⟨S8192x2048, .bf16⟩
  | .hbm, ⟨14, _⟩ => ⟨S4x2048x128, .bf16⟩
  | .hbm, ⟨15, _⟩ => ⟨S4x2048x128, .bf16⟩
  | .hbm, ⟨16, _⟩ => ⟨S4x2048x2048, .bf16⟩
  | .hbm, ⟨17, _⟩ => ⟨S4x2048x2048, .bf16⟩
  | .hbm, ⟨18, _⟩ => ⟨S2048x1024, .bf16⟩
  | .hbm, ⟨19, _⟩ => ⟨S1x1024, .f32⟩
  | .hbm, ⟨20, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x4224, .bf16⟩
  | .local _ .vmem, ⟨3, _⟩ => ⟨S1x4224, .f32⟩
  | .local _ .vmem, ⟨4, _⟩ => ⟨S2x128, .f32⟩
  | .local _ .vmem, ⟨5, _⟩ => ⟨S2x128, .f32⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S1x256x128, .bf16⟩
  | .local _ .vmem, ⟨15, _⟩ => ⟨S1x256x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x2048, .bf16⟩
  | .local _ .vmem, ⟨19, _⟩ => ⟨S1x2048x2048, .bf16⟩
  | .local _ .vmem, ⟨20, _⟩ => ⟨S1x256x2048, .bf16⟩
  | .local _ .vmem, ⟨21, _⟩ => ⟨S1x256x2048, .bf16⟩
  | .local _ .vmem, ⟨22, _⟩ => ⟨S2048x1024, .bf16⟩
  | .local _ .vmem, ⟨23, _⟩ => ⟨S1x1024, .f32⟩
  | .local _ .vmem, ⟨24, _⟩ => ⟨S1x256x1024, .f32⟩
  | .local _ .vmem, ⟨25, _⟩ => ⟨S1x256x1024, .f32⟩
  | .local _ .vmem, ⟨26, _⟩ => ⟨S256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨3, ![4, 8, 4], ![false, false, false]⟩

def k1_mult1 (i : grid1.Coords) : BitVec 32 :=
  let arg2 : BitVec 32 := BitVec.ofNat 32 (i 2).val
  let c512_i32 : BitVec 32 := 512#32
  let v3 : BitVec 32 := Scalar.muli arg2 c512_i32
  v3
def k1_off1 (i : grid1.Coords) : Fin 3 → Nat :=
  let c0 : Index := 0#32
  let arg2 : BitVec 32 := BitVec.ofNat 32 (i 2).val
  let c512_i32 : BitVec 32 := 512#32
  let v3 : BitVec 32 := Scalar.muli arg2 c512_i32
  let v4 : BitVec 32 := v3
  let v5 : Index := Scalar.indexCast v4
  let c0_1 : Index := 0#32
  ![0, v5.toNat, 0]
def k1_off2 (i : grid1.Coords) : Fin 3 → Nat :=
  let c0_2 : Index := 0#32
  let arg2 : BitVec 32 := BitVec.ofNat 32 (i 2).val
  let c512_i32 : BitVec 32 := 512#32
  let v3 : BitVec 32 := Scalar.muli arg2 c512_i32
  let v4 : BitVec 32 := v3
  let v8 : Index := Scalar.indexCast v4
  let c0_3 : Index := 0#32
  ![0, v8.toNat, 0]
def k1_cond2 (i : grid1.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_13 : BitVec 32 := 0#32
  let v27 : BitVec 1 := Scalar.cmpi .ne v26 c0_i32_13
  v27

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x2048x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x2048x1024_S8192x1024 : S4x2048x1024.ShapeCasts S8192x1024
  bitsLt_bf16_f32 : FTy.bits .bf16 < FTy.bits .f32
  shapeCasts_S4224_S1x4224 : S4224.ShapeCasts S1x4224
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4224_S1024x4224_0_0 : ∀ a, (![0, 0] : Fin 2 → Nat) a + S1024x4224.size a ≤ S1024x4224.size a
  h_S1024x4224 : 0 < S1024x4224.numel
  shapeCasts_S1024x4224_S1024x4224 : S1024x4224.ShapeCasts S1024x4224
  inb_S1x4224_S1x4224_0_0 : ∀ a, (![0, 0] : Fin 2 → Nat) a + S1x4224.size a ≤ S1x4224.size a
  h_S1x4224 : 0 < S1x4224.numel
  shapeCasts_S1x4224_S1x4224 : S1x4224.ShapeCasts S1x4224
  broadcasts_S1x4224_S256x4224 : S1x4224.Broadcasts S256x4224
  slices_S256x4224_o0_0_S256x2048 : S256x4224.Slices ![0, 0] S256x2048
  slices_S256x4224_o0_2048_S256x2048 : S256x4224.Slices ![0, 2048] S256x2048
  slices_S256x4224_o0_4096_S256x128 : S256x4224.Slices ![0, 4096] S256x128
  inb_S2x128_S2x128_0_0 : ∀ a, (![0, 0] : Fin 2 → Nat) a + S2x128.size a ≤ S2x128.size a
  h_S2x128 : 0 < S2x128.numel
  slices_S2x128_o0_0_S1x128 : S2x128.Slices ![0, 0] S1x128
  broadcasts_S1x128_S256x128 : S1x128.Broadcasts S256x128
  slices_S2x128_o1_0_S1x128 : S2x128.Slices ![1, 0] S1x128
  inb_S256x128_S256x128_0_0 : ∀ a, (![0, 0] : Fin 2 → Nat) a + S256x128.size a ≤ S256x128.size a
  h_S256x128 : 0 < S256x128.numel
  packedbf16_S256x128_S256x128_0_0 : (Rect.unit (s := S256x128) ![0, 0] S256x128.size inb_S256x128_S256x128_0_0).PackedRows (EltTy.packing .bf16)
  inb_S256x2048_S256x2048_0_0 : ∀ a, (![0, 0] : Fin 2 → Nat) a + S256x2048.size a ≤ S256x2048.size a
  h_S256x2048 : 0 < S256x2048.numel
  packedbf16_S256x2048_S256x2048_0_0 : (Rect.unit (s := S256x2048) ![0, 0] S256x2048.size inb_S256x2048_S256x2048_0_0).PackedRows (EltTy.packing .bf16)
  shapeCasts_S8192x128_S4x2048x128 : S8192x128.ShapeCasts S4x2048x128
  shapeCasts_S8192x2048_S4x2048x2048 : S8192x2048.ShapeCasts S4x2048x2048
  shapeCasts_S1024_S1x1024 : S1024.ShapeCasts S1x1024
  shapeCasts_S256x2048_S256x2048 : S256x2048.ShapeCasts S256x2048
  h_S1x512x128 : 0 < S1x512x128.numel
  shapeCasts_S1x512x128_S512x128 : S1x512x128.ShapeCasts S512x128
  h_S1x512x2048 : 0 < S1x512x2048.numel
  shapeCasts_S1x512x2048_S512x2048 : S1x512x2048.ShapeCasts S512x2048
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  transposes_S512x128_p1_0_S128x512 : S512x128.Transposes [1, 0] S128x512
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x1024_S1024x4224_S256x4224_1_0_0_1_n_n_wf : DotDims.WF S256x1024 S1024x4224 S256x4224 [1] [0] [0] [1] [] []
  dot_S256x128_S128x512_S256x512_1_0_0_1_n_n_wf : DotDims.WF S256x128 S128x512 S256x512 [1] [0] [0] [1] [] []
  dot_S256x512_S512x2048_S256x2048_1_0_0_1_n_n_wf : DotDims.WF S256x512 S512x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4224.size a ≤ S1024x4224.size a
  hwx0_1 : ∀ i : grid0.Coords, EltTy.bits .bf16 = 32 ∨ (Rect.block (s := S1024x4224) S1024x4224.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4224.size a ≤ S1x4224.size a
  hwx0_2 : ∀ i : grid0.Coords, EltTy.bits .f32 = 32 ∨ (Rect.block (s := S1x4224) S1x4224.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x128.size a
  hwx0_4 : ∀ i : grid0.Coords, EltTy.bits .f32 = 32 ∨ (Rect.block (s := S2x128) S2x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S8192x128.size a
  hwx0_5 : ∀ i : grid0.Coords, EltTy.bits .bf16 = 32 ∨ (Rect.block (s := S8192x128) S256x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S8192x128.size a
  hwx0_6 : ∀ i : grid0.Coords, EltTy.bits .bf16 = 32 ∨ (Rect.block (s := S8192x128) S256x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S8192x2048.size a
  hwx0_7 : ∀ i : grid0.Coords, EltTy.bits .bf16 = 32 ∨ (Rect.block (s := S8192x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S8192x2048.size a
  hwx0_8 : ∀ i : grid0.Coords, EltTy.bits .bf16 = 32 ∨ (Rect.block (s := S8192x2048) S256x2048.size (cc0_transform_8 i) (hinb0_8 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S1x512x128.size a ≤ S1x2048x128.size a
  k1_off2_inb : ∀ i : grid1.Coords, ∀ a, (k1_off2 i) a + S1x512x2048.size a ≤ S1x2048x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S4x2048x128.size a
  hwx1_0 : ∀ i : grid1.Coords, EltTy.bits .bf16 = 32 ∨ (Rect.block (s := S4x2048x128) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x128.size a
  hwx1_1 : ∀ i : grid1.Coords, EltTy.bits .bf16 = 32 ∨ (Rect.block (s := S4x2048x128) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x2048.size a ≤ S4x2048x2048.size a
  hwx1_2 : ∀ i : grid1.Coords, EltTy.bits .bf16 = 32 ∨ (Rect.block (s := S4x2048x2048) S1x2048x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S4x2048x2048.size a
  hwx1_3 : ∀ i : grid1.Coords, EltTy.bits .bf16 = 32 ∨ (Rect.block (s := S4x2048x2048) S1x256x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S2048x1024.size a
  hwx1_4 : ∀ i : grid1.Coords, EltTy.bits .bf16 = 32 ∨ (Rect.block (s := S2048x1024) S2048x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S4x2048x1024.size a
  hwx1_6 : ∀ i : grid1.Coords, EltTy.bits .f32 = 32 ∨ (Rect.block (s := S4x2048x1024) S1x256x1024.size (cc1_transform_6 i) (hinb1_6 i)).WholeWords (EltTy.packing .f32)

variable [Facts₀]

def dot_S256x1024_S1024x4224_S256x4224_1_0_0_1_n_n : DotDims S256x1024 S1024x4224 S256x4224 where
  lhsContracting := [1]
  rhsContracting := [0]
  lhsNonContracting := [0]
  rhsNonContracting := [1]
  lhsBatch := []
  rhsBatch := []
  wf := dot_S256x1024_S1024x4224_S256x4224_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4224.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4224.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S256x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S256x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_2) S256x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_3) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v4) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S2048x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x4224 : Shape := ⟨2, ![1024, 4224]⟩
abbrev S4224 : Shape := ⟨1, ![4224]⟩
abbrev S2x128 : Shape := ⟨2, ![2, 128]⟩
abbrev S2048x1024 : Shape := ⟨2, ![2048, 1024]⟩
abbrev S1024 : Shape := ⟨1, ![1024]⟩
abbrev S4x2048x4224 : Shape := ⟨3, ![4, 2048, 4224]⟩
abbrev S1x1x4224 : Shape := ⟨3, ![1, 1, 4224]⟩
abbrev S_ : Shape := ⟨0, ![]⟩
abbrev S4x2048x2048 : Shape := ⟨3, ![4, 2048, 2048]⟩
abbrev S4x2048x128 : Shape := ⟨3, ![4, 2048, 128]⟩
abbrev S4x2048x1x128 : Shape := ⟨4, ![4, 2048, 1, 128]⟩
abbrev S1x1x2x128 : Shape := ⟨4, ![1, 1, 2, 128]⟩
abbrev S4x2048x2x128 : Shape := ⟨4, ![4, 2048, 2, 128]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4224, .f32⟩
  | .hbm, ⟨2, _⟩ => ⟨S4224, .f32⟩
  | .hbm, ⟨3, _⟩ => ⟨S2x128, .f32⟩
  | .hbm, ⟨4, _⟩ => ⟨S2x128, .f32⟩
  | .hbm, ⟨5, _⟩ => ⟨S2048x1024, .f32⟩
  | .hbm, ⟨6, _⟩ => ⟨S1024, .f32⟩
  | .hbm, ⟨7, _⟩ => ⟨S4x2048x4224, .f32⟩
  | .hbm, ⟨8, _⟩ => ⟨S1x1x4224, .f32⟩
  | .hbm, ⟨9, _⟩ => ⟨S4x2048x4224, .f32⟩
  | .hbm, ⟨10, _⟩ => ⟨S4x2048x4224, .f32⟩
  | .hbm, ⟨11, _⟩ => ⟨S4x2048x4224, .f32⟩
  | .hbm, ⟨12, _⟩ => ⟨S4x2048x4224, .f32⟩
  | .hbm, ⟨13, _⟩ => ⟨S_, .f32⟩
  | .hbm, ⟨14, _⟩ => ⟨S4x2048x4224, .f32⟩
  | .hbm, ⟨15, _⟩ => ⟨S4x2048x4224, .f32⟩
  | .hbm, ⟨16, _⟩ => ⟨S_, .f32⟩
  | .hbm, ⟨17, _⟩ => ⟨S4x2048x4224, .f32⟩
  | .hbm, ⟨18, _⟩ => ⟨S4x2048x4224, .f32⟩
  | .hbm, ⟨19, _⟩ => ⟨S4x2048x4224, .f32⟩
  | .hbm, ⟨20, _⟩ => ⟨S4x2048x2048, .f32⟩
  | .hbm, ⟨21, _⟩ => ⟨S4x2048x2048, .f32⟩
  | .hbm, ⟨22, _⟩ => ⟨S4x2048x128, .f32⟩
  | .hbm, ⟨23, _⟩ => ⟨S4x2048x1x128, .f32⟩
  | .hbm, ⟨24, _⟩ => ⟨S1x1x2x128, .f32⟩
  | .hbm, ⟨25, _⟩ => ⟨S4x2048x2x128, .f32⟩
  | .hbm, ⟨26, _⟩ => ⟨S4x2048x2x128, .f32⟩
  | .hbm, ⟨27, _⟩ => ⟨S4x2048x2x128, .f32⟩
  | .hbm, ⟨28, _⟩ => ⟨S1x1x2x128, .f32⟩
  | .hbm, ⟨29, _⟩ => ⟨S4x2048x2x128, .f32⟩
  | .hbm, ⟨30, _⟩ => ⟨S4x2048x2x128, .f32⟩
  | .hbm, ⟨31, _⟩ => ⟨S4x2048x1x128, .f32⟩
  | .hbm, ⟨32, _⟩ => ⟨S4x2048x128, .f32⟩
  | .hbm, ⟨33, _⟩ => ⟨S4x2048x1x128, .f32⟩
  | .hbm, ⟨34, _⟩ => ⟨S4x2048x128, .f32⟩
  | .hbm, ⟨35, _⟩ => ⟨S4x2048x2048, .f32⟩
  | .hbm, ⟨36, _⟩ => ⟨S_, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x1024, .f32⟩
  | .hbm, ⟨46, _⟩ => ⟨S1x1x1024, .f32⟩
  | .hbm, ⟨47, _⟩ => ⟨S4x2048x1024, .f32⟩
  | .hbm, ⟨48, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S4224_S1x1x4224_2 : S4224.BroadcastsInDim S1x1x4224 (![2] : Fin 1 → Fin S1x1x4224.rank)
  bcast_S1x1x4224_S4x2048x4224_0_1_2 : S1x1x4224.BroadcastsInDim S4x2048x4224 (![0, 1, 2] : Fin 3 → Fin S4x2048x4224.rank)
  bcast_S_S4x2048x4224 : S_.BroadcastsInDim S4x2048x4224 (![] : Fin 0 → Fin S4x2048x4224.rank)
  slices_S4x2048x4224_S4x2048x2048_0_0_0 : S4x2048x4224.Slices ![0, 0, 0] S4x2048x2048
  slices_S4x2048x4224_S4x2048x2048_0_0_2048 : S4x2048x4224.Slices ![0, 0, 2048] S4x2048x2048
  slices_S4x2048x4224_S4x2048x128_0_0_4096 : S4x2048x4224.Slices ![0, 0, 4096] S4x2048x128
  bcast_S4x2048x128_S4x2048x1x128_0_1_3 : S4x2048x128.BroadcastsInDim S4x2048x1x128 (![0, 1, 3] : Fin 3 → Fin S4x2048x1x128.rank)
  bcast_S2x128_S1x1x2x128_2_3 : S2x128.BroadcastsInDim S1x1x2x128 (![2, 3] : Fin 2 → Fin S1x1x2x128.rank)
  bcast_S4x2048x1x128_S4x2048x2x128_0_1_2_3 : S4x2048x1x128.BroadcastsInDim S4x2048x2x128 (![0, 1, 2, 3] : Fin 4 → Fin S4x2048x2x128.rank)
  bcast_S1x1x2x128_S4x2048x2x128_0_1_2_3 : S1x1x2x128.BroadcastsInDim S4x2048x2x128 (![0, 1, 2, 3] : Fin 4 → Fin S4x2048x2x128.rank)
  slices_S4x2048x2x128_S4x2048x1x128_0_0_0_0 : S4x2048x2x128.Slices ![0, 0, 0, 0] S4x2048x1x128
  shapeCasts_S4x2048x1x128_S4x2048x128 : S4x2048x1x128.ShapeCasts S4x2048x128
  slices_S4x2048x2x128_S4x2048x1x128_0_0_1_0 : S4x2048x2x128.Slices ![0, 0, 1, 0] S4x2048x1x128
  bcast_S_S4x2048x2048 : S_.BroadcastsInDim S4x2048x2048 (![] : Fin 0 → Fin S4x2048x2048.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x4224_S4x2048x4224_2_0_01_1_n_n_wf : DotDims.WF S4x2048x1024 S1024x4224 S4x2048x4224 [2] [0] [0, 1] [1] [] []
  dot_S4x2048x128_S4x2048x128_S4x2048x2048_2_2_1_1_0_0_wf : DotDims.WF S4x2048x128 S4x2048x128 S4x2048x2048 [2] [2] [1] [1] [0] [0]
  dot_S4x2048x2048_S4x2048x2048_S4x2048x2048_2_1_1_2_0_0_wf : DotDims.WF S4x2048x2048 S4x2048x2048 S4x2048x2048 [2] [1] [1] [2] [0] [0]
  dot_S4x2048x2048_S2048x1024_S4x2048x1024_2_0_01_1_n_n_wf : DotDims.WF S4x2048x2048 S2048x1024 S4x2048x1024 [2] [0] [0, 1] [1] [] []

variable [Facts₀]

def dot_S4x2048x1024_S1024x4224_S4x2048x4224_2_0_01_1_n_n : DotDims S4x2048x1024 S1024x4224 S4x2048x4224 where
  lhsContracting := [2]
  rhsContracting := [0]
  lhsNonContracting := [0, 1]
  rhsNonContracting := [1]
  lhsBatch := []
  rhsBatch := []
  wf := dot_S4x2048x1024_S1024x4224_S4x2048x4224_2_0_01_1_n_n_wf
def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf
def dot_S4x2048x2048_S4x2048x2048_S4x2048x2048_2_1_1_2_0_0 : DotDims S4x2048x2048 S4x2048x2048 S4x2048x2048 where
  lhsContracting := [2]
  rhsContracting := [1]
  lhsNonContracting := [1]
  rhsNonContracting := [2]
  lhsBatch := [0]
  rhsBatch := [0]
  wf := dot_S4x2048x2048_S4x2048x2048_S4x2048x2048_2_1_1_2_0_0_wf
def dot_S4x2048x2048_S2048x1024_S4x2048x1024_2_0_01_1_n_n : DotDims S4x2048x2048 S2048x1024 S4x2048x1024 where
  lhsContracting := [2]
  rhsContracting := [0]
  lhsNonContracting := [0, 1]
  rhsNonContracting := [1]
  lhsBatch := []
  rhsBatch := []
  wf := dot_S4x2048x2048_S2048x1024_S4x2048x1024_2_0_01_1_n_n_wf

class Facts : Prop extends Facts₀ where

variable [Facts]
-- ==== Proof.K.R0.lean ====
import proofs.«132598_j6073083756839_2_alg».proof.Proof.Gen.Kernel.Launch
import proofs.«132598_j6073083756839_2_alg».proof.Proof.Gen.Kernel.Skeleton
import proofs.«132598_j6073083756839_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call (projection, gate activation, the two affine heads): its body at a point

The grid is the 32 row tiles of the flattened 8192 × 1024 input. At each point the body reads the row tile, the whole
weight matrix, the bias and the two affine tables, and stores one 256-row block into each of the four results; nothing is
kept between points. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's accesses: every load and store is of a whole buffer -/

abbrev r_S256x1024 : Rect S256x1024 := Rect.unit (s := S256x1024) ![0, 0] S256x1024.size inb_S256x1024_S256x1024_0_0
abbrev r_S1024x4224 : Rect S1024x4224 := Rect.unit (s := S1024x4224) ![0, 0] S1024x4224.size inb_S1024x4224_S1024x4224_0_0
abbrev r_S1x4224 : Rect S1x4224 := Rect.unit (s := S1x4224) ![0, 0] S1x4224.size inb_S1x4224_S1x4224_0_0
abbrev r_S2x128 : Rect S2x128 := Rect.unit (s := S2x128) ![0, 0] S2x128.size inb_S2x128_S2x128_0_0
abbrev r_S256x128 : Rect S256x128 := Rect.unit (s := S256x128) ![0, 0] S256x128.size inb_S256x128_S256x128_0_0
abbrev r_S256x2048 : Rect S256x2048 := Rect.unit (s := S256x2048) ![0, 0] S256x2048.size inb_S256x2048_S256x2048_0_0

/-- What the body leaves in output window 5's buffer: its one store, of the payload over the whole input blocks. -/
def out0_5 (x0 : Vec F S256x1024 .f32) (x1 : Vec F S1024x4224 .bf16) (x2 : Vec F S1x4224 .f32) (x3 : Vec F S2x128 .f32) (x4 : Vec F S2x128 .f32) : Vec F S256x128 .bf16 :=
  View.canon [⟨r_S256x128, k0_pay3 (View.ld x0 r_S256x1024) (View.ld x1 r_S1024x4224) (View.ld x2 r_S1x4224) (View.ld x3 r_S2x128) (View.ld x4 r_S2x128)⟩]
theorem cover0_5 (p0 : r_S256x128.shape.Idx → Elt F .bf16) (y : S256x128.Idx) :
    ∃ pc ∈ ([⟨r_S256x128, p0⟩] : List (View.Piece (Elt F) S256x128 .bf16)), y ∈ pc.1.set :=
  View.cover_of_tiled [⟨r_S256x128, p0⟩] S256x128.size (by rfl) y

/-- What the body leaves in output window 6's buffer: its one store, of the payload over the whole input blocks. -/
def out0_6 (x0 : Vec F S256x1024 .f32) (x1 : Vec F S1024x4224 .bf16) (x2 : Vec F S1x4224 .f32) (x3 : Vec F S2x128 .f32) (x4 : Vec F S2x128 .f32) : Vec F S256x128 .bf16 :=
  View.canon [⟨r_S256x128, k0_pay4 (View.ld x0 r_S256x1024) (View.ld x1 r_S1024x4224) (View.ld x2 r_S1x4224) (View.ld x3 r_S2x128) (View.ld x4 r_S2x128)⟩]
theorem cover0_6 (p0 : r_S256x128.shape.Idx → Elt F .bf16) (y : S256x128.Idx) :
    ∃ pc ∈ ([⟨r_S256x128, p0⟩] : List (View.Piece (Elt F) S256x128 .bf16)), y ∈ pc.1.set :=
  View.cover_of_tiled [⟨r_S256x128, p0⟩] S256x128.size (by rfl) y

/-- What the body leaves in output window 7's buffer: its one store, of the payload over the whole input blocks. -/
def out0_7 (x0 : Vec F S256x1024 .f32) (x1 : Vec F S1024x4224 .bf16) (x2 : Vec F S1x4224 .f32) : Vec F S256x2048 .bf16 :=
  View.canon [⟨r_S256x2048, k0_pay5 (View.ld x0 r_S256x1024) (View.ld x1 r_S1024x4224) (View.ld x2 r_S1x4224)⟩]
theorem cover0_7 (p0 : r_S256x2048.shape.Idx → Elt F .bf16) (y : S256x2048.Idx) :
    ∃ pc ∈ ([⟨r_S256x2048, p0⟩] : List (View.Piece (Elt F) S256x2048 .bf16)), y ∈ pc.1.set :=
  View.cover_of_tiled [⟨r_S256x2048, p0⟩] S256x2048.size (by rfl) y

/-- What the body leaves in output window 8's buffer: its one store, of the payload over the whole input blocks. -/
def out0_8 (x0 : Vec F S256x1024 .f32) (x1 : Vec F S1024x4224 .bf16) (x2 : Vec F S1x4224 .f32) : Vec F S256x2048 .bf16 :=
  View.canon [⟨r_S256x2048, k0_pay6 (View.ld x0 r_S256x1024) (View.ld x1 r_S1024x4224) (View.ld x2 r_S1x4224)⟩]
theorem cover0_8 (p0 : r_S256x2048.shape.Idx → Elt F .bf16) (y : S256x2048.Idx) :
    ∃ pc ∈ ([⟨r_S256x2048, p0⟩] : List (View.Piece (Elt F) S256x2048 .bf16)), y ∈ pc.1.set :=
  View.cover_of_tiled [⟨r_S256x2048, p0⟩] S256x2048.size (by rfl) y

/-! ## The body's triple -/

set_option maxHeartbeats 4000000 in
/-- On whole staging memrefs, the inputs' at contents `x·` and the outputs' at anything, the body runs to the
    continuation holding the inputs' as they were and each output's at its store's payload. -/
theorem sound_kernel0 (c : Dev nD) (E : Set ℕ) (i : grid0.Coords) (arg1 : Memref sig .tc .vmem S256x1024 .f32) (harg1 : arg1.IsWhole) (arg2 : Memref sig .tc .vmem S1024x4224 .bf16) (harg2 : arg2.IsWhole) (arg3 : Memref sig .tc .vmem S1x4224 .f32) (harg3 : arg3.IsWhole) (arg4 : Memref sig .tc .vmem S2x128 .f32) (harg4 : arg4.IsWhole) (arg5 : Memref sig .tc .vmem S2x128 .f32) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x2048 .bf16) (harg8 : arg8.IsWhole) (arg9 : Memref sig .tc .vmem S256x2048 .bf16) (harg9 : arg9.IsWhole)
    (x0 : Vec F S256x1024 .f32) (x1 : Vec F S1024x4224 .bf16) (x2 : Vec F S1x4224 .f32) (x3 : Vec F S2x128 .f32) (x4 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2) ∗ owns (c : Thread nD τ) arg9 fullShare (out0_8 x0 x1 x2)) -∗ K ⟨⟩))
      ⊢ wp frame (wpE (defs₀ (F := F)) Variants.none c none) E (cc0_kernel_a i arg1 harg1 arg2 harg2 arg3 harg3 arg4 harg4 arg5 harg5 arg6 harg6 arg7 harg7 arg8 harg8 arg9 harg9) K := by
  simp only [cc0_kernel_a_eq_skeleton]; unfold cc0_kernel_a_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The proof data of the first call -/

section
variable (V : (c : Dev nD) → (b : Ref sig .tc) → Buf (Elt F) ((c : Thread nD τ).loc b))

/-- The arrays as the region finds them; after the body at point `t` each input's buffer at its block and each output's at
    the store's payload over the input blocks; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t)
    | ⟨8, _⟩ => out0_8 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t
end

end Cert.Kernel.Fr

end
-- ==== Proof.K.R1Base.lean ====
import proofs.«132598_j6073083756839_2_alg».proof.Proof.Gen.Kernel.Launch
import proofs.«132598_j6073083756839_2_alg».proof.Proof.Gen.Kernel.Skeleton
import proofs.«132598_j6073083756839_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call (the attention kernel): what its per-case runs share

The grid is (batch, query tile, key tile) = 4 × 8 × 4, the key tile innermost. The accumulator scratch is zeroed when the
key tile is 0, added to at every point, and read by the epilogue when the key tile is 3; the output block is stored only
there. So a point is in one of three cases: first key tile, middle key tiles, last key tile. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
end

/-! ## The two branch conditions, in closed form over the grid -/

/-- "The key tile is the first": the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "The key tile is the last": the epilogue runs and the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last key tile the output window is idle and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last key tile it is live. -/
theorem liveAt1_6 : ∀ t : Fin cfg1.N, cond1_1 (grid1.coords t) → cfg1.idle 6 (grid1.coords t) = false := by decide +kernel

/-! ## The memrefs the body is called with -/

abbrev ms1_0 (t : Fin cfg1.N) : Memref sig .tc .vmem S1x256x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x1024 .f32 := win1_6.stage (cfg1.slots t 6)
abbrev hs1_6 (t : Fin cfg1.N) : (ms1_6 t).IsWhole := hstage1_6 ((cfg1.slots t 6).cast nbuf1_6)
/-- The accumulator: a whole scoped buffer of the kernel's own. -/
abbrev scM1_0 : Memref sig .tc .vmem S256x2048 .f32 := Memref.whole cc1_scratch0
abbrev VS1_0 : View sig .tc .vmem S256x2048 .f32 := scM1_0.view
/-- One staging buffer of the output window, through which its contents are stated. -/
abbrev VO1_6 : View sig .tc .vmem S1x256x1024 .f32 := (Memref.whole cc1_stg6_0 : Memref sig .tc .vmem S1x256x1024 .f32).view

/-! ## The scoped buffers the second call does not stage

Besides its accumulator these are the first call's fourteen staging buffers: the second call never touches them, and they
ride through every point at contents nobody names. -/

/-- The first call's staging buffers, each whole at some contents. -/
def oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f))

/-- The scoped rest of the second call with the accumulator's share `S` a parameter (the library's order: the accumulator last). -/
def others1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ S)

theorem others1_out (c : Dev nD) (S : sProp 𝕄) : others1 (F := F) c S ⊢ iprop(S ∗ oth1 (F := F) c) := by
  unfold others1 oth1
  iintro ⟨B0, B1, B2, B3, B4, B5, B6, B7, B8, B9, B10, B11, B12, B13, HS⟩
  isplitl [HS]; · iexact HS
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  iexact B13

theorem others1_in (c : Dev nD) (S : sProp 𝕄) : iprop(S ∗ oth1 (F := F) c) ⊢ others1 (F := F) c S := by
  unfold others1 oth1
  iintro ⟨HS, B0, B1, B2, B3, B4, B5, B6, B7, B8, B9, B10, B11, B12, B13⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  iexact HS

/-- The class invariant with the accumulator as a memref owned at some contents. -/
theorem PhiA1_eq (c : Dev nD) :
    (Pipeline.ΦA spec1 c : sProp 𝕄)
      = iprop(others1 c (iprop(∃ d, owns (c : Thread nD τ) scM1_0 fullShare d)) ∗ (∃ r, prngReg c r)) := by
  unfold Pipeline.ΦA others1; rw [scopedRest1_eq]; simp only [scM1_0, owns_whole]; try rfl

end Cert.Kernel.Fr

end
-- ==== Proof.K.R1RunA.lean ====
import proofs.«132598_j6073083756839_2_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of the first key tile: the accumulator is zeroed, then holds this tile's product; the output block is handed back untouched. The lists are what the stores leave in the output's buffer and in the
    accumulator, as pieces (last first); they are found by running the body, and the proof is that run. -/
noncomputable def kernelRun1_A (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) :
    Σ' (L6 : List (View.Piece (Elt F) S1x256x1024 .f32)), { LS0 : List (View.Piece (Elt F) S256x2048 .f32) //
      ∀ (xi6 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel_b i arg3 harg3 arg4 harg4 arg5 harg5 arg6 harg6 arg7 harg7 arg8 harg8 arg9 harg9 arg10 harg10) K } := by
  refine ⟨[], ?_, fun xi6 E K => ?run⟩
  case run =>
    simp only [cc1_kernel_b_eq_skeleton]; unfold cc1_kernel_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Fr

end
-- ==== Proof.K.R1RunB.lean ====
import proofs.«132598_j6073083756839_2_alg».proof.Proof.K.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of the a middle key tile: the accumulator gains this tile's product; the output block is handed back untouched. The lists are what the stores leave in the output's buffer and in the
    accumulator, as pieces (last first); they are found by running the body, and the proof is that run. -/
noncomputable def kernelRun1_B (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) :
    Σ' (L6 : List (View.Piece (Elt F) S1x256x1024 .f32)), { LS0 : List (View.Piece (Elt F) S256x2048 .f32) //
      ∀ (xi6 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel_b i arg3 harg3 arg4 harg4 arg5 harg5 arg6 harg6 arg7 harg7 arg8 harg8 arg9 harg9 arg10 harg10) K } := by
  refine ⟨[], ?_, fun xi6 E K => ?run⟩
  case run =>
    simp only [cc1_kernel_b_eq_skeleton]; unfold cc1_kernel_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Fr

end
-- ==== Proof.K.R1RunC.lean ====
import proofs.«132598_j6073083756839_2_alg».proof.Proof.K.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of the last key tile: the accumulator gains this tile's product, and the epilogue stores the gated, projected block into the output. The lists are what the stores leave in the output's buffer and in the
    accumulator, as pieces (last first); they are found by running the body, and the proof is that run. -/
noncomputable def kernelRun1_C (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) :
    Σ' (L6 : List (View.Piece (Elt F) S1x256x1024 .f32)), { LS0 : List (View.Piece (Elt F) S256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1_kernel_b i arg3 harg3 arg4 harg4 arg5 harg5 arg6 harg6 arg7 harg7 arg8 harg8 arg9 harg9 arg10 harg10) K } := by
  refine ⟨?_, ?_, fun E K => ?run⟩
  case run =>
    simp only [cc1_kernel_b_eq_skeleton]; unfold cc1_kernel_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.Kernel.Fr

end
-- ==== Proof.K.R1.lean ====
import proofs.«132598_j6073083756839_2_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call: what the output block and the accumulator hold point by point, the proof data, the body obligation -/

/-- What case A leaves in the output block's buffer: its pieces read back over junk (none: a placeholder nothing consults, the window being idle there). -/
def out1_A_6 (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) : Vec F S1x256x1024 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4 x5).1)

/-- Case A's stores into the accumulator cover it. -/
theorem scover1_A (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (y : S256x2048.Idx) :
    ∃ pc ∈ (kernelRun1_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).2.1 S256x2048.size (by sl_kernel_rfl) y

/-- What case A leaves in the accumulator. -/
def sout1_A (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) : Vec F S256x2048 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4 x5).2.1)

/-- What case B leaves in the output block's buffer: its pieces read back over junk (none: a placeholder nothing consults, the window being idle there). -/
def out1_B_6 (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) : Vec F S1x256x1024 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 x5 xs0).1)

/-- Case B's stores into the accumulator cover it. -/
theorem scover1_B (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) (y : S256x2048.Idx) :
    ∃ pc ∈ (kernelRun1_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xs0).2.1 S256x2048.size (by sl_kernel_rfl) y

/-- What case B leaves in the accumulator. -/
def sout1_B (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) : Vec F S256x2048 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 x5 xs0).2.1)

/-- What case C leaves in the output block's buffer: its pieces read back over junk. -/
def out1_C_6 (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) : Vec F S1x256x1024 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xs0).1)

/-- Case C's one store into the output block covers it. -/
theorem cover1_C_6 (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) (y : S1x256x1024.Idx) :
    ∃ pc ∈ (kernelRun1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).1 S1x256x1024.size (by sl_kernel_rfl) y

/-- Case C's stores into the accumulator cover it. -/
theorem scover1_C (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) (y : S256x2048.Idx) :
    ∃ pc ∈ (kernelRun1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).2.1 S256x2048.size (by sl_kernel_rfl) y

/-- What case C leaves in the accumulator. -/
def sout1_C (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) : Vec F S256x2048 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 x5 xs0).2.1)

section
variable (V : (c : Dev nD) → (b : Ref sig .tc) → Buf (Elt F) ((c : Thread nD τ).loc b))

/-! ## The accumulation -/

/-- What the output block's buffer and the accumulator hold after the body at position `n`: the case the key tile selects,
    run at the point's memrefs and input blocks, the accumulator entering at what position `n - 1` left in it. -/
def outsAt1 (c : Dev nD) : (n : ℕ) → n < cfg1.N → Vec F S1x256x1024 .f32 × Vec F S256x2048 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 3 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried between points -/

/-- Before the first point the class's invariant (every scoped buffer the call does not stage at anything, the generator
    register); afterwards the same with the accumulator at what the point before left in it. -/
def PhiS (c : Dev nD) : (n : ℕ) → n ≤ cfg1.N → sProp 𝕄
  | 0, _ => Pipeline.ΦA spec1 c
  | n + 1, hn => iprop(others1 c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(others1 c (owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the key tile says which case the point is in; the
    invariant hands the run the accumulator (at anything at the very first point, else at what the point before left)
    and takes it back at this point's contents; the foreign staging buffers and the generator register pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_A V c t h0 h1]
      unfold sout1_A; (try dsimp only)
      by_cases hz : t.val = 0
      ·
        rw [PhiS_castSucc V c t, PhiS_zero V c _ _ hz, PhiA1_eq]
        iintro ⟨⟨HO, Hg⟩, Ho, ⟨%d0, H0⟩, ⟨%d1, H1⟩, ⟨%d2, H2⟩, ⟨%d3, H3⟩, ⟨%d4, H4⟩, ⟨%d5, H5⟩, ⟨%d6, H6⟩⟩
        ihave HO' := (others1_out c _) $$ HO
        icases HO' with ⟨HS0, Hoth⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hoth Hg]
        · isplitl [HS0 Hoth]
          · iapply (others1_in c _)
            isplitl [HS0]
            · unfold owns; iexists _; isplitr
              swap; · iexact HS0
              ipureintro; exact View.read_writes_of_cover _ _ _ _ _ (scover1_A c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) )
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS_castSucc V c t, PhiS_pos V c _ _ hz]
        iintro ⟨⟨HO, Hg⟩, Ho, ⟨%d0, H0⟩, ⟨%d1, H1⟩, ⟨%d2, H2⟩, ⟨%d3, H3⟩, ⟨%d4, H4⟩, ⟨%d5, H5⟩, ⟨%d6, H6⟩⟩
        ihave HO' := (others1_out c _) $$ HO
        icases HO' with ⟨HS0, Hoth⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hoth Hg]
        · isplitl [HS0 Hoth]
          · iapply (others1_in c _)
            isplitl [HS0]
            · unfold owns; iexists _; isplitr
              swap; · iexact HS0
              ipureintro; exact View.read_writes_of_cover _ _ _ _ _ (scover1_A c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) )
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C; (try dsimp only)
      by_cases hz : t.val = 0
      · exfalso; omega
      ·
        rw [PhiS_castSucc V c t, PhiS_pos V c _ _ hz]
        iintro ⟨⟨HO, Hg⟩, Ho, ⟨%d0, H0⟩, ⟨%d1, H1⟩, ⟨%d2, H2⟩, ⟨%d3, H3⟩, ⟨%d4, H4⟩, ⟨%d5, H5⟩, ⟨%d6, H6⟩⟩
        ihave HO' := (others1_out c _) $$ HO
        icases HO' with ⟨HS0, Hoth⟩
        iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hoth Hg]
        · isplitl [HS0 Hoth]
          · iapply (others1_in c _)
            isplitl [HS0]
            · unfold owns; iexists _; isplitr
              swap; · iexact HS0
              ipureintro; exact View.read_writes_of_cover _ _ _ _ _ (scover1_C c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) _ )
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B; (try dsimp only)
      by_cases hz : t.val = 0
      · exfalso; omega
      ·
        rw [PhiS_castSucc V c t, PhiS_pos V c _ _ hz]
        iintro ⟨⟨HO, Hg⟩, Ho, ⟨%d0, H0⟩, ⟨%d1, H1⟩, ⟨%d2, H2⟩, ⟨%d3, H3⟩, ⟨%d4, H4⟩, ⟨%d5, H5⟩, ⟨%d6, H6⟩⟩
        ihave HO' := (others1_out c _) $$ HO
        icases HO' with ⟨HS0, Hoth⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hoth Hg]
        · isplitl [HS0 Hoth]
          · iapply (others1_in c _)
            isplitl [HS0]
            · unfold owns; iexists _; isplitr
              swap; · iexact HS0
              ipureintro; exact View.read_writes_of_cover _ _ _ _ _ (scover1_B c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ )
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨HO, Hg⟩
  isplitl [HO]
  · ihave HO' := (others1_out c _) $$ HO
    icases HO' with ⟨HS0, Hoth⟩
    iapply (others1_in c _)
    isplitl [HS0]; · iexists _; iexact HS0
    iexact Hoth
  iexact Hg
end

end Cert.Kernel.Fr

end
-- ==== Proof.K.Run.lean ====
import proofs.«132598_j6073083756839_2_alg».proof.Proof.K.R0
import proofs.«132598_j6073083756839_2_alg».proof.Proof.K.R1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four items from the launch to the return

Host operations (a reshape, a change of format, a reshape), the first call, host operations (four reshapes, a change of
format, a reshape), the second call. Between two items a core holds every unscoped buffer at contents named here. -/

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the first call's exit: its arrays at what the write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (the second call's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-! ## The arguments end as launched

No host operation writes an argument; the first call reads the two affine tables through input windows and bypasses the
other arguments; the second call bypasses them all. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (E1 m ρ) c).arrAt_in 3 rfl _).trans (A_eq0 (E1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 4).trans (((dat0 (E1 m ρ) c).arrAt_in 4 rfl _).trans (A_eq0 (E1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The result: the second call's output array after its last write-back. -/
theorem W4_main_v10 (c : Dev nD) : W4 m ρ c (Proc.devRef .tc main_v10) = (dat1 (E3 m ρ) c).arrAt 6 cfg1.N :=
  W4_arr m ρ c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The first call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W3`, left at `W4`; its invariant starts as the class's and
    ends as the class's with the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (E3 m ρ) c
    unfold Pipeline.ΦA at h
    show (dat1 (E3 m ρ) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every final
    state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame, at any instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

/-- The value run: the result array ends at the second call's output array after its last write-back, the arguments as
    launched. -/
theorem run_value : θ_run defs (onTc (τ := τ) (main (F := F))) ⟨m, fun _ => 0, ρ⟩ (fun r => ∀ c : Dev nD,
      r.2.mem ((c.tc : Thread nD τ).loc main_v10) = (dat1 (E3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v10 (by decide))).trans (W4_main_v10 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.Kernel.Fr

end
-- ==== Proof.KI.R1Base.lean ====
import proofs.«132598_j6073083756839_2_alg».proof.Proof.Gen.KernelIdeal.Launch
import proofs.«132598_j6073083756839_2_alg».proof.Proof.Gen.KernelIdeal.Skeleton
import proofs.«132598_j6073083756839_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call (the attention kernel): what its per-case runs share

The grid is (batch, query tile, key tile) = 4 × 8 × 4, the key tile innermost. The accumulator scratch is zeroed when the
key tile is 0, added to at every point, and read by the epilogue when the key tile is 3; the output block is stored only
there. So a point is in one of three cases: first key tile, middle key tiles, last key tile. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
end

/-! ## The two branch conditions, in closed form over the grid -/

/-- "The key tile is the first": the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "The key tile is the last": the epilogue runs and the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from the last key tile the output window is idle and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last key tile it is live. -/
theorem liveAt1_6 : ∀ t : Fin cfg1.N, cond1_1 (grid1.coords t) → cfg1.idle 6 (grid1.coords t) = false := by decide +kernel

/-! ## The memrefs the body is called with -/

abbrev ms1_0 (t : Fin cfg1.N) : Memref sig .tc .vmem S1x256x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x1024 .f32 := win1_6.stage (cfg1.slots t 6)
abbrev hs1_6 (t : Fin cfg1.N) : (ms1_6 t).IsWhole := hstage1_6 ((cfg1.slots t 6).cast nbuf1_6)
/-- The accumulator: a whole scoped buffer of the kernel's own. -/
abbrev scM1_0 : Memref sig .tc .vmem S256x2048 .f32 := Memref.whole cc1_scratch0
abbrev VS1_0 : View sig .tc .vmem S256x2048 .f32 := scM1_0.view
/-- One staging buffer of the output window, through which its contents are stated. -/
abbrev VO1_6 : View sig .tc .vmem S1x256x1024 .f32 := (Memref.whole cc1_stg6_0 : Memref sig .tc .vmem S1x256x1024 .f32).view

/-! ## The scoped buffers the second call does not stage

Besides its accumulator these are the first call's fourteen staging buffers: the second call never touches them, and they
ride through every point at contents nobody names. -/

/-- The first call's staging buffers, each whole at some contents. -/
def oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f))

/-- The scoped rest of the second call with the accumulator's share `S` a parameter (the library's order: the accumulator last). -/
def others1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ S)

theorem others1_out (c : Dev nD) (S : sProp 𝕄) : others1 (F := F) c S ⊢ iprop(S ∗ oth1 (F := F) c) := by
  unfold others1 oth1
  iintro ⟨B0, B1, B2, B3, B4, B5, B6, B7, B8, B9, B10, B11, B12, B13, HS⟩
  isplitl [HS]; · iexact HS
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  iexact B13

theorem others1_in (c : Dev nD) (S : sProp 𝕄) : iprop(S ∗ oth1 (F := F) c) ⊢ others1 (F := F) c S := by
  unfold others1 oth1
  iintro ⟨HS, B0, B1, B2, B3, B4, B5, B6, B7, B8, B9, B10, B11, B12, B13⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  iexact HS

/-- The class invariant with the accumulator as a memref owned at some contents. -/
theorem PhiA1_eq (c : Dev nD) :
    (Pipeline.ΦA spec1 c : sProp 𝕄)
      = iprop(others1 c (iprop(∃ d, owns (c : Thread nD τ) scM1_0 fullShare d)) ∗ (∃ r, prngReg c r)) := by
  unfold Pipeline.ΦA others1; rw [scopedRest1_eq]; simp only [scM1_0, owns_whole]; try rfl

end Cert.KernelIdeal.Fr

end
-- ==== Proof.KI.R1RunA.lean ====
import proofs.«132598_j6073083756839_2_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of the first key tile: the accumulator is zeroed, then holds this tile's product; the output block is handed back untouched. The lists are what the stores leave in the output's buffer and in the
    accumulator, as pieces (last first); they are found by running the body, and the proof is that run. -/
noncomputable def kernelRun1_A (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) :
    Σ' (L6 : List (View.Piece (Elt F) S1x256x1024 .f32)), { LS0 : List (View.Piece (Elt F) S256x2048 .f32) //
      ∀ (xi6 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel_b i arg3 harg3 arg4 harg4 arg5 harg5 arg6 harg6 arg7 harg7 arg8 harg8 arg9 harg9 arg10 harg10) K } := by
  refine ⟨[], ?_, fun xi6 E K => ?run⟩
  case run =>
    simp only [cc1_kernel_b_eq_skeleton]; unfold cc1_kernel_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Fr

end
-- ==== Proof.KI.R1RunB.lean ====
import proofs.«132598_j6073083756839_2_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of the a middle key tile: the accumulator gains this tile's product; the output block is handed back untouched. The lists are what the stores leave in the output's buffer and in the
    accumulator, as pieces (last first); they are found by running the body, and the proof is that run. -/
noncomputable def kernelRun1_B (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) :
    Σ' (L6 : List (View.Piece (Elt F) S1x256x1024 .f32)), { LS0 : List (View.Piece (Elt F) S256x2048 .f32) //
      ∀ (xi6 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel_b i arg3 harg3 arg4 harg4 arg5 harg5 arg6 harg6 arg7 harg7 arg8 harg8 arg9 harg9 arg10 harg10) K } := by
  refine ⟨[], ?_, fun xi6 E K => ?run⟩
  case run =>
    simp only [cc1_kernel_b_eq_skeleton]; unfold cc1_kernel_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Fr

end
-- ==== Proof.KI.R1RunC.lean ====
import proofs.«132598_j6073083756839_2_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point of the last key tile: the accumulator gains this tile's product, and the epilogue stores the gated, projected block into the output. The lists are what the stores leave in the output's buffer and in the
    accumulator, as pieces (last first); they are found by running the body, and the proof is that run. -/
noncomputable def kernelRun1_C (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) :
    Σ' (L6 : List (View.Piece (Elt F) S1x256x1024 .f32)), { LS0 : List (View.Piece (Elt F) S256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1_kernel_b i arg3 harg3 arg4 harg4 arg5 harg5 arg6 harg6 arg7 harg7 arg8 harg8 arg9 harg9 arg10 harg10) K } := by
  refine ⟨?_, ?_, fun E K => ?run⟩
  case run =>
    simp only [cc1_kernel_b_eq_skeleton]; unfold cc1_kernel_b_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Fr

end
-- ==== Proof.KI.R1.lean ====
import proofs.«132598_j6073083756839_2_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call: what the output block and the accumulator hold point by point, the proof data, the body obligation -/

/-- What case A leaves in the output block's buffer: its pieces read back over junk (none: a placeholder nothing consults, the window being idle there). -/
def out1_A_6 (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) : Vec F S1x256x1024 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4 x5).1)

/-- Case A's stores into the accumulator cover it. -/
theorem scover1_A (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (y : S256x2048.Idx) :
    ∃ pc ∈ (kernelRun1_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).2.1 S256x2048.size (by sl_kernel_rfl) y

/-- What case A leaves in the accumulator. -/
def sout1_A (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) : Vec F S256x2048 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4 x5).2.1)

/-- What case B leaves in the output block's buffer: its pieces read back over junk (none: a placeholder nothing consults, the window being idle there). -/
def out1_B_6 (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) : Vec F S1x256x1024 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 x5 xs0).1)

/-- Case B's stores into the accumulator cover it. -/
theorem scover1_B (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) (y : S256x2048.Idx) :
    ∃ pc ∈ (kernelRun1_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xs0).2.1 S256x2048.size (by sl_kernel_rfl) y

/-- What case B leaves in the accumulator. -/
def sout1_B (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) : Vec F S256x2048 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 x5 xs0).2.1)

/-- What case C leaves in the output block's buffer: its pieces read back over junk. -/
def out1_C_6 (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) : Vec F S1x256x1024 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xs0).1)

/-- Case C's one store into the output block covers it. -/
theorem cover1_C_6 (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) (y : S1x256x1024.Idx) :
    ∃ pc ∈ (kernelRun1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).1 S1x256x1024.size (by sl_kernel_rfl) y

/-- Case C's stores into the accumulator cover it. -/
theorem scover1_C (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) (y : S256x2048.Idx) :
    ∃ pc ∈ (kernelRun1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).2.1 S256x2048.size (by sl_kernel_rfl) y

/-- What case C leaves in the accumulator. -/
def sout1_C (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) : Vec F S256x2048 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 x5 xs0).2.1)

section
variable (V : (c : Dev nD) → (b : Ref sig .tc) → Buf (Elt F) ((c : Thread nD τ).loc b))

/-! ## The accumulation -/

/-- What the output block's buffer and the accumulator hold after the body at position `n`: the case the key tile selects,
    run at the point's memrefs and input blocks, the accumulator entering at what position `n - 1` left in it. -/
def outsAt1 (c : Dev nD) : (n : ℕ) → n < cfg1.N → Vec F S1x256x1024 .f32 × Vec F S256x2048 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 3 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried between points -/

/-- Before the first point the class's invariant (every scoped buffer the call does not stage at anything, the generator
    register); afterwards the same with the accumulator at what the point before left in it. -/
def PhiS (c : Dev nD) : (n : ℕ) → n ≤ cfg1.N → sProp 𝕄
  | 0, _ => Pipeline.ΦA spec1 c
  | n + 1, hn => iprop(others1 c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(others1 c (owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the key tile says which case the point is in; the
    invariant hands the run the accumulator (at anything at the very first point, else at what the point before left)
    and takes it back at this point's contents; the foreign staging buffers and the generator register pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_A V c t h0 h1]
      unfold sout1_A; (try dsimp only)
      by_cases hz : t.val = 0
      ·
        rw [PhiS_castSucc V c t, PhiS_zero V c _ _ hz, PhiA1_eq]
        iintro ⟨⟨HO, Hg⟩, Ho, ⟨%d0, H0⟩, ⟨%d1, H1⟩, ⟨%d2, H2⟩, ⟨%d3, H3⟩, ⟨%d4, H4⟩, ⟨%d5, H5⟩, ⟨%d6, H6⟩⟩
        ihave HO' := (others1_out c _) $$ HO
        icases HO' with ⟨HS0, Hoth⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hoth Hg]
        · isplitl [HS0 Hoth]
          · iapply (others1_in c _)
            isplitl [HS0]
            · unfold owns; iexists _; isplitr
              swap; · iexact HS0
              ipureintro; exact View.read_writes_of_cover _ _ _ _ _ (scover1_A c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) )
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS_castSucc V c t, PhiS_pos V c _ _ hz]
        iintro ⟨⟨HO, Hg⟩, Ho, ⟨%d0, H0⟩, ⟨%d1, H1⟩, ⟨%d2, H2⟩, ⟨%d3, H3⟩, ⟨%d4, H4⟩, ⟨%d5, H5⟩, ⟨%d6, H6⟩⟩
        ihave HO' := (others1_out c _) $$ HO
        icases HO' with ⟨HS0, Hoth⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hoth Hg]
        · isplitl [HS0 Hoth]
          · iapply (others1_in c _)
            isplitl [HS0]
            · unfold owns; iexists _; isplitr
              swap; · iexact HS0
              ipureintro; exact View.read_writes_of_cover _ _ _ _ _ (scover1_A c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) )
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C; (try dsimp only)
      by_cases hz : t.val = 0
      · exfalso; omega
      ·
        rw [PhiS_castSucc V c t, PhiS_pos V c _ _ hz]
        iintro ⟨⟨HO, Hg⟩, Ho, ⟨%d0, H0⟩, ⟨%d1, H1⟩, ⟨%d2, H2⟩, ⟨%d3, H3⟩, ⟨%d4, H4⟩, ⟨%d5, H5⟩, ⟨%d6, H6⟩⟩
        ihave HO' := (others1_out c _) $$ HO
        icases HO' with ⟨HS0, Hoth⟩
        iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hoth Hg]
        · isplitl [HS0 Hoth]
          · iapply (others1_in c _)
            isplitl [HS0]
            · unfold owns; iexists _; isplitr
              swap; · iexact HS0
              ipureintro; exact View.read_writes_of_cover _ _ _ _ _ (scover1_C c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) _ )
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B; (try dsimp only)
      by_cases hz : t.val = 0
      · exfalso; omega
      ·
        rw [PhiS_castSucc V c t, PhiS_pos V c _ _ hz]
        iintro ⟨⟨HO, Hg⟩, Ho, ⟨%d0, H0⟩, ⟨%d1, H1⟩, ⟨%d2, H2⟩, ⟨%d3, H3⟩, ⟨%d4, H4⟩, ⟨%d5, H5⟩, ⟨%d6, H6⟩⟩
        ihave HO' := (others1_out c _) $$ HO
        icases HO' with ⟨HS0, Hoth⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hoth Hg]
        · isplitl [HS0 Hoth]
          · iapply (others1_in c _)
            isplitl [HS0]
            · unfold owns; iexists _; isplitr
              swap; · iexact HS0
              ipureintro; exact View.read_writes_of_cover _ _ _ _ _ (scover1_B c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ )
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨HO, Hg⟩
  isplitl [HO]
  · ihave HO' := (others1_out c _) $$ HO
    icases HO' with ⟨HS0, Hoth⟩
    iapply (others1_in c _)
    isplitl [HS0]; · iexists _; iexact HS0
    iexact Hoth
  iexact Hg
end

end Cert.KernelIdeal.Fr

end
-- ==== Proof.KI.Val1a.lean ====
import proofs.«132598_j6073083756839_2_alg».proof.Proof.KI.R1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second call: each case's stores read back as values -/

theorem hz2 : (![0, 0] : Fin 2 → Nat) = fun _ => 0 := funext fun a => by fin_cases a <;> rfl
theorem hz3 : (![0, 0, 0] : Fin 3 → Nat) = fun _ => 0 := funext fun a => by fin_cases a <;> rfl

/-- The key rows and the value rows of the current key tile, as rectangles of the resident per-batch blocks. -/
abbrev rK (i : grid1.Coords) : Rect S1x2048x128 := Rect.unit (s := S1x2048x128) (k1_off1 i) S1x512x128.size (k1_off1_inb i)
abbrev rV (i : grid1.Coords) : Rect S1x2048x2048 := Rect.unit (s := S1x2048x2048) (k1_off2 i) S1x512x2048.size (k1_off2_inb i)

/-- One key tile's step on the accumulator: add the squared-positive scores of the query block against the tile's key
    rows, times the tile's value rows. -/
def step1 (i : grid1.Coords) (x0 : Vec F S1x256x128 .bf16) (x1 : Vec F S1x2048x128 .bf16) (x2 : Vec F S1x2048x2048 .bf16)
    (acc : Vec F S256x2048 .f32) : Vec F S256x2048 .f32 :=
  k1_pay2 (View.ld x1 (rK i)) (View.ld x2 (rV i)) x0 acc

/-- What the accumulator holds after a point of case A: the step applied to the zero block the reset stored. -/
theorem sout1_A_eq (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) :
    sout1_A c i arg3 harg3 arg4 harg4 arg5 harg5 arg6 harg6 arg7 harg7 arg8 harg8 arg9 harg9 arg10 harg10 hc0 hc1 x0 x1 x2 x3 x4 x5 = step1 i x0 x1 x2 (k1_pay1 (F := F)) := by
  unfold sout1_A
  rw [View.read_writes_eq_canon _ _ _ (scover1_A c i arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_cons_unit_zero (S := S256x2048) hz2, View.readCov_unit_zero (S := S256x2048) _ hz2]
  unfold step1
  simp only [View.readAt_eq_ld, harg3.read_unread, harg4.read_unread, harg5.read_unread, harg10.read_unread, View.ld_unit_zero (S := S256x2048) hz2, View.ld_unit_zero (S := S1x256x128) hz3]
  rfl

/-- What the accumulator holds after a point of case B: the step applied to what it held on entry. -/
theorem sout1_B_eq (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : ¬cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) :
    sout1_B c i arg3 harg3 arg4 harg4 arg5 harg5 arg6 harg6 arg7 harg7 arg8 harg8 arg9 harg9 arg10 harg10 hc0 hc1 x0 x1 x2 x3 x4 x5 xs0 = step1 i x0 x1 x2 xs0 := by
  unfold sout1_B
  rw [View.read_writes_eq_canon _ _ _ (scover1_B c i arg3 harg3 arg4 harg4 arg5 harg5 arg6 harg6 arg7 harg7 arg8 harg8 arg9 harg9 arg10 harg10 hc0 hc1 x0 x1 x2 x3 x4 x5 xs0)]
  unfold kernelRun1_B
  dsimp only
  rw [View.canon_unit_zero hz2]
  unfold step1
  simp only [View.readAt_eq_ld, harg3.read_unread, harg4.read_unread, harg5.read_unread, harg10.read_unread, View.ld_unit_zero (S := S256x2048) hz2, View.ld_unit_zero (S := S1x256x128) hz3]

/-- What the accumulator holds after a point of case C: the step applied to what it held on entry. -/
theorem sout1_C_eq (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) :
    sout1_C c i arg3 harg3 arg4 harg4 arg5 harg5 arg6 harg6 arg7 harg7 arg8 harg8 arg9 harg9 arg10 harg10 hc0 hc1 x0 x1 x2 x3 x4 x5 xs0 = step1 i x0 x1 x2 xs0 := by
  unfold sout1_C
  rw [View.read_writes_eq_canon _ _ _ (scover1_C c i arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero hz2]
  unfold step1
  simp only [View.readAt_eq_ld, harg3.read_unread, harg4.read_unread, harg5.read_unread, harg10.read_unread, View.ld_unit_zero (S := S256x2048) hz2, View.ld_unit_zero (S := S1x256x128) hz3]
  rfl

/-- What the epilogue stores into the output block: the gate, the accumulator just updated, the output matrix, the bias. -/
theorem out1_C_6_eq (c : Dev nD) (i : grid1.Coords) (arg3 : Memref sig .tc .vmem S1x256x128 .bf16) (harg3 : arg3.IsWhole) (arg4 : Memref sig .tc .vmem S1x2048x128 .bf16) (harg4 : arg4.IsWhole) (arg5 : Memref sig .tc .vmem S1x2048x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x2048x128 .bf16) (x2 : Vec F S1x2048x2048 .bf16) (x3 : Vec F S1x256x2048 .bf16) (x4 : Vec F S2048x1024 .bf16) (x5 : Vec F S1x1024 .f32) (xs0 : Vec F S256x2048 .f32) :
    out1_C_6 c i arg3 harg3 arg4 harg4 arg5 harg5 arg6 harg6 arg7 harg7 arg8 harg8 arg9 harg9 arg10 harg10 hc0 hc1 x0 x1 x2 x3 x4 x5 xs0 = k1_pay3 x3 (step1 i x0 x1 x2 xs0) x4 x5 := by
  unfold out1_C_6
  rw [View.read_writes_eq_canon _ _ _ (cover1_C_6 c i arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero hz3]
  unfold step1
  simp only [View.readAt_eq_ld, harg3.read_unread, harg4.read_unread, harg5.read_unread, harg6.read_unread, harg7.read_unread, harg8.read_unread, harg10.read_unread,
    View.readCov_unit_zero (S := S256x2048) _ hz2,
    View.ld_unit_zero (S := S256x2048) hz2, View.ld_unit_zero (S := S1x256x128) hz3, View.ld_unit_zero (S := S1x256x2048) hz3, View.ld_unit_zero (S := S2048x1024) hz2, View.ld_unit_zero (S := S1x1024) hz2]
  rfl

end Cert.KernelIdeal.Fr

end
-- ==== Proof.KI.Blk1.lean ====
import Idealize.ShloMosaic.Lib.ValueIdx
import proofs.«132598_j6073083756839_2_alg».proof.Proof.KI.Val1a

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! # The second call: which rows of which array a point's blocks are

Point `t` of the 4 × 8 × 4 grid is batch `t / 32`, query tile `(t / 4) % 8`, key tile `t % 4`. -/

theorem idx1_0 : ∀ t : Fin cfg1.N, win1_0.index t (0 : Fin 3) = t.val / 32 ∧ win1_0.index t (1 : Fin 3) = (t.val / 4) % 8 ∧ win1_0.index t (2 : Fin 3) = 0 :=
  (by decide +kernel : ∀ t : Fin grid1.N, _)
theorem idx1_1 : ∀ t : Fin cfg1.N, win1_1.index t (0 : Fin 3) = t.val / 32 ∧ win1_1.index t (1 : Fin 3) = 0 ∧ win1_1.index t (2 : Fin 3) = 0 :=
  (by decide +kernel : ∀ t : Fin grid1.N, _)
theorem idx1_2 : ∀ t : Fin cfg1.N, win1_2.index t (0 : Fin 3) = t.val / 32 ∧ win1_2.index t (1 : Fin 3) = 0 ∧ win1_2.index t (2 : Fin 3) = 0 :=
  (by decide +kernel : ∀ t : Fin grid1.N, _)
theorem idx1_3 : ∀ t : Fin cfg1.N, win1_3.index t (0 : Fin 3) = t.val / 32 ∧ win1_3.index t (1 : Fin 3) = (t.val / 4) % 8 ∧ win1_3.index t (2 : Fin 3) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 3) = t.val / 32 ∧ win1_6.index t (1 : Fin 3) = (t.val / 4) % 8 ∧ win1_6.index t (2 : Fin 3) = 0 :=
  (by decide +kernel : ∀ t : Fin grid1.N, _)
/-- The key-tile coordinate of point `t`. -/
theorem coord1_2 : ∀ t : Fin cfg1.N, ((grid1.coords t) 2).val = t.val % 4 :=
  (by decide +kernel : ∀ t : Fin grid1.N, ((grid1.coords t) 2).val = t.val % 4)

/-- The batch and the global query row of a point's local row. -/
def bOf (t : Fin cfg1.N) : Fin 4 := ⟨t.val / 32, by have := lt_of_lt_of_eq t.isLt (show cfg1.N = 128 from N_1); omega⟩
def rowOf (t : Fin cfg1.N) (p : Fin 256) : Fin 2048 :=
  ⟨(t.val / 4) % 8 * 256 + p.val, by have := p.isLt; omega⟩

section
variable (V : (c : Dev nD) → (b : Ref sig .tc) → Buf (Elt F) ((c : Thread nD τ).loc b))

/-- The query block: row `p` is the batch's query row `rowOf t p`. -/
theorem iblk1_0_apply (c : Dev nD) (t : Fin cfg1.N) (p : Fin 256) (j : Fin 128) :
    (iblk1 V c 0 t : Vec F S1x256x128 _) (ix3 0 p j) = V c main_v4 (ix3 (bOf t) (rowOf t p) j) := by
  have hi := idx1_0 t
  unfold iblk1
  rw [View.read_apply]
  show V c main_v4 _ = V c main_v4 _
  congr 1
  funext a
  apply Fin.ext
  match a with
  | ⟨0, _⟩ => show win1_0.index t (0 : Fin 3) * 1 + 1 * 0 = t.val / 32; rw [hi.1]; omega
  | ⟨1, _⟩ => show win1_0.index t (1 : Fin 3) * 256 + 1 * p.val = (t.val / 4) % 8 * 256 + p.val; rw [hi.2.1]; omega
  | ⟨2, _⟩ => show win1_0.index t (2 : Fin 3) * 128 + 1 * j.val = j.val; rw [hi.2.2]; omega

/-- The resident key block: all 2048 key rows of the batch. -/
theorem iblk1_1_apply (c : Dev nD) (t : Fin cfg1.N) (r : Fin 2048) (j : Fin 128) :
    (iblk1 V c 1 t : Vec F S1x2048x128 _) (ix3 0 r j) = V c main_v5 (ix3 (bOf t) r j) := by
  have hi := idx1_1 t
  unfold iblk1
  rw [View.read_apply]
  show V c main_v5 _ = V c main_v5 _
  congr 1
  funext a
  apply Fin.ext
  match a with
  | ⟨0, _⟩ => show win1_1.index t (0 : Fin 3) * 1 + 1 * 0 = t.val / 32; rw [hi.1]; omega
  | ⟨1, _⟩ => show win1_1.index t (1 : Fin 3) * 2048 + 1 * r.val = r.val; rw [hi.2.1]; omega
  | ⟨2, _⟩ => show win1_1.index t (2 : Fin 3) * 128 + 1 * j.val = j.val; rw [hi.2.2]; omega

/-- The resident value block: all 2048 value rows of the batch. -/
theorem iblk1_2_apply (c : Dev nD) (t : Fin cfg1.N) (r : Fin 2048) (e : Fin 2048) :
    (iblk1 V c 2 t : Vec F S1x2048x2048 _) (ix3 0 r e) = V c main_v6 (ix3 (bOf t) r e) := by
  have hi := idx1_2 t
  unfold iblk1
  rw [View.read_apply]
  show V c main_v6 _ = V c main_v6 _
  congr 1
  funext a
  apply Fin.ext
  match a with
  | ⟨0, _⟩ => show win1_2.index t (0 : Fin 3) * 1 + 1 * 0 = t.val / 32; rw [hi.1]; omega
  | ⟨1, _⟩ => show win1_2.index t (1 : Fin 3) * 2048 + 1 * r.val = r.val; rw [hi.2.1]; omega
  | ⟨2, _⟩ => show win1_2.index t (2 : Fin 3) * 2048 + 1 * e.val = e.val; rw [hi.2.2]; omega

/-- The gate block: row `p` is the batch's gate row `rowOf t p`. -/
theorem iblk1_3_apply (c : Dev nD) (t : Fin cfg1.N) (p : Fin 256) (e : Fin 2048) :
    (iblk1 V c 3 t : Vec F S1x256x2048 _) (ix3 0 p e) = V c main_v7 (ix3 (bOf t) (rowOf t p) e) := by
  have hi := idx1_3 t
  unfold iblk1
  rw [View.read_apply]
  show V c main_v7 _ = V c main_v7 _
  congr 1
  funext a
  apply Fin.ext
  match a with
  | ⟨0, _⟩ => show win1_3.index t (0 : Fin 3) * 1 + 1 * 0 = t.val / 32; rw [hi.1]; omega
  | ⟨1, _⟩ => show win1_3.index t (1 : Fin 3) * 256 + 1 * p.val = (t.val / 4) % 8 * 256 + p.val; rw [hi.2.1]; omega
  | ⟨2, _⟩ => show win1_3.index t (2 : Fin 3) * 2048 + 1 * e.val = e.val; rw [hi.2.2]; omega

/-- The output matrix, whole. -/
theorem iblk1_4_apply (c : Dev nD) (t : Fin cfg1.N) (e : Fin 2048) (h : Fin 1024) :
    (iblk1 V c 4 t : Vec F S2048x1024 _) (ix2 e h) = V c main_v8 (ix2 e h) := by
  have hi := idx1_4 t
  unfold iblk1
  rw [View.read_apply]
  show V c main_v8 _ = V c main_v8 _
  congr 1
  funext a
  apply Fin.ext
  match a with
  | ⟨0, _⟩ => show win1_4.index t (0 : Fin 2) * 2048 + 1 * e.val = e.val; rw [hi.1]; omega
  | ⟨1, _⟩ => show win1_4.index t (1 : Fin 2) * 1024 + 1 * h.val = h.val; rw [hi.2]; omega

/-- The bias row, whole. -/
theorem iblk1_5_apply (c : Dev nD) (t : Fin cfg1.N) (h : Fin 1024) :
    (iblk1 V c 5 t : Vec F S1x1024 _) (ix2 0 h) = V c main_v9 (ix2 0 h) := by
  have hi := idx1_5 t
  unfold iblk1
  rw [View.read_apply]
  show V c main_v9 _ = V c main_v9 _
  congr 1
  funext a
  apply Fin.ext
  match a with
  | ⟨0, _⟩ => show win1_5.index t (0 : Fin 2) * 1 + 1 * 0 = 0; rw [hi.1]
  | ⟨1, _⟩ => show win1_5.index t (1 : Fin 2) * 1024 + 1 * h.val = h.val; rw [hi.2]; omega
end

/-- The key rows of the current key tile: row `r` of the slice is row `512·(key tile) + r` of the resident block. -/
theorem ld_rK (i : grid1.Coords) (x1 : Vec F S1x2048x128 .bf16) (r : Fin 512) (j : Fin 128) :
    View.ld x1 (rK i) (ix3 0 r j) = x1 (ix3 0 ⟨512 * (i 2).val + r.val, by have h4 : (i 2).val < 4 := (i 2).isLt; have := r.isLt; show _ < 2048; omega⟩ j) := by
  show x1 _ = x1 _
  congr 1
  funext a
  apply Fin.ext
  match a with
  | ⟨0, _⟩ => show (k1_off1 i) 0 + 1 * 0 = 0; rw [k1_off1_eq]; rfl
  | ⟨1, _⟩ => show (k1_off1 i) 1 + 1 * r.val = 512 * (i 2).val + r.val; rw [k1_off1_eq]; show 512 * (i 2).val + 1 * r.val = _; omega
  | ⟨2, _⟩ => show (k1_off1 i) 2 + 1 * j.val = j.val; rw [k1_off1_eq]; show 0 + 1 * j.val = j.val; omega

/-- The value rows of the current key tile, likewise. -/
theorem ld_rV (i : grid1.Coords) (x2 : Vec F S1x2048x2048 .bf16) (r : Fin 512) (e : Fin 2048) :
    View.ld x2 (rV i) (ix3 0 r e) = x2 (ix3 0 ⟨512 * (i 2).val + r.val, by have h4 : (i 2).val < 4 := (i 2).isLt; have := r.isLt; show _ < 2048; omega⟩ e) := by
  show x2 _ = x2 _
  congr 1
  funext a
  apply Fin.ext
  match a with
  | ⟨0, _⟩ => show (k1_off2 i) 0 + 1 * 0 = 0; rw [k1_off2_eq]; rfl
  | ⟨1, _⟩ => show (k1_off2 i) 1 + 1 * r.val = 512 * (i 2).val + r.val; rw [k1_off2_eq]; show 512 * (i 2).val + 1 * r.val = _; omega
  | ⟨2, _⟩ => show (k1_off2 i) 2 + 1 * e.val = e.val; rw [k1_off2_eq]; show 0 + 1 * e.val = e.val; omega

end Cert.KernelIdeal.Fr

end
-- ==== Proof.Spec.lean ====
import Idealize.ShloMosaic.PureOps.Ideal
import Idealize.ShloMosaic.PureOps.Ideal.Laws
import Idealize.ShloMosaic.Lib.ValueIdx

noncomputable section

/-! # The attention stage as the kernel computes it, on the extended reals

For one batch `b`, query row `n`, key row `k`: the score is the 128-term product sum of a query row (already carrying the
score scale) and a key row; the weight is the square of its positive part; the attention value of column `e` is the
weighted sum over the 2048 key rows of the value matrix, TAKEN IN FOUR BLOCKS OF 512 added one after the other onto the
zero word; the result row is the gated attention value times the output matrix, plus the bias. -/

namespace Cert.Spec

open Idealize.ShloMosaic Idealize.ShloMosaic.ValueIdx

abbrev A3 (a b c : Nat) : Type := (⟨3, ![a, b, c]⟩ : Shape).Idx → EReal
abbrev A2 (a b : Nat) : Type := (⟨2, ![a, b]⟩ : Shape).Idx → EReal

/-- The zero word and the score-scale word, as the extended reals they denote. -/
abbrev zw : EReal := Ideal.ofBits .f32 0x00000000#32
abbrev qscale : EReal := Ideal.ofBits .f32 0x3A000000#32

/-- Key row `r` of key block `i`. -/
def krow (i : Fin 4) (r : Fin 512) : Fin 2048 := ⟨512 * i.val + r.val, by omega⟩

def scoreK (Q K : A3 4 2048 128) (b : Fin 4) (n k : Fin 2048) : EReal :=
  ∑ j : Fin 128, Q (ix3 b n j) * K (ix3 b k j)

def sqK (Q K : A3 4 2048 128) (b : Fin 4) (n k : Fin 2048) : EReal :=
  max (scoreK Q K b n k) zw * max (scoreK Q K b n k) zw

/-- Key block `i`'s contribution to the attention value. -/
def blkS (Q K : A3 4 2048 128) (V : A3 4 2048 2048) (b : Fin 4) (n e : Fin 2048) (i : Fin 4) : EReal :=
  ∑ r : Fin 512, sqK Q K b n (krow i r) * V (ix3 b (krow i r) e)

/-- The accumulator after key blocks `0 … i`, by recursion on the block. -/
def accK (Q K : A3 4 2048 128) (V : A3 4 2048 2048) (b : Fin 4) (n e : Fin 2048) : (i : ℕ) → i < 4 → EReal
  | 0, h => zw + blkS Q K V b n e ⟨0, h⟩
  | i + 1, h => accK Q K V b n e i (Nat.lt_of_succ_lt h) + blkS Q K V b n e ⟨i + 1, h⟩

def attnK (Q K : A3 4 2048 128) (V : A3 4 2048 2048) (b : Fin 4) (n e : Fin 2048) : EReal :=
  accK Q K V b n e 3 (by omega)

def outKAt (Q K : A3 4 2048 128) (V U : A3 4 2048 2048) (Wo : A2 2048 1024) (Bo : A2 1 1024)
    (b : Fin 4) (n : Fin 2048) (h : Fin 1024) : EReal :=
  (∑ e : Fin 2048, (U (ix3 b n e) * attnK Q K V b n e) * Wo (ix2 e h)) + Bo (ix2 0 h)

def outK (Q K : A3 4 2048 128) (V U : A3 4 2048 2048) (Wo : A2 2048 1024) (Bo : A2 1 1024) : A3 4 2048 1024 :=
  fun i => outKAt Q K V U Wo Bo (i 0) (i 1) (i 2)

end Cert.Spec

end
-- ==== Proof.KI.Pay1.lean ====
import proofs.«132598_j6073083756839_2_alg».proof.Proof.Gen.KernelIdeal.Skeleton
import proofs.«132598_j6073083756839_2_alg».proof.Proof.Spec
import Idealize.ShloMosaic.Lib.ValueIdx
import Idealize.ShloMosaic.Lib.Pipeline.Value
import Idealize.ShloMosaic.PureOps.Ideal.Laws

set_option maxRecDepth 16384

noncomputable section

/-! # The second call's arithmetic read at an index, on the extended reals -/

namespace Cert.KernelIdeal.Fr

open Cert.KernelIdeal Cert.KernelIdeal.Gen
open Idealize.ShloMosaic Idealize.ShloMosaic.ValueIdx
open Cert.Spec (zw)

theorem mm_qk_l0 (i : S256x512.Idx) (q : dot_S256x128_S128x512_S256x512_1_0_0_1_n_n.contr.Idx) : (dot_S256x128_S128x512_S256x512_1_0_0_1_n_n.lhsIdx i q 0).val = (i 0).val := by
  unfold DotDims.lhsIdx
  rw [dif_neg (show ¬(0 : Fin S256x128.rank) ∈ dot_S256x128_S128x512_S256x512_1_0_0_1_n_n.lhsBatch by decide), dif_pos (show (0 : Fin S256x128.rank) ∈ dot_S256x128_S128x512_S256x512_1_0_0_1_n_n.lhsNonContracting by decide)]
  rfl
theorem mm_qk_l1 (i : S256x512.Idx) (q : dot_S256x128_S128x512_S256x512_1_0_0_1_n_n.contr.Idx) : (dot_S256x128_S128x512_S256x512_1_0_0_1_n_n.lhsIdx i q 1).val = (q ⟨0, by decide⟩).val :=
  dot_S256x128_S128x512_S256x512_1_0_0_1_n_n.lhsIdx_val_of_single rfl i q
theorem mm_qk_r0 (i : S256x512.Idx) (q : dot_S256x128_S128x512_S256x512_1_0_0_1_n_n.contr.Idx) : (dot_S256x128_S128x512_S256x512_1_0_0_1_n_n.rhsIdx i q 0).val = (q ⟨0, by decide⟩).val :=
  dot_S256x128_S128x512_S256x512_1_0_0_1_n_n.rhsIdx_val_of_single rfl i q
theorem mm_qk_r1 (i : S256x512.Idx) (q : dot_S256x128_S128x512_S256x512_1_0_0_1_n_n.contr.Idx) : (dot_S256x128_S128x512_S256x512_1_0_0_1_n_n.rhsIdx i q 1).val = (i 1).val := by
  unfold DotDims.rhsIdx
  rw [dif_neg (show ¬(1 : Fin S128x512.rank) ∈ dot_S256x128_S128x512_S256x512_1_0_0_1_n_n.rhsBatch by decide), dif_pos (show (1 : Fin S128x512.rank) ∈ dot_S256x128_S128x512_S256x512_1_0_0_1_n_n.rhsNonContracting by decide)]
  rfl

/-- The product into the zero accumulator, read at row `p`, column `q`: the sum over the 128 contracted positions. -/
theorem mm_qk (l : FVec Ideal S256x128 .bf16) (r : FVec Ideal S128x512 .bf16) (p : Fin 256) (q : Fin 512) :
    matmul dot_S256x128_S128x512_S256x512_1_0_0_1_n_n none l r (constant S256x512 .f32 0x00000000#32) (ix2 p q) = ∑ k : Fin 128, l (ix2 p k) * r (ix2 k q) := by
  simp only [matmul]
  rw [Ideal.matmul_constant_zero_apply, ← Equiv.sum_comp (contrEquiv1 dot_S256x128_S128x512_S256x512_1_0_0_1_n_n 128 rfl rfl).symm]
  refine Finset.sum_congr rfl fun k _ => ?_
  have hk := contrEquiv1_symm_val dot_S256x128_S128x512_S256x512_1_0_0_1_n_n 128 rfl rfl k
  have el : dot_S256x128_S128x512_S256x512_1_0_0_1_n_n.lhsIdx (ix2 p q) ((contrEquiv1 dot_S256x128_S128x512_S256x512_1_0_0_1_n_n 128 rfl rfl).symm k) = ix2 p k := funext fun a => Fin.ext (by
    match a with
    | ⟨0, _⟩ => exact mm_qk_l0 _ _
    | ⟨1, _⟩ => exact (mm_qk_l1 _ _).trans hk)
  have er : dot_S256x128_S128x512_S256x512_1_0_0_1_n_n.rhsIdx (ix2 p q) ((contrEquiv1 dot_S256x128_S128x512_S256x512_1_0_0_1_n_n 128 rfl rfl).symm k) = ix2 k q := funext fun a => Fin.ext (by
    match a with
    | ⟨0, _⟩ => exact (mm_qk_r0 _ _).trans hk
    | ⟨1, _⟩ => exact mm_qk_r1 _ _)
  rw [el, er]

theorem mm_sv_l0 (i : S256x2048.Idx) (q : dot_S256x512_S512x2048_S256x2048_1_0_0_1_n_n.contr.Idx) : (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem mm_sv_l1 (i : S256x2048.Idx) (q : dot_S256x512_S512x2048_S256x2048_1_0_0_1_n_n.contr.Idx) : (dot_S256x512_S512x2048_S256x2048_1_0_0_1_n_n.lhsIdx i q 1).val = (q ⟨0, by decide⟩).val :=
  dot_S256x512_S512x2048_S256x2048_1_0_0_1_n_n.lhsIdx_val_of_single rfl i q
theorem mm_sv_r0 (i : S256x2048.Idx) (q : dot_S256x512_S512x2048_S256x2048_1_0_0_1_n_n.contr.Idx) : (dot_S256x512_S512x2048_S256x2048_1_0_0_1_n_n.rhsIdx i q 0).val = (q ⟨0, by decide⟩).val :=
  dot_S256x512_S512x2048_S256x2048_1_0_0_1_n_n.rhsIdx_val_of_single rfl i q
theorem mm_sv_r1 (i : S256x2048.Idx) (q : dot_S256x512_S512x2048_S256x2048_1_0_0_1_n_n.contr.Idx) : (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- The product into the zero accumulator, read at row `p`, column `q`: the sum over the 512 contracted positions. -/
theorem mm_sv (l : FVec Ideal S256x512 .bf16) (r : FVec Ideal S512x2048 .bf16) (p : Fin 256) (q : Fin 2048) :
    matmul dot_S256x512_S512x2048_S256x2048_1_0_0_1_n_n none l r (constant S256x2048 .f32 0x00000000#32) (ix2 p q) = ∑ k : Fin 512, l (ix2 p k) * r (ix2 k q) := by
  simp only [matmul]
  rw [Ideal.matmul_constant_zero_apply, ← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 p q) ((contrEquiv1 dot_S256x512_S512x2048_S256x2048_1_0_0_1_n_n 512 rfl rfl).symm k) = ix2 p k := funext fun a => Fin.ext (by
    match a with
    | ⟨0, _⟩ => exact mm_sv_l0 _ _
    | ⟨1, _⟩ => exact (mm_sv_l1 _ _).trans hk)
  have er : dot_S256x512_S512x2048_S256x2048_1_0_0_1_n_n.rhsIdx (ix2 p q) ((contrEquiv1 dot_S256x512_S512x2048_S256x2048_1_0_0_1_n_n 512 rfl rfl).symm k) = ix2 k q := funext fun a => Fin.ext (by
    match a with
    | ⟨0, _⟩ => exact (mm_sv_r0 _ _).trans hk
    | ⟨1, _⟩ => exact mm_sv_r1 _ _)
  rw [el, er]

theorem mm_out_l0 (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem mm_out_l1 (i : S256x1024.Idx) (q : dot_S256x2048_S2048x1024_S256x1024_1_0_0_1_n_n.contr.Idx) : (dot_S256x2048_S2048x1024_S256x1024_1_0_0_1_n_n.lhsIdx i q 1).val = (q ⟨0, by decide⟩).val :=
  dot_S256x2048_S2048x1024_S256x1024_1_0_0_1_n_n.lhsIdx_val_of_single rfl i q
theorem mm_out_r0 (i : S256x1024.Idx) (q : dot_S256x2048_S2048x1024_S256x1024_1_0_0_1_n_n.contr.Idx) : (dot_S256x2048_S2048x1024_S256x1024_1_0_0_1_n_n.rhsIdx i q 0).val = (q ⟨0, by decide⟩).val :=
  dot_S256x2048_S2048x1024_S256x1024_1_0_0_1_n_n.rhsIdx_val_of_single rfl i q
theorem mm_out_r1 (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The product into the zero accumulator, read at row `p`, column `q`: the sum over the 2048 contracted positions. -/
theorem mm_out (l : FVec Ideal S256x2048 .bf16) (r : FVec Ideal S2048x1024 .bf16) (p : Fin 256) (q : Fin 1024) :
    matmul dot_S256x2048_S2048x1024_S256x1024_1_0_0_1_n_n none l r (constant S256x1024 .f32 0x00000000#32) (ix2 p q) = ∑ k : Fin 2048, l (ix2 p k) * r (ix2 k q) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q) ((contrEquiv1 dot_S256x2048_S2048x1024_S256x1024_1_0_0_1_n_n 2048 rfl rfl).symm k) = ix2 p k := funext fun a => Fin.ext (by
    match a with
    | ⟨0, _⟩ => exact mm_out_l0 _ _
    | ⟨1, _⟩ => exact (mm_out_l1 _ _).trans hk)
  have er : dot_S256x2048_S2048x1024_S256x1024_1_0_0_1_n_n.rhsIdx (ix2 p q) ((contrEquiv1 dot_S256x2048_S2048x1024_S256x1024_1_0_0_1_n_n 2048 rfl rfl).symm k) = ix2 k q := funext fun a => Fin.ext (by
    match a with
    | ⟨0, _⟩ => exact (mm_out_r0 _ _).trans hk
    | ⟨1, _⟩ => exact mm_out_r1 _ _)
  rw [el, er]

/-- The squared positive part of the score of query row `p` against key row `r` of the tile. -/
def sqAt (v6 : Vec Ideal S1x512x128 .bf16) (v11 : Vec Ideal S1x256x128 .bf16) (p : Fin 256) (r : Fin 512) : EReal :=
  max (∑ j : Fin 128, v11 (ix3 0 p j) * v6 (ix3 0 r j)) zw * max (∑ j : Fin 128, v11 (ix3 0 p j) * v6 (ix3 0 r j)) zw

/-- The accumulator step at row `p`, column `e`: what it held, plus the tile's weighted sum of value rows. -/
theorem k1_pay2_apply (v6 : Vec Ideal S1x512x128 .bf16) (v9 : Vec Ideal S1x512x2048 .bf16) (v11 : Vec Ideal S1x256x128 .bf16)
    (v18 : Vec Ideal S256x2048 .f32) (p : Fin 256) (e : Fin 2048) :
    k1_pay2 (F := Ideal) v6 v9 v11 v18 (ix2 p e) = v18 (ix2 p e) + ∑ r : Fin 512, sqAt v6 v11 p r * v9 (ix3 0 r e) := by
  unfold k1_pay2
  dsimp only
  rw [shapeCast_self, addf_apply, mm_sv]
  refine congrArg (v18 (ix2 p e) + ·) (Finset.sum_congr rfl fun r _ => ?_)
  rw [truncf_apply, mulf_apply, maximumf_apply, broadcast_apply, mm_qk]
  have e10 : shapeCast S512x2048 v9 shapeCasts_S1x512x2048_S512x2048 (ix2 r e) = v9 (ix3 0 r e) :=
    shapeCast_apply v9 _ (ix2 r e) (ix3 0 r e) (by rw [Shape.rowMajor_val_three, Shape.rowMajor_val_two]; show ((0 : ℕ) * 512 + r.val) * 2048 + e.val = r.val * 2048 + e.val; omega)
  have e12 : ∀ j : Fin 128, shapeCast S256x128 v11 shapeCasts_S1x256x128_S256x128 (ix2 p j) = v11 (ix3 0 p j) := fun j =>
    shapeCast_apply v11 _ (ix2 p j) (ix3 0 p j) (by rw [Shape.rowMajor_val_three, Shape.rowMajor_val_two]; show ((0 : ℕ) * 256 + p.val) * 128 + j.val = p.val * 128 + j.val; omega)
  have e13 : ∀ j : Fin 128, transpose S128x512 [1, 0] (shapeCast S512x128 v6 shapeCasts_S1x512x128_S512x128) transposes_S512x128_p1_0_S128x512 (ix2 j r) = v6 (ix3 0 r j) := fun j => by
    rw [transpose_apply [1, 0] _ _ (ix2 j r) (ix2 r j) (fun b => by match b with | ⟨0, _⟩ => rfl | ⟨1, _⟩ => rfl)]
    exact shapeCast_apply v6 _ (ix2 r j) (ix3 0 r j) (by rw [Shape.rowMajor_val_three, Shape.rowMajor_val_two]; show ((0 : ℕ) * 512 + r.val) * 128 + j.val = r.val * 128 + j.val; omega)
  rw [e10]
  simp only [e12, e13]
  rfl

/-- The epilogue's payload at row `p`, column `h`: the gated accumulator against the output matrix, plus the bias. -/
theorem k1_pay3_apply (v28 : Vec Ideal S1x256x2048 .bf16) (v31 : Vec Ideal S256x2048 .f32) (v34 : Vec Ideal S2048x1024 .bf16)
    (v37 : Vec Ideal S1x1024 .f32) (p : Fin 256) (h : Fin 1024) :
    k1_pay3 (F := Ideal) v28 v31 v34 v37 (ix3 0 p h)
      = (∑ e : Fin 2048, (v28 (ix3 0 p e) * v31 (ix2 p e)) * v34 (ix2 e h)) + v37 (ix2 0 h) := by
  unfold k1_pay3
  try dsimp only
  rw [shapeCast_apply _ shapeCasts_S256x1024_S1x256x1024 (ix3 0 p h) (ix2 p h) (by rw [Shape.rowMajor_val_three, Shape.rowMajor_val_two]; show p.val * 1024 + h.val = ((0 : ℕ) * 256 + p.val) * 1024 + h.val; omega)]
  rw [addf_apply, mm_out]
  have e39 : broadcastTo S256x1024 (shapeCast S1x1024 v37 shapeCasts_S1x1024_S1x1024) broadcasts_S1x1024_S256x1024 (ix2 p h) = v37 (ix2 0 h) := by
    rw [shapeCast_self]
    exact broadcastTo_apply v37 _ (ix2 p h) (ix2 0 h) (fun a => by match a with | ⟨0, _⟩ => rfl | ⟨1, _⟩ => rfl)
  rw [e39]
  refine congrArg (· + v37 (ix2 0 h)) (Finset.sum_congr rfl fun e _ => ?_)
  rw [truncf_apply, mulf_apply, extf_apply, shapeCast_self]
  rw [shapeCast_apply v28 shapeCasts_S1x256x2048_S256x2048 (ix2 p e) (ix3 0 p e) (by rw [Shape.rowMajor_val_three, Shape.rowMajor_val_two]; show ((0 : ℕ) * 256 + p.val) * 2048 + e.val = p.val * 2048 + e.val; omega)]

/-- The zero block the reset stores reads the zero word everywhere. -/
theorem k1_pay1_apply (i : S256x2048.Idx) : k1_pay1 (F := Ideal) i = zw := by
  unfold k1_pay1
  try dsimp only
  rw [shapeCast_self]
  rfl

end Cert.KernelIdeal.Fr

end
-- ==== Proof.KI.Val1b.lean ====
import proofs.«132598_j6073083756839_2_alg».proof.Proof.KI.Blk1
import proofs.«132598_j6073083756839_2_alg».proof.Proof.KI.Pay1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! # The second call's output array, on the extended reals

For any contents `V` the call is entered with, its output array ends at the blocked attention formula of the six arrays
its windows read: the accumulator after key tile `i` of a (batch, query tile) group is the zero word plus the first
`i + 1` blocks' contributions, and the epilogue at the last key tile stores the gated, projected accumulator. -/

variable (V : (c : Dev nD) → (b : Ref sig .tc) → Buf (Elt Ideal) ((c : Thread nD τ).loc b)) (c : Dev nD)

abbrev Qa : Cert.Spec.A3 4 2048 128 := V c main_v4
abbrev Ka : Cert.Spec.A3 4 2048 128 := V c main_v5
abbrev Va : Cert.Spec.A3 4 2048 2048 := V c main_v6
abbrev Ua : Cert.Spec.A3 4 2048 2048 := V c main_v7
abbrev Wa : Cert.Spec.A2 2048 1024 := V c main_v8
abbrev Ba : Cert.Spec.A2 1 1024 := V c main_v9

/-- The key tile's contribution at a point, read off the point's blocks, is the formula's block term. -/
theorem blk_eq (t : Fin cfg1.N) (p : Fin 256) (e : Fin 2048) :
    ∑ r : Fin 512, sqAt (View.ld (iblk1 V c 1 t : Vec Ideal S1x2048x128 .bf16) (rK (grid1.coords t))) (iblk1 V c 0 t) p r
        * (View.ld (iblk1 V c 2 t : Vec Ideal S1x2048x2048 .bf16) (rV (grid1.coords t))) (ix3 0 r e)
      = Cert.Spec.blkS (Qa V c) (Ka V c) (Va V c) (bOf t) (rowOf t p) e ⟨t.val % 4, Nat.mod_lt _ (by decide)⟩ := by
  unfold Cert.Spec.blkS
  refine Finset.sum_congr rfl fun r _ => ?_
  have hk : (⟨512 * ((grid1.coords t) 2).val + r.val, by have h4 : ((grid1.coords t) 2).val < 4 := ((grid1.coords t) 2).isLt; have := r.isLt; show _ < 2048; omega⟩ : Fin 2048)
      = Cert.Spec.krow ⟨t.val % 4, Nat.mod_lt _ (by decide)⟩ r :=
    Fin.ext (by show 512 * ((grid1.coords t) 2).val + r.val = 512 * (t.val % 4) + r.val; rw [coord1_2 t])
  rw [ld_rV, iblk1_2_apply, hk]
  have hs : ∀ j : Fin 128, View.ld (iblk1 V c 1 t : Vec Ideal S1x2048x128 .bf16) (rK (grid1.coords t)) (ix3 0 r j)
      = V c main_v5 (ix3 (bOf t) (Cert.Spec.krow ⟨t.val % 4, Nat.mod_lt _ (by decide)⟩ r) j) := fun j => by
    rw [ld_rK, iblk1_1_apply, hk]
  unfold sqAt Cert.Spec.sqK Cert.Spec.scoreK
  simp only [hs, iblk1_0_apply]

theorem accK_congr (Q K : Cert.Spec.A3 4 2048 128) (Vv : Cert.Spec.A3 4 2048 2048) (b : Fin 4) (n e : Fin 2048) {i i' : ℕ}
    (h : i < 4) (h' : i' < 4) (hi : i = i') :
    Cert.Spec.accK Q K Vv b n e i h = Cert.Spec.accK Q K Vv b n e i' h' := by subst hi; rfl

/-- THE RUNNING SUM. After the body at position `n` the accumulator holds, at row `p` and column `e`, the zero word plus the
    contributions of key tiles `0 … n % 4` of the point's (batch, query tile) group — by recursion on the point. -/
theorem acc_eq : ∀ (n : ℕ) (h : n < cfg1.N) (p : Fin 256) (e : Fin 2048),
    (outsAt1 V c n h).2 (ix2 p e)
      = Cert.Spec.accK (Qa V c) (Ka V c) (Va V c) (bOf ⟨n, h⟩) (rowOf ⟨n, h⟩ p) e (n % 4) (Nat.mod_lt _ (by decide))
  | 0, h, p, e => by
    rw [outsAt1_A V c ⟨0, h⟩ rfl (by show ¬(0 : ℕ) % 4 = 3; omega)]
    dsimp only
    rw [sout1_A_eq]
    unfold step1
    rw [k1_pay2_apply, k1_pay1_apply]
    exact (congrArg (Cert.Spec.zw + ·) (blk_eq V c ⟨0, h⟩ p e)).trans rfl
  | n + 1, h, p, e => by
    have hN : n + 1 < 128 := lt_of_lt_of_eq h (show cfg1.N = 128 from N_1)
    by_cases h0 : (n + 1) % 4 = 0
    · rw [outsAt1_A V c ⟨n + 1, h⟩ h0 (by show ¬(n + 1) % 4 = 3; omega)]
      dsimp only
      rw [sout1_A_eq]
      unfold step1
      rw [k1_pay2_apply, k1_pay1_apply]
      refine (congrArg (Cert.Spec.zw + ·) (blk_eq V c ⟨n + 1, h⟩ p e)).trans ?_
      rw [accK_congr _ _ _ _ _ _ (Nat.mod_lt (n + 1) (by decide)) (by decide : 0 < 4) h0]
      have hf : (⟨(n + 1) % 4, Nat.mod_lt _ (by decide)⟩ : Fin 4) = ⟨0, by decide⟩ := Fin.ext h0
      rw [show (⟨(⟨n + 1, h⟩ : Fin cfg1.N).val % 4, Nat.mod_lt _ (by decide)⟩ : Fin 4) = ⟨0, by decide⟩ from hf]
      rfl
    · have hprev := acc_eq n (Nat.lt_of_succ_lt h) p e
      have hb : bOf ⟨n, Nat.lt_of_succ_lt h⟩ = bOf ⟨n + 1, h⟩ := Fin.ext (by show n / 32 = (n + 1) / 32; omega)
      have hr : rowOf ⟨n, Nat.lt_of_succ_lt h⟩ p = rowOf ⟨n + 1, h⟩ p :=
        Fin.ext (by show (n / 4) % 8 * 256 + p.val = ((n + 1) / 4) % 8 * 256 + p.val; omega)
      rw [hb, hr] at hprev
      have hm : (n + 1) % 4 = n % 4 + 1 := by omega
      have hstep : step1 (grid1.coords ⟨n + 1, h⟩) (iblk1 V c 0 ⟨n + 1, h⟩) (iblk1 V c 1 ⟨n + 1, h⟩) (iblk1 V c 2 ⟨n + 1, h⟩)
            (outsAt1 V c n (Nat.lt_of_succ_lt h)).2 (ix2 p e)
          = Cert.Spec.accK (Qa V c) (Ka V c) (Va V c) (bOf ⟨n + 1, h⟩) (rowOf ⟨n + 1, h⟩ p) e ((n + 1) % 4) (Nat.mod_lt _ (by decide)) := by
        unfold step1
        rw [k1_pay2_apply, hprev]
        refine (congrArg (Cert.Spec.accK (Qa V c) (Ka V c) (Va V c) (bOf ⟨n + 1, h⟩) (rowOf ⟨n + 1, h⟩ p) e (n % 4) (Nat.mod_lt _ (by decide)) + ·) (blk_eq V c ⟨n + 1, h⟩ p e)).trans ?_
        rw [accK_congr _ _ _ _ _ _ (Nat.mod_lt (n + 1) (by decide)) (by omega : n % 4 + 1 < 4) hm]
        have hf : (⟨(n + 1) % 4, Nat.mod_lt _ (by decide)⟩ : Fin 4) = ⟨n % 4 + 1, by omega⟩ := Fin.ext hm
        rw [show (⟨(⟨n + 1, h⟩ : Fin cfg1.N).val % 4, Nat.mod_lt _ (by decide)⟩ : Fin 4) = ⟨n % 4 + 1, by omega⟩ from hf]
        rfl
      by_cases h1 : (n + 1) % 4 = 3
      · rw [outsAt1_C V c ⟨n + 1, h⟩ h0 h1]
        dsimp only
        rw [sout1_C_eq]
        exact hstep
      · rw [outsAt1_B V c ⟨n + 1, h⟩ h0 h1]
        dsimp only
        rw [sout1_B_eq]
        exact hstep

/-- At the last key tile the accumulator holds the whole attention value. -/
theorem attn_eq (t : Fin cfg1.N) (h3 : t.val % 4 = 3) (p : Fin 256) (e : Fin 2048) :
    (outsAt1 V c t.val t.isLt).2 (ix2 p e) = Cert.Spec.attnK (Qa V c) (Ka V c) (Va V c) (bOf t) (rowOf t p) e := by
  rw [acc_eq V c t.val t.isLt p e]
  unfold Cert.Spec.attnK
  exact accK_congr _ _ _ _ _ _ _ _ h3

/-- WHAT A LAST-KEY-TILE POINT WRITES BACK is its block of the formula's array. -/
theorem flushed1_eq (t : Fin cfg1.N) (hf : (cfg1.win 6).flush t = true) :
    (dat1 V c).flushed 6 t
      = ((cfg1.win 6).blk t).view.read (Elt Ideal) (Cert.Spec.outK (Qa V c) (Ka V c) (Va V c) (Ua V c) (Wa V c) (Ba V c)) := by
  have h3 : t.val % 4 = 3 := (flush1_6 t).mp hf
  have h0 : ¬t.val % 4 = 0 := by omega
  show (cfg1.win 6).cut (grid1.coords t) ((dat1 V c).after 6 t) = _
  rw [after1_6]
  have hout : (outsAt1 V c t.val t.isLt).1
      = k1_pay3 (iblk1 V c 3 t) (outsAt1 V c t.val t.isLt).2 (iblk1 V c 4 t) (iblk1 V c 5 t) := by
    rw [outsAt1_C V c t h0 h3]
    dsimp only
    rw [out1_C_6_eq, sout1_C_eq]
  rw [hout]
  funext (y : S1x256x1024.Idx)
  obtain ⟨p, h, rfl⟩ : ∃ (p : Fin 256) (h : Fin 1024), y = ix3 0 p h :=
    ⟨y 1, y 2, funext fun a => by
      match a with
      | ⟨0, _⟩ => exact Fin.ext (Nat.lt_one_iff.mp (y 0).isLt)
      | ⟨1, _⟩ => rfl
      | ⟨2, _⟩ => rfl⟩
  show k1_pay3 (F := Ideal) _ _ _ _ (ix3 0 p h) = Cert.Spec.outK _ _ _ _ _ _ (((cfg1.win 6).blk t).view.emb (ix3 0 p h))
  rw [k1_pay3_apply]
  have hemb : ((cfg1.win 6).blk t).view.emb (ix3 0 p h) = ix3 (bOf t) (rowOf t p) h := by
    have hi := idx1_6 t
    funext a
    apply Fin.ext
    match a with
    | ⟨0, _⟩ => show win1_6.index t (0 : Fin 3) * 1 + 1 * 0 = t.val / 32; rw [hi.1]; omega
    | ⟨1, _⟩ => show win1_6.index t (1 : Fin 3) * 256 + 1 * p.val = (t.val / 4) % 8 * 256 + p.val; rw [hi.2.1]; omega
    | ⟨2, _⟩ => show win1_6.index t (2 : Fin 3) * 1024 + 1 * h.val = h.val; rw [hi.2.2]; omega
  rw [hemb]
  show _ = Cert.Spec.outKAt _ _ _ _ _ _ (bOf t) (rowOf t p) h
  unfold Cert.Spec.outKAt
  simp only [iblk1_3_apply, iblk1_4_apply, iblk1_5_apply, attn_eq V c t h3]

/-- THE OUTPUT ARRAY after the call: the blocked attention formula of the arrays the call was entered with. Every index
    (batch `b`, row `n`, column `h`) lies in the block written back at point `(b·8 + n / 256)·4 + 3`. -/
theorem final1 : (dat1 V c).arrAt 6 cfg1.N
    = Cert.Spec.outK (Qa V c) (Ka V c) (Va V c) (Ua V c) (Wa V c) (Ba V c) :=
  (dat1 V c).arrAt_eq_of_cover 6 _ (flushed1_eq V c) fun i => by
    have hi0 : (i 0).val < 4 := (i 0).isLt
    have hi1 : (i 1).val < 2048 := (i 1).isLt
    have hi2 : (i 2).val < 1024 := (i 2).isLt
    have hlt : ((i 0).val * 8 + (i 1).val / 256) * 4 + 3 < cfg1.N := by rw [show cfg1.N = 128 from N_1]; omega
    refine ⟨⟨((i 0).val * 8 + (i 1).val / 256) * 4 + 3, hlt⟩, (flush1_6 _).mpr (by show (((i 0).val * 8 + (i 1).val / 256) * 4 + 3) % 4 = 3; omega), ?_⟩
    show i ∈ ((View.whole main_v10).slice (win1_6.rect ⟨((i 0).val * 8 + (i 1).val / 256) * 4 + 3, hlt⟩)).set
    rw [View.set_slice_whole, Rect.mem_set_unit]
    have hx := idx1_6 ⟨((i 0).val * 8 + (i 1).val / 256) * 4 + 3, hlt⟩
    intro a
    match a with
    | ⟨0, _⟩ =>
      show win1_6.index ⟨_, hlt⟩ (0 : Fin 3) * 1 ≤ (i 0).val ∧ (i 0).val < win1_6.index ⟨_, hlt⟩ (0 : Fin 3) * 1 + 1
      rw [hx.1]; show (((i 0).val * 8 + (i 1).val / 256) * 4 + 3) / 32 * 1 ≤ _ ∧ _ < (((i 0).val * 8 + (i 1).val / 256) * 4 + 3) / 32 * 1 + 1; omega
    | ⟨1, _⟩ =>
      show win1_6.index ⟨_, hlt⟩ (1 : Fin 3) * 256 ≤ (i 1).val ∧ (i 1).val < win1_6.index ⟨_, hlt⟩ (1 : Fin 3) * 256 + 256
      rw [hx.2.1]; show ((((i 0).val * 8 + (i 1).val / 256) * 4 + 3) / 4) % 8 * 256 ≤ _ ∧ _ < ((((i 0).val * 8 + (i 1).val / 256) * 4 + 3) / 4) % 8 * 256 + 256; omega
    | ⟨2, _⟩ =>
      show win1_6.index ⟨_, hlt⟩ (2 : Fin 3) * 1024 ≤ (i 2).val ∧ (i 2).val < win1_6.index ⟨_, hlt⟩ (2 : Fin 3) * 1024 + 1024
      rw [hx.2.2]; omega

end Cert.KernelIdeal.Fr

end
-- ==== Proof.KI.R0.lean ====
import proofs.«132598_j6073083756839_2_alg».proof.Proof.Gen.KernelIdeal.Launch
import proofs.«132598_j6073083756839_2_alg».proof.Proof.Gen.KernelIdeal.Skeleton
import proofs.«132598_j6073083756839_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first call (projection, gate activation, the two affine heads): its body at a point

The grid is the 32 row tiles of the flattened 8192 × 1024 input. At each point the body reads the row tile, the whole
weight matrix, the bias and the two affine tables, and stores one 256-row block into each of the four results; nothing is
kept between points. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's accesses: every load and store is of a whole buffer -/

abbrev r_S256x1024 : Rect S256x1024 := Rect.unit (s := S256x1024) ![0, 0] S256x1024.size inb_S256x1024_S256x1024_0_0
abbrev r_S1024x4224 : Rect S1024x4224 := Rect.unit (s := S1024x4224) ![0, 0] S1024x4224.size inb_S1024x4224_S1024x4224_0_0
abbrev r_S1x4224 : Rect S1x4224 := Rect.unit (s := S1x4224) ![0, 0] S1x4224.size inb_S1x4224_S1x4224_0_0
abbrev r_S2x128 : Rect S2x128 := Rect.unit (s := S2x128) ![0, 0] S2x128.size inb_S2x128_S2x128_0_0
abbrev r_S256x128 : Rect S256x128 := Rect.unit (s := S256x128) ![0, 0] S256x128.size inb_S256x128_S256x128_0_0
abbrev r_S256x2048 : Rect S256x2048 := Rect.unit (s := S256x2048) ![0, 0] S256x2048.size inb_S256x2048_S256x2048_0_0

/-- What the body leaves in output window 5's buffer: its one store, of the payload over the whole input blocks. -/
def out0_5 (x0 : Vec F S256x1024 .f32) (x1 : Vec F S1024x4224 .bf16) (x2 : Vec F S1x4224 .f32) (x3 : Vec F S2x128 .f32) (x4 : Vec F S2x128 .f32) : Vec F S256x128 .bf16 :=
  View.canon [⟨r_S256x128, k0_pay3 (View.ld x0 r_S256x1024) (View.ld x1 r_S1024x4224) (View.ld x2 r_S1x4224) (View.ld x3 r_S2x128) (View.ld x4 r_S2x128)⟩]
theorem cover0_5 (p0 : r_S256x128.shape.Idx → Elt F .bf16) (y : S256x128.Idx) :
    ∃ pc ∈ ([⟨r_S256x128, p0⟩] : List (View.Piece (Elt F) S256x128 .bf16)), y ∈ pc.1.set :=
  View.cover_of_tiled [⟨r_S256x128, p0⟩] S256x128.size (by rfl) y

/-- What the body leaves in output window 6's buffer: its one store, of the payload over the whole input blocks. -/
def out0_6 (x0 : Vec F S256x1024 .f32) (x1 : Vec F S1024x4224 .bf16) (x2 : Vec F S1x4224 .f32) (x3 : Vec F S2x128 .f32) (x4 : Vec F S2x128 .f32) : Vec F S256x128 .bf16 :=
  View.canon [⟨r_S256x128, k0_pay4 (View.ld x0 r_S256x1024) (View.ld x1 r_S1024x4224) (View.ld x2 r_S1x4224) (View.ld x3 r_S2x128) (View.ld x4 r_S2x128)⟩]
theorem cover0_6 (p0 : r_S256x128.shape.Idx → Elt F .bf16) (y : S256x128.Idx) :
    ∃ pc ∈ ([⟨r_S256x128, p0⟩] : List (View.Piece (Elt F) S256x128 .bf16)), y ∈ pc.1.set :=
  View.cover_of_tiled [⟨r_S256x128, p0⟩] S256x128.size (by rfl) y

/-- What the body leaves in output window 7's buffer: its one store, of the payload over the whole input blocks. -/
def out0_7 (x0 : Vec F S256x1024 .f32) (x1 : Vec F S1024x4224 .bf16) (x2 : Vec F S1x4224 .f32) : Vec F S256x2048 .bf16 :=
  View.canon [⟨r_S256x2048, k0_pay5 (View.ld x0 r_S256x1024) (View.ld x1 r_S1024x4224) (View.ld x2 r_S1x4224)⟩]
theorem cover0_7 (p0 : r_S256x2048.shape.Idx → Elt F .bf16) (y : S256x2048.Idx) :
    ∃ pc ∈ ([⟨r_S256x2048, p0⟩] : List (View.Piece (Elt F) S256x2048 .bf16)), y ∈ pc.1.set :=
  View.cover_of_tiled [⟨r_S256x2048, p0⟩] S256x2048.size (by rfl) y

/-- What the body leaves in output window 8's buffer: its one store, of the payload over the whole input blocks. -/
def out0_8 (x0 : Vec F S256x1024 .f32) (x1 : Vec F S1024x4224 .bf16) (x2 : Vec F S1x4224 .f32) : Vec F S256x2048 .bf16 :=
  View.canon [⟨r_S256x2048, k0_pay6 (View.ld x0 r_S256x1024) (View.ld x1 r_S1024x4224) (View.ld x2 r_S1x4224)⟩]
theorem cover0_8 (p0 : r_S256x2048.shape.Idx → Elt F .bf16) (y : S256x2048.Idx) :
    ∃ pc ∈ ([⟨r_S256x2048, p0⟩] : List (View.Piece (Elt F) S256x2048 .bf16)), y ∈ pc.1.set :=
  View.cover_of_tiled [⟨r_S256x2048, p0⟩] S256x2048.size (by rfl) y

/-! ## The body's triple -/

set_option maxHeartbeats 4000000 in
/-- On whole staging memrefs, the inputs' at contents `x·` and the outputs' at anything, the body runs to the
    continuation holding the inputs' as they were and each output's at its store's payload. -/
theorem sound_kernel0 (c : Dev nD) (E : Set ℕ) (i : grid0.Coords) (arg1 : Memref sig .tc .vmem S256x1024 .f32) (harg1 : arg1.IsWhole) (arg2 : Memref sig .tc .vmem S1024x4224 .bf16) (harg2 : arg2.IsWhole) (arg3 : Memref sig .tc .vmem S1x4224 .f32) (harg3 : arg3.IsWhole) (arg4 : Memref sig .tc .vmem S2x128 .f32) (harg4 : arg4.IsWhole) (arg5 : Memref sig .tc .vmem S2x128 .f32) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x2048 .bf16) (harg8 : arg8.IsWhole) (arg9 : Memref sig .tc .vmem S256x2048 .bf16) (harg9 : arg9.IsWhole)
    (x0 : Vec F S256x1024 .f32) (x1 : Vec F S1024x4224 .bf16) (x2 : Vec F S1x4224 .f32) (x3 : Vec F S2x128 .f32) (x4 : Vec F S2x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2) ∗ owns (c : Thread nD τ) arg9 fullShare (out0_8 x0 x1 x2)) -∗ K ⟨⟩))
      ⊢ wp frame (wpE (defs₀ (F := F)) Variants.none c none) E (cc0_kernel_a i arg1 harg1 arg2 harg2 arg3 harg3 arg4 harg4 arg5 harg5 arg6 harg6 arg7 harg7 arg8 harg8 arg9 harg9) K := by
  simp only [cc0_kernel_a_eq_skeleton]; unfold cc0_kernel_a_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The proof data of the first call -/

section
variable (V : (c : Dev nD) → (b : Ref sig .tc) → Buf (Elt F) ((c : Thread nD τ).loc b))

/-- The arrays as the region finds them; after the body at point `t` each input's buffer at its block and each output's at
    the store's payload over the input blocks; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t)
    | ⟨8, _⟩ => out0_8 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t
end

end Cert.KernelIdeal.Fr

end
-- ==== Proof.KI.Run.lean ====
import proofs.«132598_j6073083756839_2_alg».proof.Proof.KI.R0
import proofs.«132598_j6073083756839_2_alg».proof.Proof.KI.R1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four items from the launch to the return

Host operations (a reshape, a change of format, a reshape), the first call, host operations (four reshapes, a change of
format, a reshape), the second call. Between two items a core holds every unscoped buffer at contents named here. -/

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the first call's exit: its arrays at what the write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (the second call's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-! ## The arguments end as launched

No host operation writes an argument; the first call reads the two affine tables through input windows and bypasses the
other arguments; the second call bypasses them all. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (E1 m ρ) c).arrAt_in 3 rfl _).trans (A_eq0 (E1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 4).trans (((dat0 (E1 m ρ) c).arrAt_in 4 rfl _).trans (A_eq0 (E1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The result: the second call's output array after its last write-back. -/
theorem W4_main_v10 (c : Dev nD) : W4 m ρ c (Proc.devRef .tc main_v10) = (dat1 (E3 m ρ) c).arrAt 6 cfg1.N :=
  W4_arr m ρ c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The first call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W3`, left at `W4`; its invariant starts as the class's and
    ends as the class's with the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (E3 m ρ) c
    unfold Pipeline.ΦA at h
    show (dat1 (E3 m ρ) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every final
    state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame, at any instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

/-- The value run: the result array ends at the second call's output array after its last write-back, the arguments as
    launched. -/
theorem run_value : θ_run defs (onTc (τ := τ) (main (F := F))) ⟨m, fun _ => 0, ρ⟩ (fun r => ∀ c : Dev nD,
      r.2.mem ((c.tc : Thread nD τ).loc main_v10) = (dat1 (E3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v10 (by decide))).trans (W4_main_v10 m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.KernelIdeal.Fr

end
-- ==== Proof.KI.Entry.lean ====
import proofs.«132598_j6073083756839_2_alg».proof.Proof.KI.Run
import Idealize.ShloMosaic.Lib.Pipeline.Value
import Idealize.ShloMosaic.Lib.ValueIdx
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable {F : FTy → Type} [FloatOps F]

local notation "𝕄" => MT nD τ sig Unit (Elt F) ℕ (UR sig nD τ) ℕ

/-! # What the second call is entered with

Between the two calls the host reshapes the first call's four [8192, ·] results to [4, 2048, ·], changes the output
matrix's format (the identity on extended reals) and reshapes the bias to a row. -/

variable (m : (ℓ : Loc nD τ sig) → Buf (Elt Ideal) ℓ) (ρ : Dev nD → PrngReg) (c : Dev nD)

/-- `main_v4` is the reshape of the first call's result array 5: batch `b`, row `n` is flattened row `2048·b + n`. -/
theorem E3_main_v4 : (E3 m ρ c main_v4 : S4x2048x128.Idx → EReal)
    = shapeCast S4x2048x128 (W2 m ρ c (Proc.devRef .tc main_v3_0) : S8192x128.Idx → EReal) shapeCasts_S8192x128_S4x2048x128 := by
  show StableHlo.after hostOps1 (W2 m ρ c) (Proc.devRef .tc main_v4) = _
  after_results
  rfl
theorem E3_main_v4_apply (b : Fin 4) (n : Fin 2048) (j : Fin 128) :
    (E3 m ρ c main_v4 : S4x2048x128.Idx → EReal) (ix3 b n j)
      = (dat0 (F := Ideal) (E1 m ρ) c).arrAt 5 cfg0.N (ix2 ⟨2048 * b.val + n.val, by have := b.isLt; have := n.isLt; omega⟩ j) := by
  rw [E3_main_v4, shapeCast_apply _ shapeCasts_S8192x128_S4x2048x128 (ix3 b n j) (ix2 ⟨2048 * b.val + n.val, by have := b.isLt; have := n.isLt; omega⟩ j)
    (by rw [Shape.rowMajor_val_three, Shape.rowMajor_val_two]; show (2048 * b.val + n.val) * 128 + j.val = (b.val * 2048 + n.val) * 128 + j.val; omega)]
  exact congrFun (W2_arr m ρ c 5) _

/-- `main_v5` is the reshape of the first call's result array 6: batch `b`, row `n` is flattened row `2048·b + n`. -/
theorem E3_main_v5 : (E3 m ρ c main_v5 : S4x2048x128.Idx → EReal)
    = shapeCast S4x2048x128 (W2 m ρ c (Proc.devRef .tc main_v3_1) : S8192x128.Idx → EReal) shapeCasts_S8192x128_S4x2048x128 := by
  show StableHlo.after hostOps1 (W2 m ρ c) (Proc.devRef .tc main_v5) = _
  after_results
  rfl
theorem E3_main_v5_apply (b : Fin 4) (n : Fin 2048) (j : Fin 128) :
    (E3 m ρ c main_v5 : S4x2048x128.Idx → EReal) (ix3 b n j)
      = (dat0 (F := Ideal) (E1 m ρ) c).arrAt 6 cfg0.N (ix2 ⟨2048 * b.val + n.val, by have := b.isLt; have := n.isLt; omega⟩ j) := by
  rw [E3_main_v5, shapeCast_apply _ shapeCasts_S8192x128_S4x2048x128 (ix3 b n j) (ix2 ⟨2048 * b.val + n.val, by have := b.isLt; have := n.isLt; omega⟩ j)
    (by rw [Shape.rowMajor_val_three, Shape.rowMajor_val_two]; show (2048 * b.val + n.val) * 128 + j.val = (b.val * 2048 + n.val) * 128 + j.val; omega)]
  exact congrFun (W2_arr m ρ c 6) _

/-- `main_v6` is the reshape of the first call's result array 7: batch `b`, row `n` is flattened row `2048·b + n`. -/
theorem E3_main_v6 : (E3 m ρ c main_v6 : S4x2048x2048.Idx → EReal)
    = shapeCast S4x2048x2048 (W2 m ρ c (Proc.devRef .tc main_v3_2) : S8192x2048.Idx → EReal) shapeCasts_S8192x2048_S4x2048x2048 := by
  show StableHlo.after hostOps1 (W2 m ρ c) (Proc.devRef .tc main_v6) = _
  after_results
  rfl
theorem E3_main_v6_apply (b : Fin 4) (n : Fin 2048) (j : Fin 2048) :
    (E3 m ρ c main_v6 : S4x2048x2048.Idx → EReal) (ix3 b n j)
      = (dat0 (F := Ideal) (E1 m ρ) c).arrAt 7 cfg0.N (ix2 ⟨2048 * b.val + n.val, by have := b.isLt; have := n.isLt; omega⟩ j) := by
  rw [E3_main_v6, shapeCast_apply _ shapeCasts_S8192x2048_S4x2048x2048 (ix3 b n j) (ix2 ⟨2048 * b.val + n.val, by have := b.isLt; have := n.isLt; omega⟩ j)
    (by rw [Shape.rowMajor_val_three, Shape.rowMajor_val_two]; show (2048 * b.val + n.val) * 2048 + j.val = (b.val * 2048 + n.val) * 2048 + j.val; omega)]
  exact congrFun (W2_arr m ρ c 7) _

/-- `main_v7` is the reshape of the first call's result array 8: batch `b`, row `n` is flattened row `2048·b + n`. -/
theorem E3_main_v7 : (E3 m ρ c main_v7 : S4x2048x2048.Idx → EReal)
    = shapeCast S4x2048x2048 (W2 m ρ c (Proc.devRef .tc main_v3_3) : S8192x2048.Idx → EReal) shapeCasts_S8192x2048_S4x2048x2048 := by
  show StableHlo.after hostOps1 (W2 m ρ c) (Proc.devRef .tc main_v7) = _
  after_results
  rfl
theorem E3_main_v7_apply (b : Fin 4) (n : Fin 2048) (j : Fin 2048) :
    (E3 m ρ c main_v7 : S4x2048x2048.Idx → EReal) (ix3 b n j)
      = (dat0 (F := Ideal) (E1 m ρ) c).arrAt 8 cfg0.N (ix2 ⟨2048 * b.val + n.val, by have := b.isLt; have := n.isLt; omega⟩ j) := by
  rw [E3_main_v7, shapeCast_apply _ shapeCasts_S8192x2048_S4x2048x2048 (ix3 b n j) (ix2 ⟨2048 * b.val + n.val, by have := b.isLt; have := n.isLt; omega⟩ j)
    (by rw [Shape.rowMajor_val_three, Shape.rowMajor_val_two]; show (2048 * b.val + n.val) * 2048 + j.val = (b.val * 2048 + n.val) * 2048 + j.val; omega)]
  exact congrFun (W2_arr m ρ c 8) _

/-- No item before the second call writes the output matrix or the bias argument. -/
theorem W2_main_arg5 : W2 m ρ c (Proc.devRef .tc main_arg5) = m ((c : Thread nD τ).loc main_arg5) :=
  (W2_of_ne m ρ c main_arg5 (by decide)).trans ((StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
theorem W2_main_arg6 : W2 m ρ c (Proc.devRef .tc main_arg6) = m ((c : Thread nD τ).loc main_arg6) :=
  (W2_of_ne m ρ c main_arg6 (by decide)).trans ((StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

/-- `main_v8` is the output matrix argument (a change of format is the identity on extended reals). -/
theorem E3_main_v8 : (E3 m ρ c main_v8 : S2048x1024.Idx → EReal) = m ((c : Thread nD τ).loc main_arg5) := by
  show StableHlo.after hostOps1 (W2 m ρ c) (Proc.devRef .tc main_v8) = _
  after_results
  rw [W2_main_arg5]
  rfl

/-- `main_v9` is the bias argument as one row. -/
theorem E3_main_v9_apply (h : Fin 1024) :
    (E3 m ρ c main_v9 : S1x1024.Idx → EReal) (ix2 0 h) = (m ((c : Thread nD τ).loc main_arg6) : S1024.Idx → EReal) (ix1 h) := by
  have e : (E3 m ρ c main_v9 : S1x1024.Idx → EReal)
      = shapeCast S1x1024 (W2 m ρ c (Proc.devRef .tc main_arg6) : S1024.Idx → EReal) shapeCasts_S1024_S1x1024 := by
    show StableHlo.after hostOps1 (W2 m ρ c) (Proc.devRef .tc main_v9) = _
    after_results
    rfl
  rw [e, shapeCast_apply _ shapeCasts_S1024_S1x1024 (ix2 0 h) (ix1 h)
    (by rw [Shape.rowMajor_val_one, Shape.rowMajor_val_two]; show h.val = (0 : ℕ) * 1024 + h.val; omega), W2_main_arg6]

end Cert.KernelIdeal.Fr

end
-- ==== Proof.Algebra.lean ====
import proofs.«132598_j6073083756839_2_alg».proof.Proof.Gen.ReferenceIdeal.Read
import proofs.«132598_j6073083756839_2_alg».proof.Proof.Spec
import Idealize.ShloMosaic.PureOps.Ideal
import Idealize.ShloMosaic.PureOps.Ideal.Laws
import Idealize.ShloMosaic.Lib.ValueIdx
import Mathlib.Data.EReal.Operations

noncomputable section

/-! # The kernel's arrangement of the attention stage equals the reference's, on the extended reals

The reference divides each score (a 128-term product sum) by 2048 and sums the weighted value rows over all 2048 key
rows at once. The kernel's form multiplies every query entry by 2⁻¹¹ beforehand, takes the plain product sum, and adds
the 2048 key rows in four blocks of 512 onto the zero word. Two laws join them, both valid for ALL extended reals:
a nonnegative finite factor comes out of a product sum, and a finite sum may be regrouped into consecutive blocks. -/

namespace Cert.Bridge

open Idealize.ShloMosaic Idealize.ShloMosaic.ValueIdx
open Cert.ReferenceIdeal Cert.ReferenceIdeal.Read

/-! ## Two laws of sums on the extended reals -/

/-- A nonnegative finite factor carried by every left operand of a product sum comes out of the sum: on the extended
    reals multiplication by such a factor distributes over every sum, infinite terms of either sign included. -/
theorem sum_scaled_mul {ι : Type*} (s : Finset ι) (a b : ι → EReal) {c : EReal} (h0 : 0 ≤ c) (ht : c ≠ ⊤) :
    ∑ j ∈ s, (a j * c) * b j = (∑ j ∈ s, a j * b j) * c := by
  classical
  induction s using Finset.induction_on with
  | empty => rw [Finset.sum_empty, Finset.sum_empty, zero_mul]
  | insert i s hi ih =>
    rw [Finset.sum_insert hi, Finset.sum_insert hi, ih, EReal.right_distrib_of_nonneg_of_ne_top h0 ht,
      mul_right_comm]

/-- Row `r` of block `i`, as a pair, is a numbering of the 2048 rows. -/
def rowEquiv : Fin 4 × Fin 512 ≃ Fin 2048 where
  toFun p := Cert.Spec.krow p.1 p.2
  invFun k := (⟨k.val / 512, by omega⟩, ⟨k.val % 512, by omega⟩)
  left_inv p := by
    obtain ⟨i, r⟩ := p
    refine Prod.ext (Fin.ext ?_) (Fin.ext ?_)
    · show (512 * i.val + r.val) / 512 = i.val
      omega
    · show (512 * i.val + r.val) % 512 = r.val
      omega
  right_inv k := by
    refine Fin.ext ?_
    show 512 * (k.val / 512) + k.val % 512 = k.val
    omega

/-- A sum over the 2048 rows is the zero word plus the four block sums of 512 rows, added in order. -/
theorem sum_rows_blocks (f : Fin 2048 → EReal) :
    ∑ k : Fin 2048, f k =
      Cert.Spec.zw + (∑ r : Fin 512, f (Cert.Spec.krow 0 r)) + (∑ r : Fin 512, f (Cert.Spec.krow 1 r))
        + (∑ r : Fin 512, f (Cert.Spec.krow 2 r)) + (∑ r : Fin 512, f (Cert.Spec.krow 3 r)) := by
  have hz : Cert.Spec.zw = 0 := Ideal.ofBits_zero_f32
  rw [← Equiv.sum_comp rowEquiv f, Fintype.sum_prod_type, Fin.sum_univ_four, hz, zero_add]
  rfl

/-! ## The two scale words -/

/-- The reference's divisor word is 2¹¹. -/
theorem word_2048 : Ideal.ofBits .f32 0x45000000#32 = ((2048 : ℝ) : EReal) := by
  simp [Ideal.ofBits, Ideal.ieee]
  rw [← EReal.coe_mul]
  norm_num

/-- The kernel's score-scale word is 2⁻¹¹. -/
theorem word_inv_2048 : Cert.Spec.qscale = ((1 / 2048 : ℝ) : EReal) := by
  simp [Ideal.ofBits, Ideal.ieee]
  rw [← EReal.coe_mul]
  norm_num

/-! ## The reference's arrangement, as a function of the stage arrays -/

/-- The reference's score: the product sum divided by the word 2048. -/
def refScore (q k : Cert.Spec.A3 4 2048 128) (b : Fin 4) (n m : Fin 2048) : EReal :=
  Ideal.div (∑ j : Fin 128, q (ix3 b n j) * k (ix3 b m j)) (Ideal.ofBits .f32 0x45000000#32)

/-- The reference's weight: the square of the score's positive part. -/
def refSq (q k : Cert.Spec.A3 4 2048 128) (b : Fin 4) (n m : Fin 2048) : EReal :=
  max (refScore q k b n m) Cert.Spec.zw * max (refScore q k b n m) Cert.Spec.zw

/-- The reference's result entry: the gated attention value (one sum over all 2048 key rows) times the output
    matrix, plus the bias entry. -/
def refAt (q k : Cert.Spec.A3 4 2048 128) (v u : Cert.Spec.A3 4 2048 2048) (wo : Cert.Spec.A2 2048 1024) (bias : EReal)
    (b : Fin 4) (n : Fin 2048) (h : Fin 1024) : EReal :=
  (∑ e : Fin 2048, (u (ix3 b n e) * ∑ m : Fin 2048, refSq q k b n m * v (ix3 b m e)) * wo (ix2 e h)) + bias

/-- Scaling the query entries by 2⁻¹¹ before the product sum is dividing the product sum by 2048. -/
theorem scoreK_scaled (q k : Cert.Spec.A3 4 2048 128) (b : Fin 4) (n m : Fin 2048) :
    Cert.Spec.scoreK (fun i => q i * Cert.Spec.qscale) k b n m = refScore q k b n m := by
  unfold Cert.Spec.scoreK refScore
  rw [word_2048, Ideal.div_coe (by norm_num : (2048 : ℝ) ≠ 0), word_inv_2048]
  exact sum_scaled_mul Finset.univ (fun j => q (ix3 b n j)) (fun j => k (ix3 b m j))
    (EReal.coe_nonneg.mpr (by norm_num)) (EReal.coe_ne_top _)

theorem sqK_scaled (q k : Cert.Spec.A3 4 2048 128) (b : Fin 4) (n m : Fin 2048) :
    Cert.Spec.sqK (fun i => q i * Cert.Spec.qscale) k b n m = refSq q k b n m := by
  unfold Cert.Spec.sqK refSq
  rw [scoreK_scaled]

/-- One block's contribution is the block's part of the reference's sum over key rows. -/
theorem blkS_scaled (q k : Cert.Spec.A3 4 2048 128) (v : Cert.Spec.A3 4 2048 2048) (b : Fin 4) (n e : Fin 2048) (i : Fin 4) :
    Cert.Spec.blkS (fun i => q i * Cert.Spec.qscale) k v b n e i
      = ∑ r : Fin 512, (fun m : Fin 2048 => refSq q k b n m * v (ix3 b m e)) (Cert.Spec.krow i r) := by
  unfold Cert.Spec.blkS
  refine Finset.sum_congr rfl fun r _ => ?_
  rw [sqK_scaled]

/-- The four blocks added in order onto the zero word are the sum over all 2048 key rows. -/
theorem attnK_scaled (q k : Cert.Spec.A3 4 2048 128) (v : Cert.Spec.A3 4 2048 2048) (b : Fin 4) (n e : Fin 2048) :
    Cert.Spec.attnK (fun i => q i * Cert.Spec.qscale) k v b n e = ∑ m : Fin 2048, refSq q k b n m * v (ix3 b m e) := by
  unfold Cert.Spec.attnK
  simp only [Cert.Spec.accK, blkS_scaled]
  exact (sum_rows_blocks (fun m : Fin 2048 => refSq q k b n m * v (ix3 b m e))).symm

theorem outKAt_scaled (q k : Cert.Spec.A3 4 2048 128) (v u : Cert.Spec.A3 4 2048 2048) (wo : Cert.Spec.A2 2048 1024)
    (bo : Cert.Spec.A2 1 1024) (b : Fin 4) (n : Fin 2048) (h : Fin 1024) :
    Cert.Spec.outKAt (fun i => q i * Cert.Spec.qscale) k v u wo bo b n h = refAt q k v u wo (bo (ix2 0 h)) b n h := by
  unfold Cert.Spec.outKAt refAt
  simp only [attnK_scaled]

/-! ## The reference program read at an index

The index maps of the reference's three contractions and of its bias broadcast, at coordinates. -/

theorem lidx27 (b : Fin 4) (n : Fin 2048) (h : Fin 1024) (e : Fin 2048) : lidx_main_v27 (ix3 b n h) e = ix3 b n e :=
  funext fun a => by match a with | ⟨0, _⟩ => rfl | ⟨1, _⟩ => rfl | ⟨2, _⟩ => rfl
theorem ridx27 (b : Fin 4) (n : Fin 2048) (h : Fin 1024) (e : Fin 2048) : ridx_main_v27 (ix3 b n h) e = ix2 e h :=
  funext fun a => by match a with | ⟨0, _⟩ => rfl | ⟨1, _⟩ => rfl
theorem lidx25 (b : Fin 4) (n e m : Fin 2048) : lidx_main_v25 (ix3 b n e) m = ix3 b n m :=
  funext fun a => by match a with | ⟨0, _⟩ => rfl | ⟨1, _⟩ => rfl | ⟨2, _⟩ => rfl
theorem ridx25 (b : Fin 4) (n e m : Fin 2048) : ridx_main_v25 (ix3 b n e) m = ix3 b m e :=
  funext fun a => by match a with | ⟨0, _⟩ => rfl | ⟨1, _⟩ => rfl | ⟨2, _⟩ => rfl
theorem lidx20 (b : Fin 4) (n m : Fin 2048) (j : Fin 128) : lidx_main_v20 (ix3 b n m) j = ix3 b n j :=
  funext fun a => by match a with | ⟨0, _⟩ => rfl | ⟨1, _⟩ => rfl | ⟨2, _⟩ => rfl
theorem ridx20 (b : Fin 4) (n m : Fin 2048) (j : Fin 128) : ridx_main_v20 (ix3 b n m) j = ix3 b m j :=
  funext fun a => by match a with | ⟨0, _⟩ => rfl | ⟨1, _⟩ => rfl | ⟨2, _⟩ => rfl
theorem idx2829 (b : Fin 4) (n : Fin 2048) (h : Fin 1024) : idx_main_v28 (idx_main_v29 (ix3 b n h)) = ix1 h :=
  funext fun a => by match a with | ⟨0, _⟩ => rfl

/-- The reference's score stage at an index. -/
theorem ref_score (x0 : (⟨S4x2048x1024, .f32⟩ : BufTy).Contents (Elt Ideal)) (x1 : (⟨S1024x4224, .f32⟩ : BufTy).Contents (Elt Ideal)) (x2 : (⟨S4224, .f32⟩ : BufTy).Contents (Elt Ideal)) (x3 x4 : (⟨S2x128, .f32⟩ : BufTy).Contents (Elt Ideal)) (b : Fin 4) (n m : Fin 2048) :
    val_main_v22 (F := Ideal) x0 x1 x2 x3 x4 (ix3 b n m)
      = refScore (val_main_v17 (F := Ideal) x0 x1 x2 x3 x4) (val_main_v19 (F := Ideal) x0 x1 x2 x3 x4) b n m := by
  rw [val_main_v22_apply, val_main_v20_apply, val_main_v21_apply, val_main_cst_apply]
  simp only [lidx20, ridx20, Ideal.hostDivf_def, Ideal.ofBits_def]
  rfl

/-- The reference's weight stage at an index. -/
theorem ref_sq (x0 : (⟨S4x2048x1024, .f32⟩ : BufTy).Contents (Elt Ideal)) (x1 : (⟨S1024x4224, .f32⟩ : BufTy).Contents (Elt Ideal)) (x2 : (⟨S4224, .f32⟩ : BufTy).Contents (Elt Ideal)) (x3 x4 : (⟨S2x128, .f32⟩ : BufTy).Contents (Elt Ideal)) (b : Fin 4) (n m : Fin 2048) :
    val_main_v24 (F := Ideal) x0 x1 x2 x3 x4 (ix3 b n m)
      = refSq (val_main_v17 (F := Ideal) x0 x1 x2 x3 x4) (val_main_v19 (F := Ideal) x0 x1 x2 x3 x4) b n m := by
  rw [val_main_v24_apply, val_main_v23_apply, ref_score, val_main_call1_v0_apply, val_main_call1_cst_apply]
  simp only [Ideal.mulf_def, Ideal.maximumf_def, Ideal.ofBits_def]
  rfl

/-- The reference's result at an index. -/
theorem ref_out (x0 : (⟨S4x2048x1024, .f32⟩ : BufTy).Contents (Elt Ideal)) (x1 : (⟨S1024x4224, .f32⟩ : BufTy).Contents (Elt Ideal)) (x2 : (⟨S4224, .f32⟩ : BufTy).Contents (Elt Ideal)) (x3 x4 : (⟨S2x128, .f32⟩ : BufTy).Contents (Elt Ideal)) (x5 : (⟨S2048x1024, .f32⟩ : BufTy).Contents (Elt Ideal)) (x6 : (⟨S1024, .f32⟩ : BufTy).Contents (Elt Ideal)) (b : Fin 4) (n : Fin 2048) (h : Fin 1024) :
    val_main_v30 (F := Ideal) x0 x1 x2 x3 x4 x5 x6 (ix3 b n h)
      = refAt (val_main_v17 (F := Ideal) x0 x1 x2 x3 x4) (val_main_v19 (F := Ideal) x0 x1 x2 x3 x4)
          (val_main_v6 (F := Ideal) x0 x1 x2) (val_main_v5 (F := Ideal) x0 x1 x2) x5 (x6 (ix1 h)) b n h := by
  rw [val_main_v30_apply, val_main_v27_apply, val_main_v29_apply, val_main_v28_apply, idx2829]
  simp only [lidx27, ridx27, val_main_v26_apply, val_main_v25_apply, lidx25, ridx25, ref_sq, Ideal.mulf_def,
    Ideal.addf_def]
  rfl

/-! ## The statement -/

theorem outK_eq_ref (x0 : (⟨S4x2048x1024, .f32⟩ : BufTy).Contents (Elt Ideal)) (x1 : (⟨S1024x4224, .f32⟩ : BufTy).Contents (Elt Ideal)) (x2 : (⟨S4224, .f32⟩ : BufTy).Contents (Elt Ideal)) (x3 x4 : (⟨S2x128, .f32⟩ : BufTy).Contents (Elt Ideal)) (x5 : (⟨S2048x1024, .f32⟩ : BufTy).Contents (Elt Ideal)) (x6 : (⟨S1024, .f32⟩ : BufTy).Contents (Elt Ideal)) :
    Cert.Spec.outK (fun i => val_main_v17 (F := Ideal) x0 x1 x2 x3 x4 i * Cert.Spec.qscale)
        (val_main_v19 (F := Ideal) x0 x1 x2 x3 x4)
        (val_main_v6 (F := Ideal) x0 x1 x2)
        (val_main_v5 (F := Ideal) x0 x1 x2)
        x5 (fun i => x6 (ix1 (i 1)))
      = val_main_v30 (F := Ideal) x0 x1 x2 x3 x4 x5 x6 := by
  funext i
  obtain ⟨b, n, h, rfl⟩ : ∃ (b : Fin 4) (n : Fin 2048) (h : Fin 1024), i = ix3 b n h := ⟨i 0, i 1, i 2, eq_ix3 i⟩
  rw [ref_out]
  exact outKAt_scaled _ _ _ _ _ _ b n h

end Cert.Bridge

end
-- ==== Proof.KI.Val0Base.lean ====
import proofs.«132598_j6073083756839_2_alg».proof.Proof.KI.Run
import proofs.«132598_j6073083756839_2_alg».proof.Proof.Gen.ReferenceIdeal.Read
import proofs.«132598_j6073083756839_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx

/-! # The first call's stored values, read at an index

What the three host operations before the call leave in the call's input arrays; the body's matrix product, bias and
gate activation at a row and a column; and each stored payload against the reference's stage of the same name. -/

section
variable (m : (ℓ : Loc nD τ sig) → Buf (Elt Ideal) ℓ) (ρ : Dev nD → PrngReg)

/-- At the call's entry the row-tiled input is the argument flattened to 8192 rows. -/
theorem entry_v0 (c : Dev nD) :
    (E1 m ρ c main_v0 : S8192x1024.Idx → EReal)
      = shapeCast S8192x1024 (m ((c.tc : Thread nD τ).loc main_arg0) : S4x2048x1024.Idx → EReal) shapeCasts_S4x2048x1024_S8192x1024 := by
  dsimp only [E1, W1, hostOps0]
  after_results
  rfl

/-- The weight matrix after the change of format: the argument itself. -/
theorem entry_v1 (c : Dev nD) :
    (E1 m ρ c main_v1 : S1024x4224.Idx → EReal)
      = (m ((c.tc : Thread nD τ).loc main_arg1) : S1024x4224.Idx → EReal) := by
  dsimp only [E1, W1, hostOps0]
  after_results
  rfl

/-- The bias as one row. -/
theorem entry_v2 (c : Dev nD) :
    (E1 m ρ c main_v2 : S1x4224.Idx → EReal)
      = shapeCast S1x4224 (m ((c.tc : Thread nD τ).loc main_arg2) : S4224.Idx → EReal) shapeCasts_S4224_S1x4224 := by
  dsimp only [E1, W1, hostOps0]
  after_results
  rfl

/-- The two affine tables are arguments no host operation writes. -/
theorem entry_arg3 (c : Dev nD) :
    (E1 m ρ c main_arg3 : S2x128.Idx → EReal)
      = (m ((c.tc : Thread nD τ).loc main_arg3) : S2x128.Idx → EReal) := by
  dsimp only [E1, W1, hostOps0]
  after_results

theorem entry_arg4 (c : Dev nD) :
    (E1 m ρ c main_arg4 : S2x128.Idx → EReal)
      = (m ((c.tc : Thread nD τ).loc main_arg4) : S2x128.Idx → EReal) := by
  dsimp only [E1, W1, hostOps0]
  after_results
end

/-- The f32 word of 1.0 is the extended real 1. -/
theorem one_word : Ideal.ofBits .f32 0x3F800000#32 = 1 := by simp [Ideal.ofBits, Ideal.ieee, -EReal.coe_mul]; norm_num

theorem logistic_at {s : Shape} {φ : FTy} (a : FVec Ideal s φ) (i : s.Idx) : logistic a i = Ideal.logistic (a i) := rfl

/-- The product sum before the bias, the bias added, and the gate activation of the sum. -/
def pre (A0 : (⟨3, ![4, 2048, 1024]⟩ : Shape).Idx → EReal) (A1 : (⟨2, ![1024, 4224]⟩ : Shape).Idx → EReal)
    (A2 : (⟨1, ![4224]⟩ : Shape).Idx → EReal) (b : Fin 4) (n : Fin 2048) (q : Fin 4224) : EReal :=
  (∑ k : Fin 1024, A0 (ix3 b n k) * A1 (ix2 k q)) + A2 (ix1 q)

def act (s : EReal) : EReal := s * Ideal.logistic s

theorem lhs_nc (i : S256x4224.Idx) (q : dot_S256x1024_S1024x4224_S256x4224_1_0_0_1_n_n.contr.Idx) :
    (dot_S256x1024_S1024x4224_S256x4224_1_0_0_1_n_n.lhsIdx i q 0).val = (i 0).val := by
  unfold DotDims.lhsIdx
  rw [dif_neg (show ¬(0 : Fin S256x1024.rank) ∈ dot_S256x1024_S1024x4224_S256x4224_1_0_0_1_n_n.lhsBatch by decide), dif_pos (show (0 : Fin S256x1024.rank) ∈ dot_S256x1024_S1024x4224_S256x4224_1_0_0_1_n_n.lhsNonContracting by decide)]
  rfl
theorem rhs_nc (i : S256x4224.Idx) (q : dot_S256x1024_S1024x4224_S256x4224_1_0_0_1_n_n.contr.Idx) :
    (dot_S256x1024_S1024x4224_S256x4224_1_0_0_1_n_n.rhsIdx i q 1).val = (i 1).val := by
  unfold DotDims.rhsIdx
  rw [dif_neg (show ¬(1 : Fin S1024x4224.rank) ∈ dot_S256x1024_S1024x4224_S256x4224_1_0_0_1_n_n.rhsBatch by decide), dif_pos (show (1 : Fin S1024x4224.rank) ∈ dot_S256x1024_S1024x4224_S256x4224_1_0_0_1_n_n.rhsNonContracting by decide)]
  rfl

/-- The body's matrix product into the zero accumulator, at row p and column q: the 1024-term product sum. -/
theorem mm_at (l : FVec Ideal S256x1024 .bf16) (r : FVec Ideal S1024x4224 .bf16) (p : Fin 256) (q : Fin 4224) :
    matmul dot_S256x1024_S1024x4224_S256x4224_1_0_0_1_n_n none l r (constant S256x4224 .f32 0x00000000#32) (ix2 p q)
      = ∑ k : Fin 1024, l (ix2 p k) * r (ix2 k q) := by
  simp only [matmul]
  rw [Ideal.matmul_constant_zero_apply, ← Equiv.sum_comp (contrEquiv1 dot_S256x1024_S1024x4224_S256x4224_1_0_0_1_n_n 1024 rfl rfl).symm]
  refine Finset.sum_congr rfl fun k _ => ?_
  have hk := contrEquiv1_symm_val dot_S256x1024_S1024x4224_S256x4224_1_0_0_1_n_n 1024 rfl rfl k
  have el : dot_S256x1024_S1024x4224_S256x4224_1_0_0_1_n_n.lhsIdx (ix2 p q) ((contrEquiv1 dot_S256x1024_S1024x4224_S256x4224_1_0_0_1_n_n 1024 rfl rfl).symm k) = ix2 p k := funext fun a => Fin.ext (by
    match a with
    | ⟨0, _⟩ => exact lhs_nc _ _
    | ⟨1, _⟩ => exact (dot_S256x1024_S1024x4224_S256x4224_1_0_0_1_n_n.lhsIdx_val_of_single rfl _ _).trans hk)
  have er : dot_S256x1024_S1024x4224_S256x4224_1_0_0_1_n_n.rhsIdx (ix2 p q) ((contrEquiv1 dot_S256x1024_S1024x4224_S256x4224_1_0_0_1_n_n 1024 rfl rfl).symm k) = ix2 k q := funext fun a => Fin.ext (by
    match a with
    | ⟨0, _⟩ => exact (dot_S256x1024_S1024x4224_S256x4224_1_0_0_1_n_n.rhsIdx_val_of_single rfl _ _).trans hk
    | ⟨1, _⟩ => exact rhs_nc _ _)
  rw [el, er]

/-- The bias row broadcast down the 256 rows. -/
theorem bias_at (x2 : FVec Ideal S1x4224 .f32) (p : Fin 256) (q : Fin 4224) :
    broadcastTo S256x4224 x2 broadcasts_S1x4224_S256x4224 (ix2 p q) = x2 (ix2 0 q) :=
  broadcastTo_apply x2 broadcasts_S1x4224_S256x4224 (ix2 p q) (ix2 0 q) (fun a => match a with
    | ⟨0, _⟩ => by show 0 = if (1 : Nat) = 1 then 0 else _; rw [if_pos rfl]
    | ⟨1, _⟩ => by show q.val = if (4224 : Nat) = 1 then 0 else q.val; rw [if_neg (by decide)])

/-- The first payload (the activated projection of a row tile) at row p, column q. -/
theorem pay1_at (x0 : Vec Ideal S256x1024 .f32) (x1 : Vec Ideal S1024x4224 .bf16) (x2 : Vec Ideal S1x4224 .f32)
    (p : Fin 256) (q : Fin 4224) :
    k0_pay1 x0 x1 x2 (ix2 p q) = act ((∑ k : Fin 1024, x0 (ix2 p k) * x1 (ix2 k q)) + x2 (ix2 0 q)) := by
  unfold k0_pay1
  simp only [shapeCast_self]
  rw [mulf_apply, logistic_at, addf_apply, mm_at, bias_at]
  rfl

/-! ## The reference's activated projection at an index -/

/-- The reference's projection, bias and activation at batch b, row n, column q. -/
theorem ref_v4_at (A0 : (⟨3, ![4, 2048, 1024]⟩ : Shape).Idx → EReal) (A1 : (⟨2, ![1024, 4224]⟩ : Shape).Idx → EReal)
    (A2 : (⟨1, ![4224]⟩ : Shape).Idx → EReal) (b : Fin 4) (n : Fin 2048) (q : Fin 4224) :
    Cert.ReferenceIdeal.Read.val_main_v4 (F := Ideal) A0 A1 A2 (ix3 b n q) = act (pre A0 A1 A2 b n q) := by
  have e1 : ∀ k, Cert.ReferenceIdeal.Read.lidx_main_v0 (ix3 b n q) k = ix3 b n k := fun k => funext fun a => by
    match a with | ⟨0, _⟩ => rfl | ⟨1, _⟩ => rfl | ⟨2, _⟩ => rfl
  have e2 : ∀ k, Cert.ReferenceIdeal.Read.ridx_main_v0 (ix3 b n q) k = ix2 k q := fun k => funext fun a => by
    match a with | ⟨0, _⟩ => rfl | ⟨1, _⟩ => rfl
  have e3 : Cert.ReferenceIdeal.Read.idx_main_v1 (Cert.ReferenceIdeal.Read.idx_main_v2 (ix3 b n q)) = ix1 q := funext fun a => by
    match a with | ⟨0, _⟩ => rfl
  rw [Cert.ReferenceIdeal.Read.val_main_v4_apply, Cert.ReferenceIdeal.Read.val_main_call0_v5_apply,
    Cert.ReferenceIdeal.Read.val_main_call0_v4_apply, Cert.ReferenceIdeal.Read.val_main_call0_cst_0_apply,
    Cert.ReferenceIdeal.Read.val_main_call0_v3_apply, Cert.ReferenceIdeal.Read.val_main_call0_v2_apply,
    Cert.ReferenceIdeal.Read.val_main_call0_cst_apply, Cert.ReferenceIdeal.Read.val_main_call0_v1_apply,
    Cert.ReferenceIdeal.Read.val_main_call0_v0_apply, Cert.ReferenceIdeal.Read.val_main_v3_apply,
    Cert.ReferenceIdeal.Read.val_main_v0_apply, Cert.ReferenceIdeal.Read.val_main_v2_apply,
    Cert.ReferenceIdeal.Read.val_main_v1_apply]
  simp only [e1, e2, e3]
  unfold act pre
  show _ * Ideal.div (Ideal.ofBits .f32 0x3F800000#32) (Ideal.ofBits .f32 0x3F800000#32 + Ideal.exp (-_)) = _
  rw [one_word]
  rfl

/-! ## The three column slices of the kernel's activated projection -/

theorem slice_v_at (y : FVec Ideal S256x4224 .f32) (p : Fin 256) (q : Fin 2048) :
    extractStridedSlice S256x2048 ![0, 2048] y slices_S256x4224_o0_2048_S256x2048 (ix2 p q)
      = y (ix2 p ⟨2048 + q.val, by omega⟩) :=
  extractStridedSlice_apply ![0, 2048] y slices_S256x4224_o0_2048_S256x2048 (ix2 p q) (ix2 p ⟨2048 + q.val, by omega⟩) (fun a => match a with
    | ⟨0, _⟩ => by show p.val = 0 + p.val; omega
    | ⟨1, _⟩ => by show 2048 + q.val = 2048 + q.val; rfl)

theorem slice_u_at (y : FVec Ideal S256x4224 .f32) (p : Fin 256) (q : Fin 2048) :
    extractStridedSlice S256x2048 ![0, 0] y slices_S256x4224_o0_0_S256x2048 (ix2 p q)
      = y (ix2 p ⟨q.val, by omega⟩) :=
  extractStridedSlice_apply ![0, 0] y slices_S256x4224_o0_0_S256x2048 (ix2 p q) (ix2 p ⟨q.val, by omega⟩) (fun a => match a with
    | ⟨0, _⟩ => by show p.val = 0 + p.val; omega
    | ⟨1, _⟩ => by show q.val = 0 + q.val; omega)

theorem slice_base_at (y : FVec Ideal S256x4224 .f32) (p : Fin 256) (j : Fin 128) :
    extractStridedSlice S256x128 ![0, 4096] y slices_S256x4224_o0_4096_S256x128 (ix2 p j)
      = y (ix2 p ⟨4096 + j.val, by omega⟩) :=
  extractStridedSlice_apply ![0, 4096] y slices_S256x4224_o0_4096_S256x128 (ix2 p j) (ix2 p ⟨4096 + j.val, by omega⟩) (fun a => match a with
    | ⟨0, _⟩ => by show p.val = 0 + p.val; omega
    | ⟨1, _⟩ => by show 4096 + j.val = 4096 + j.val; rfl)

/-! ## Each stored payload at a row and a column, against the reference's stage

The hypotheses say what the loaded blocks are: row p of the input tile is row n of batch b of the input; the weight
and the bias blocks are the whole weight matrix and bias row. -/

section
variable (x0 : Vec Ideal S256x1024 .f32) (x1 : Vec Ideal S1024x4224 .bf16) (x2 : Vec Ideal S1x4224 .f32)
  (A0 : (⟨3, ![4, 2048, 1024]⟩ : Shape).Idx → EReal) (A1 : (⟨2, ![1024, 4224]⟩ : Shape).Idx → EReal)
  (A2 : (⟨1, ![4224]⟩ : Shape).Idx → EReal) (p : Fin 256) (b : Fin 4) (n : Fin 2048)
  (h0 : ∀ k : Fin 1024, x0 (ix2 p k) = A0 (ix3 b n k))
  (h1 : ∀ (k : Fin 1024) (q : Fin 4224), x1 (ix2 k q) = A1 (ix2 k q))
  (h2 : ∀ q : Fin 4224, x2 (ix2 0 q) = A2 (ix1 q))
include h0 h1 h2

theorem pay1_eq_ref (q : Fin 4224) :
    k0_pay1 x0 x1 x2 (ix2 p q) = Cert.ReferenceIdeal.Read.val_main_v4 (F := Ideal) A0 A1 A2 (ix3 b n q) := by
  rw [pay1_at, ref_v4_at]
  unfold pre
  rw [h2 q]
  refine congrArg (fun s => act (s + A2 (ix1 q))) (Finset.sum_congr rfl fun k _ => ?_)
  rw [h0 k, h1 k q]

/-- Window 7's payload (columns 2048 … 4095 of the activated projection) is the reference's second slice. -/
theorem pay5_eq_ref (q : Fin 2048) :
    k0_pay5 x0 x1 x2 (ix2 p q) = Cert.ReferenceIdeal.Read.val_main_v6 (F := Ideal) A0 A1 A2 (ix3 b n q) := by
  have e : Cert.ReferenceIdeal.Read.idx_main_v6 (ix3 b n q) = ix3 b n ⟨2048 + q.val, by omega⟩ := funext fun a => by
    match a with | ⟨0, _⟩ => rfl | ⟨1, _⟩ => rfl | ⟨2, _⟩ => rfl
  rw [Cert.ReferenceIdeal.Read.val_main_v6_apply, e]
  unfold k0_pay5
  rw [truncf_apply, slice_v_at]
  exact pay1_eq_ref x0 x1 x2 A0 A1 A2 p b n h0 h1 h2 _

/-- Window 8's payload (columns 0 … 2047) is the reference's first slice. -/
theorem pay6_eq_ref (q : Fin 2048) :
    k0_pay6 x0 x1 x2 (ix2 p q) = Cert.ReferenceIdeal.Read.val_main_v5 (F := Ideal) A0 A1 A2 (ix3 b n q) := by
  have e : Cert.ReferenceIdeal.Read.idx_main_v5 (ix3 b n q) = ix3 b n ⟨q.val, by omega⟩ := funext fun a => by
    match a with | ⟨0, _⟩ => rfl | ⟨1, _⟩ => rfl | ⟨2, _⟩ => rfl
  rw [Cert.ReferenceIdeal.Read.val_main_v5_apply, e]
  unfold k0_pay6
  rw [truncf_apply, slice_u_at]
  exact pay1_eq_ref x0 x1 x2 A0 A1 A2 p b n h0 h1 h2 _

/-- The shared base columns 4096 … 4223. -/
theorem pay2_eq_ref (j : Fin 128) :
    k0_pay2 x0 x1 x2 (ix2 p j) = Cert.ReferenceIdeal.Read.val_main_v7 (F := Ideal) A0 A1 A2 (ix3 b n j) := by
  have e : Cert.ReferenceIdeal.Read.idx_main_v7 (ix3 b n j) = ix3 b n ⟨4096 + j.val, by omega⟩ := funext fun a => by
    match a with | ⟨0, _⟩ => rfl | ⟨1, _⟩ => rfl | ⟨2, _⟩ => rfl
  rw [Cert.ReferenceIdeal.Read.val_main_v7_apply, e]
  unfold k0_pay2
  rw [slice_base_at]
  exact pay1_eq_ref x0 x1 x2 A0 A1 A2 p b n h0 h1 h2 _
end

end Cert.KernelIdeal.Fr

end
-- ==== Proof.KI.Val0Heads.lean ====
import proofs.«132598_j6073083756839_2_alg».proof.Proof.KI.Val0Base
import proofs.«132598_j6073083756839_2_alg».proof.Proof.Gen.ReferenceIdeal.Read
import proofs.«132598_j6073083756839_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx

/-! # The two affine heads of the shared base columns

The reference broadcasts the base over a new axis of extent two, multiplies by the first table and adds the second, and
takes the two rows apart; the kernel multiplies the base by row r of the first table and adds row r of the second, and
scales the first head by the score scale. -/

section
variable (A0 : (⟨3, ![4, 2048, 1024]⟩ : Shape).Idx → EReal) (A1 : (⟨2, ![1024, 4224]⟩ : Shape).Idx → EReal)
  (A2 : (⟨1, ![4224]⟩ : Shape).Idx → EReal) (A3 A4 : (⟨2, ![2, 128]⟩ : Shape).Idx → EReal)
  (b : Fin 4) (n : Fin 2048) (j : Fin 128)

/-- The reference's affine stage at batch b, row n, head r, column j. -/
theorem ref_v15_at (r : Fin 2) :
    Cert.ReferenceIdeal.Read.val_main_v15 (F := Ideal) A0 A1 A2 A3 A4 (ix4 b n r j)
      = Cert.ReferenceIdeal.Read.val_main_v7 (F := Ideal) A0 A1 A2 (ix3 b n j) * A3 (ix2 r j) + A4 (ix2 r j) := by
  have e10 : Cert.ReferenceIdeal.Read.idx_main_v10 (ix4 b n r j) = ix4 b n (0 : Fin 1) j := funext fun a => by
    match a with | ⟨0, _⟩ => rfl | ⟨1, _⟩ => rfl | ⟨2, _⟩ => rfl | ⟨3, _⟩ => rfl
  have e8 : Cert.ReferenceIdeal.Read.idx_main_v8 (ix4 b n (0 : Fin 1) j) = ix3 b n j := funext fun a => by
    match a with | ⟨0, _⟩ => rfl | ⟨1, _⟩ => rfl | ⟨2, _⟩ => rfl
  have e11 : Cert.ReferenceIdeal.Read.idx_main_v11 (ix4 b n r j) = ix4 (0 : Fin 1) (0 : Fin 1) r j := funext fun a => by
    match a with | ⟨0, _⟩ => rfl | ⟨1, _⟩ => rfl | ⟨2, _⟩ => rfl | ⟨3, _⟩ => rfl
  have e9 : Cert.ReferenceIdeal.Read.idx_main_v9 (ix4 (0 : Fin 1) (0 : Fin 1) r j) = ix2 r j := funext fun a => by
    match a with | ⟨0, _⟩ => rfl | ⟨1, _⟩ => rfl
  have e14 : Cert.ReferenceIdeal.Read.idx_main_v14 (ix4 b n r j) = ix4 (0 : Fin 1) (0 : Fin 1) r j := funext fun a => by
    match a with | ⟨0, _⟩ => rfl | ⟨1, _⟩ => rfl | ⟨2, _⟩ => rfl | ⟨3, _⟩ => rfl
  have e13 : Cert.ReferenceIdeal.Read.idx_main_v13 (ix4 (0 : Fin 1) (0 : Fin 1) r j) = ix2 r j := funext fun a => by
    match a with | ⟨0, _⟩ => rfl | ⟨1, _⟩ => rfl
  rw [Cert.ReferenceIdeal.Read.val_main_v15_apply, Cert.ReferenceIdeal.Read.val_main_v12_apply,
    Cert.ReferenceIdeal.Read.val_main_v10_apply, e10, Cert.ReferenceIdeal.Read.val_main_v8_apply, e8,
    Cert.ReferenceIdeal.Read.val_main_v11_apply, e11, Cert.ReferenceIdeal.Read.val_main_v9_apply, e9,
    Cert.ReferenceIdeal.Read.val_main_v14_apply, e14, Cert.ReferenceIdeal.Read.val_main_v13_apply, e13]
  rfl

/-- The reference's first head. -/
theorem ref_v17_at :
    Cert.ReferenceIdeal.Read.val_main_v17 (F := Ideal) A0 A1 A2 A3 A4 (ix3 b n j)
      = Cert.ReferenceIdeal.Read.val_main_v7 (F := Ideal) A0 A1 A2 (ix3 b n j) * A3 (ix2 0 j) + A4 (ix2 0 j) := by
  have e17 : Cert.ReferenceIdeal.Read.idx_main_v17 (ix3 b n j) = ix4 b n (0 : Fin 1) j := funext fun a => Fin.ext (by
    match a with
    | ⟨0, _⟩ => show ((b.val * 2048 + n.val) * 128 + j.val) / 262144 = b.val; omega
    | ⟨1, _⟩ => show ((b.val * 2048 + n.val) * 128 + j.val) / 128 % 2048 = n.val; omega
    | ⟨2, _⟩ => rfl
    | ⟨3, _⟩ => show ((b.val * 2048 + n.val) * 128 + j.val) % 128 = j.val; omega)
  have e16 : Cert.ReferenceIdeal.Read.idx_main_v16 (ix4 b n (0 : Fin 1) j) = ix4 b n (0 : Fin 2) j := funext fun a => by
    match a with | ⟨0, _⟩ => rfl | ⟨1, _⟩ => rfl | ⟨2, _⟩ => rfl | ⟨3, _⟩ => rfl
  rw [Cert.ReferenceIdeal.Read.val_main_v17_apply, e17, Cert.ReferenceIdeal.Read.val_main_v16_apply, e16, ref_v15_at]

/-- The reference's second head. -/
theorem ref_v19_at :
    Cert.ReferenceIdeal.Read.val_main_v19 (F := Ideal) A0 A1 A2 A3 A4 (ix3 b n j)
      = Cert.ReferenceIdeal.Read.val_main_v7 (F := Ideal) A0 A1 A2 (ix3 b n j) * A3 (ix2 1 j) + A4 (ix2 1 j) := by
  have e19 : Cert.ReferenceIdeal.Read.idx_main_v19 (ix3 b n j) = ix4 b n (0 : Fin 1) j := funext fun a => Fin.ext (by
    match a with
    | ⟨0, _⟩ => show ((b.val * 2048 + n.val) * 128 + j.val) / 262144 = b.val; omega
    | ⟨1, _⟩ => show ((b.val * 2048 + n.val) * 128 + j.val) / 128 % 2048 = n.val; omega
    | ⟨2, _⟩ => rfl
    | ⟨3, _⟩ => show ((b.val * 2048 + n.val) * 128 + j.val) % 128 = j.val; omega)
  have e18 : Cert.ReferenceIdeal.Read.idx_main_v18 (ix4 b n (0 : Fin 1) j) = ix4 b n (1 : Fin 2) j := funext fun a => by
    match a with | ⟨0, _⟩ => rfl | ⟨1, _⟩ => rfl | ⟨2, _⟩ => rfl | ⟨3, _⟩ => rfl
  rw [Cert.ReferenceIdeal.Read.val_main_v19_apply, e19, Cert.ReferenceIdeal.Read.val_main_v18_apply, e18, ref_v15_at]
end

/-! ## The kernel's two heads -/

/-- Row r of a table, broadcast down the 256 rows. -/
theorem row0_at (x : FVec Ideal S2x128 .f32) (p : Fin 256) (j : Fin 128) :
    broadcastTo S256x128 (extractStridedSlice S1x128 ![0, 0] x slices_S2x128_o0_0_S1x128) broadcasts_S1x128_S256x128 (ix2 p j) = x (ix2 0 j) :=
  (broadcastTo_apply _ broadcasts_S1x128_S256x128 (ix2 p j) (ix2 0 j) (fun a => match a with
    | ⟨0, _⟩ => by show 0 = if (1 : Nat) = 1 then 0 else _; rw [if_pos rfl]
    | ⟨1, _⟩ => by show j.val = if (128 : Nat) = 1 then 0 else j.val; rw [if_neg (by decide)])).trans
  (extractStridedSlice_apply ![0, 0] x slices_S2x128_o0_0_S1x128 (ix2 0 j) (ix2 0 j) (fun a => match a with
    | ⟨0, _⟩ => by show 0 = 0 + 0; rfl
    | ⟨1, _⟩ => by show j.val = 0 + j.val; omega))

theorem row1_at (x : FVec Ideal S2x128 .f32) (p : Fin 256) (j : Fin 128) :
    broadcastTo S256x128 (extractStridedSlice S1x128 ![1, 0] x slices_S2x128_o1_0_S1x128) broadcasts_S1x128_S256x128 (ix2 p j) = x (ix2 1 j) :=
  (broadcastTo_apply _ broadcasts_S1x128_S256x128 (ix2 p j) (ix2 0 j) (fun a => match a with
    | ⟨0, _⟩ => by show 0 = if (1 : Nat) = 1 then 0 else _; rw [if_pos rfl]
    | ⟨1, _⟩ => by show j.val = if (128 : Nat) = 1 then 0 else j.val; rw [if_neg (by decide)])).trans
  (extractStridedSlice_apply ![1, 0] x slices_S2x128_o1_0_S1x128 (ix2 0 j) (ix2 1 j) (fun a => match a with
    | ⟨0, _⟩ => by show 1 = 1 + 0; rfl
    | ⟨1, _⟩ => by show j.val = 0 + j.val; omega))

section
variable (x0 : Vec Ideal S256x1024 .f32) (x1 : Vec Ideal S1024x4224 .bf16) (x2 : Vec Ideal S1x4224 .f32)
  (x3 x4 : Vec Ideal S2x128 .f32)
  (A0 : (⟨3, ![4, 2048, 1024]⟩ : Shape).Idx → EReal) (A1 : (⟨2, ![1024, 4224]⟩ : Shape).Idx → EReal)
  (A2 : (⟨1, ![4224]⟩ : Shape).Idx → EReal) (A3 A4 : (⟨2, ![2, 128]⟩ : Shape).Idx → EReal)
  (p : Fin 256) (b : Fin 4) (n : Fin 2048)
  (h0 : ∀ k : Fin 1024, x0 (ix2 p k) = A0 (ix3 b n k))
  (h1 : ∀ (k : Fin 1024) (q : Fin 4224), x1 (ix2 k q) = A1 (ix2 k q))
  (h2 : ∀ q : Fin 4224, x2 (ix2 0 q) = A2 (ix1 q))
  (h3 : ∀ (r : Fin 2) (j : Fin 128), x3 (ix2 r j) = A3 (ix2 r j))
  (h4 : ∀ (r : Fin 2) (j : Fin 128), x4 (ix2 r j) = A4 (ix2 r j))
include h0 h1 h2 h3 h4

/-- Window 5's payload is the reference's first head times the score scale. -/
theorem pay3_eq_ref (j : Fin 128) :
    k0_pay3 x0 x1 x2 x3 x4 (ix2 p j)
      = Cert.ReferenceIdeal.Read.val_main_v17 (F := Ideal) A0 A1 A2 A3 A4 (ix3 b n j) * Cert.Spec.qscale := by
  rw [ref_v17_at, ← pay2_eq_ref x0 x1 x2 A0 A1 A2 p b n h0 h1 h2 j, ← h3 0 j, ← h4 0 j]
  unfold k0_pay3
  rw [truncf_apply, mulf_apply, addf_apply, mulf_apply, row0_at, row0_at]
  rfl

/-- Window 6's payload is the reference's second head. -/
theorem pay4_eq_ref (j : Fin 128) :
    k0_pay4 x0 x1 x2 x3 x4 (ix2 p j)
      = Cert.ReferenceIdeal.Read.val_main_v19 (F := Ideal) A0 A1 A2 A3 A4 (ix3 b n j) := by
  rw [ref_v19_at, ← pay2_eq_ref x0 x1 x2 A0 A1 A2 p b n h0 h1 h2 j, ← h3 1 j, ← h4 1 j]
  unfold k0_pay4
  rw [truncf_apply, addf_apply, mulf_apply, row1_at, row1_at]
end

end Cert.KernelIdeal.Fr

end
-- ==== Proof.KI.Val0.lean ====
import proofs.«132598_j6073083756839_2_alg».proof.Proof.KI.Val0Heads
import proofs.«132598_j6073083756839_2_alg».proof.Proof.Gen.ReferenceIdeal.Read
import proofs.«132598_j6073083756839_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx

/-! # The first call's four result arrays as whole-array functions

Each grid point t reads rows 256 t … 256 t + 255 of the flattened input, the whole weight matrix, the bias and the two
affine tables, and writes one 256-row block of each result; the blocks tile the arrays, so each array ends as one
function of the arguments: the reference's stage of the same name, row r of the flattened array being row r mod 2048 of
batch r / 2048. -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 grid points: the row-tiled windows sit at block (t, 0), the whole-array windows
    at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row p of the input tile at point t is row 256 t + p of the flattened input: row n of batch b. -/
theorem blk0_at (c : Dev nD) (t : Fin cfg0.N) (p : Fin 256) (k : Fin 1024) (b : Fin 4) (n : Fin 2048)
    (hr : b.val * 2048 + n.val = 256 * t.val + p.val) :
    (iblk0 (E1 m ρ) c 0 t : Vec Ideal S256x1024 .f32) (ix2 p k)
      = (m ((c.tc : Thread nD τ).loc main_arg0) : S4x2048x1024.Idx → EReal) (ix3 b n k) := by
  obtain ⟨e0, e1, -⟩ := idx_facts0 t
  unfold iblk0
  rw [View.read_apply]
  show (E1 m ρ c main_v0 : S8192x1024.Idx → EReal) _ = _
  rw [entry_v0]
  refine shapeCast_apply _ _ _ (ix3 b n k) ?_
  rewrite [Shape.rowMajor_val_three, Shape.rowMajor_val_two]
  show (b.val * 2048 + n.val) * 1024 + k.val = (win0_0.index t (0 : Fin 2) * 256 + 1 * p.val) * 1024 + (win0_0.index t (1 : Fin 2) * 1024 + 1 * k.val)
  rw [e0, e1]; omega

/-- The weight block at every point is the whole weight matrix. -/
theorem blk1_at (c : Dev nD) (t : Fin cfg0.N) (k : Fin 1024) (q : Fin 4224) :
    (iblk0 (E1 m ρ) c 1 t : Vec Ideal S1024x4224 .bf16) (ix2 k q)
      = (m ((c.tc : Thread nD τ).loc main_arg1) : S1024x4224.Idx → EReal) (ix2 k q) := by
  obtain ⟨-, -, e0, e1, -⟩ := idx_facts0 t
  unfold iblk0
  rw [View.read_apply]
  show (E1 m ρ c main_v1 : S1024x4224.Idx → EReal) _ = _
  rw [entry_v1]
  refine congrArg _ (funext fun a => Fin.ext ?_)
  match a with
  | ⟨0, _⟩ => show win0_1.index t (0 : Fin 2) * 1024 + 1 * k.val = k.val; rw [e0]; omega
  | ⟨1, _⟩ => show win0_1.index t (1 : Fin 2) * 4224 + 1 * q.val = q.val; rw [e1]; omega

/-- The bias block at every point is the bias. -/
theorem blk2_at (c : Dev nD) (t : Fin cfg0.N) (q : Fin 4224) :
    (iblk0 (E1 m ρ) c 2 t : Vec Ideal S1x4224 .f32) (ix2 0 q)
      = (m ((c.tc : Thread nD τ).loc main_arg2) : S4224.Idx → EReal) (ix1 q) := by
  obtain ⟨-, -, -, -, e0, e1, -⟩ := idx_facts0 t
  unfold iblk0
  rw [View.read_apply]
  show (E1 m ρ c main_v2 : S1x4224.Idx → EReal) _ = _
  rw [entry_v2]
  refine shapeCast_apply _ _ _ (ix1 q) ?_
  rewrite [Shape.rowMajor_val_one, Shape.rowMajor_val_two]
  show q.val = (win0_2.index t (0 : Fin 2) * 1 + 1 * 0) * 4224 + (win0_2.index t (1 : Fin 2) * 4224 + 1 * q.val)
  rw [e0, e1]; omega

/-- The two affine-table blocks at every point are the tables. -/
theorem blk3_at (c : Dev nD) (t : Fin cfg0.N) (r : Fin 2) (j : Fin 128) :
    (iblk0 (E1 m ρ) c 3 t : Vec Ideal S2x128 .f32) (ix2 r j)
      = (m ((c.tc : Thread nD τ).loc main_arg3) : S2x128.Idx → EReal) (ix2 r j) := by
  obtain ⟨-, -, -, -, -, -, e0, e1, -⟩ := idx_facts0 t
  unfold iblk0
  rw [View.read_apply]
  show (E1 m ρ c main_arg3 : S2x128.Idx → EReal) _ = _
  rw [entry_arg3]
  refine congrArg _ (funext fun a => Fin.ext ?_)
  match a with
  | ⟨0, _⟩ => show win0_3.index t (0 : Fin 2) * 2 + 1 * r.val = r.val; rw [e0]; omega
  | ⟨1, _⟩ => show win0_3.index t (1 : Fin 2) * 128 + 1 * j.val = j.val; rw [e1]; omega

theorem blk4_at (c : Dev nD) (t : Fin cfg0.N) (r : Fin 2) (j : Fin 128) :
    (iblk0 (E1 m ρ) c 4 t : Vec Ideal S2x128 .f32) (ix2 r j)
      = (m ((c.tc : Thread nD τ).loc main_arg4) : S2x128.Idx → EReal) (ix2 r j) := by
  obtain ⟨-, -, -, -, -, -, -, -, e0, e1, -⟩ := idx_facts0 t
  unfold iblk0
  rw [View.read_apply]
  show (E1 m ρ c main_arg4 : S2x128.Idx → EReal) _ = _
  rw [entry_arg4]
  refine congrArg _ (funext fun a => Fin.ext ?_)
  match a with
  | ⟨0, _⟩ => show win0_4.index t (0 : Fin 2) * 2 + 1 * r.val = r.val; rw [e0]; omega
  | ⟨1, _⟩ => show win0_4.index t (1 : Fin 2) * 128 + 1 * j.val = j.val; rw [e1]; omega

/-! ## Window 7: columns 2048 … 4095 of the activated projection -/

/-- What window 7's array ends holding: the reference's second slice, row r of the flattened array being row
    r mod 2048 of batch r / 2048. -/
abbrev G7 (c : Dev nD) : S8192x2048.Idx → EReal := fun i =>
  Cert.ReferenceIdeal.Read.val_main_v6 (F := Ideal)
    (m ((c.tc : Thread nD τ).loc main_arg0)) (m ((c.tc : Thread nD τ).loc main_arg1)) (m ((c.tc : Thread nD τ).loc main_arg2))
    (ix3 ⟨(i 0).val / 2048, by have h : (i 0).val < 8192 := (i 0).isLt; omega⟩
      ⟨(i 0).val % 2048, by omega⟩ ⟨(i 1).val, (i 1).isLt⟩)

/-- Point t writes back block t of that array. -/
theorem flushed7_eq (c : Dev nD) (t : Fin cfg0.N) :
    (dat0 (E1 m ρ) c).flushed 7 t = ((cfg0.win 7).blk t).view.read (Elt Ideal) (G7 m c) := by
  show (cfg0.win 7).cut (grid0.coords t) ((dat0 (E1 m ρ) c).after 7 t) = _
  rw [after0_7]
  unfold out0_7
  rw [View.canon_unit_zero hz]
  simp only [View.ld_unit_zero (S := S256x1024) hz, View.ld_unit_zero (S := S1024x4224) hz, View.ld_unit_zero (S := S1x4224) hz]
  obtain ⟨-, -, -, -, -, -, -, -, -, -, -, -, -, -, e0, e1, -⟩ := idx_facts0 t
  have ht : t.val < 32 := lt_of_lt_of_eq t.isLt N_0
  funext j
  have hp : (j 0).val < 256 := (j 0).isLt
  have hq : (j 1).val < 2048 := (j 1).isLt
  show k0_pay5 (iblk0 (E1 m ρ) c 0 t) (iblk0 (E1 m ρ) c 1 t) (iblk0 (E1 m ρ) c 2 t) j = G7 m c (((cfg0.win 7).blk t).view.emb j)
  have ej : (j : S256x2048.Idx) = ix2 (⟨(j 0).val, hp⟩ : Fin 256) (⟨(j 1).val, hq⟩ : Fin 2048) := funext fun a => by
    match a with | ⟨0, _⟩ => rfl | ⟨1, _⟩ => rfl
  refine (congrArg (k0_pay5 (iblk0 (E1 m ρ) c 0 t) (iblk0 (E1 m ρ) c 1 t) (iblk0 (E1 m ρ) c 2 t)) ej).trans ?_
  refine (pay5_eq_ref (iblk0 (E1 m ρ) c 0 t) (iblk0 (E1 m ρ) c 1 t) (iblk0 (E1 m ρ) c 2 t)
    (m ((c.tc : Thread nD τ).loc main_arg0)) (m ((c.tc : Thread nD τ).loc main_arg1)) (m ((c.tc : Thread nD τ).loc main_arg2))
    (⟨(j 0).val, hp⟩ : Fin 256) (⟨(256 * t.val + (j 0).val) / 2048, by omega⟩ : Fin 4) (⟨(256 * t.val + (j 0).val) % 2048, by omega⟩ : Fin 2048)
    (fun k => blk0_at m ρ c t ⟨(j 0).val, hp⟩ k ⟨(256 * t.val + (j 0).val) / 2048, by omega⟩ ⟨(256 * t.val + (j 0).val) % 2048, by omega⟩
      (by show (256 * t.val + (j 0).val) / 2048 * 2048 + (256 * t.val + (j 0).val) % 2048 = 256 * t.val + (j 0).val; omega))
    (fun k q => blk1_at m ρ c t k q) (fun q => blk2_at m ρ c t q) (⟨(j 1).val, hq⟩ : Fin 2048)).trans ?_
  refine congrArg (Cert.ReferenceIdeal.Read.val_main_v6 (F := Ideal)
    (m ((c.tc : Thread nD τ).loc main_arg0)) (m ((c.tc : Thread nD τ).loc main_arg1)) (m ((c.tc : Thread nD τ).loc main_arg2)))
    (funext fun a => Fin.ext ?_)
  match a with
  | ⟨0, _⟩ => show (256 * t.val + (j 0).val) / 2048 = (win0_7.index t (0 : Fin 2) * 256 + 1 * (j 0).val) / 2048; rw [e0]; congr 1; omega
  | ⟨1, _⟩ => show (256 * t.val + (j 0).val) % 2048 = (win0_7.index t (0 : Fin 2) * 256 + 1 * (j 0).val) % 2048; rw [e0]; congr 1; omega
  | ⟨2, _⟩ => show (j 1).val = win0_7.index t (1 : Fin 2) * 2048 + 1 * (j 1).val; rw [e1]; omega

/-- An index of the array is in point t's block iff each coordinate is in the block's range on its axis. -/
theorem mem_blk7 (t : Fin cfg0.N) (i : S8192x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v3_2).slice (win0_7.rect t)).set ↔ _
  rw [View.set_slice_whole, Rect.mem_set_unit]
  exact Iff.rfl

/-- Row r of the array is in the block of point r / 256. -/
theorem cover7 (i : S8192x2048.Idx) : ∃ t : Fin cfg0.N, (cfg0.win 7).flush t = true ∧ i ∈ ((cfg0.win 7).blk t).view.set := by
  have h0 : (i 0).val < 8192 := (i 0).isLt
  have h1 : (i 1).val < 2048 := (i 1).isLt
  have hN : (i 0).val / 256 < cfg0.N := lt_of_lt_of_eq (show (i 0).val / 256 < 32 by omega) N_0.symm
  refine ⟨⟨(i 0).val / 256, hN⟩, flush0_7 _, ?_⟩
  obtain ⟨-, -, -, -, -, -, -, -, -, -, -, -, -, -, e0, e1, -⟩ := idx_facts0 ⟨(i 0).val / 256, hN⟩
  rw [mem_blk7]
  intro a
  match a with
  | ⟨0, _⟩ => show win0_7.index ⟨(i 0).val / 256, hN⟩ (0 : Fin 2) * 256 ≤ (i 0).val ∧ (i 0).val < win0_7.index ⟨(i 0).val / 256, hN⟩ (0 : Fin 2) * 256 + 256; rw [e0]; show (i 0).val / 256 * 256 ≤ (i 0).val ∧ (i 0).val < (i 0).val / 256 * 256 + 256; omega
  | ⟨1, _⟩ => show win0_7.index ⟨(i 0).val / 256, hN⟩ (1 : Fin 2) * 2048 ≤ (i 1).val ∧ (i 1).val < win0_7.index ⟨(i 0).val / 256, hN⟩ (1 : Fin 2) * 2048 + 2048; rw [e1]; omega

/-- Window 7's array after the call: the reference's second slice (the kernel stores it through window 7). -/
theorem final0_7 (c : Dev nD) : (dat0 (F := Ideal) (E1 m ρ) c).arrAt 7 cfg0.N = fun i =>
    Cert.ReferenceIdeal.Read.val_main_v6 (F := Ideal)
      (m ((c.tc : Thread nD τ).loc main_arg0)) (m ((c.tc : Thread nD τ).loc main_arg1)) (m ((c.tc : Thread nD τ).loc main_arg2))
      (ix3 ⟨(i 0).val / 2048, by have h : (i 0).val < 8192 := (i 0).isLt; omega⟩
        ⟨(i 0).val % 2048, by omega⟩ ⟨(i 1).val, (i 1).isLt⟩) :=
  (dat0 (E1 m ρ) c).arrAt_eq_of_cover 7 (G7 m c) (fun t _ => flushed7_eq m ρ c t) cover7

/-! ## Window 8: columns 0 … 2047 of the activated projection -/

/-- What window 8's array ends holding: the reference's first slice. -/
abbrev G8 (c : Dev nD) : S8192x2048.Idx → EReal := fun i =>
  Cert.ReferenceIdeal.Read.val_main_v5 (F := Ideal)
    (m ((c.tc : Thread nD τ).loc main_arg0)) (m ((c.tc : Thread nD τ).loc main_arg1)) (m ((c.tc : Thread nD τ).loc main_arg2))
    (ix3 ⟨(i 0).val / 2048, by have h : (i 0).val < 8192 := (i 0).isLt; omega⟩
      ⟨(i 0).val % 2048, by omega⟩ ⟨(i 1).val, (i 1).isLt⟩)

/-- Point t writes back block t of that array. -/
theorem flushed8_eq (c : Dev nD) (t : Fin cfg0.N) :
    (dat0 (E1 m ρ) c).flushed 8 t = ((cfg0.win 8).blk t).view.read (Elt Ideal) (G8 m c) := by
  show (cfg0.win 8).cut (grid0.coords t) ((dat0 (E1 m ρ) c).after 8 t) = _
  rw [after0_8]
  unfold out0_8
  rw [View.canon_unit_zero hz]
  simp only [View.ld_unit_zero (S := S256x1024) hz, View.ld_unit_zero (S := S1024x4224) hz, View.ld_unit_zero (S := S1x4224) hz]
  obtain ⟨-, -, -, -, -, -, -, -, -, -, -, -, -, -, -, -, e0, e1⟩ := idx_facts0 t
  have ht : t.val < 32 := lt_of_lt_of_eq t.isLt N_0
  funext j
  have hp : (j 0).val < 256 := (j 0).isLt
  have hq : (j 1).val < 2048 := (j 1).isLt
  show k0_pay6 (iblk0 (E1 m ρ) c 0 t) (iblk0 (E1 m ρ) c 1 t) (iblk0 (E1 m ρ) c 2 t) j = G8 m c (((cfg0.win 8).blk t).view.emb j)
  have ej : (j : S256x2048.Idx) = ix2 (⟨(j 0).val, hp⟩ : Fin 256) (⟨(j 1).val, hq⟩ : Fin 2048) := funext fun a => by
    match a with | ⟨0, _⟩ => rfl | ⟨1, _⟩ => rfl
  refine (congrArg (k0_pay6 (iblk0 (E1 m ρ) c 0 t) (iblk0 (E1 m ρ) c 1 t) (iblk0 (E1 m ρ) c 2 t)) ej).trans ?_
  refine (pay6_eq_ref (iblk0 (E1 m ρ) c 0 t) (iblk0 (E1 m ρ) c 1 t) (iblk0 (E1 m ρ) c 2 t)
    (m ((c.tc : Thread nD τ).loc main_arg0)) (m ((c.tc : Thread nD τ).loc main_arg1)) (m ((c.tc : Thread nD τ).loc main_arg2))
    (⟨(j 0).val, hp⟩ : Fin 256) (⟨(256 * t.val + (j 0).val) / 2048, by omega⟩ : Fin 4) (⟨(256 * t.val + (j 0).val) % 2048, by omega⟩ : Fin 2048)
    (fun k => blk0_at m ρ c t ⟨(j 0).val, hp⟩ k ⟨(256 * t.val + (j 0).val) / 2048, by omega⟩ ⟨(256 * t.val + (j 0).val) % 2048, by omega⟩
      (by show (256 * t.val + (j 0).val) / 2048 * 2048 + (256 * t.val + (j 0).val) % 2048 = 256 * t.val + (j 0).val; omega))
    (fun k q => blk1_at m ρ c t k q) (fun q => blk2_at m ρ c t q) (⟨(j 1).val, hq⟩ : Fin 2048)).trans ?_
  refine congrArg (Cert.ReferenceIdeal.Read.val_main_v5 (F := Ideal)
    (m ((c.tc : Thread nD τ).loc main_arg0)) (m ((c.tc : Thread nD τ).loc main_arg1)) (m ((c.tc : Thread nD τ).loc main_arg2)))
    (funext fun a => Fin.ext ?_)
  match a with
  | ⟨0, _⟩ => show (256 * t.val + (j 0).val) / 2048 = (win0_8.index t (0 : Fin 2) * 256 + 1 * (j 0).val) / 2048; rw [e0]; congr 1; omega
  | ⟨1, _⟩ => show (256 * t.val + (j 0).val) % 2048 = (win0_8.index t (0 : Fin 2) * 256 + 1 * (j 0).val) % 2048; rw [e0]; congr 1; omega
  | ⟨2, _⟩ => show (j 1).val = win0_8.index t (1 : Fin 2) * 2048 + 1 * (j 1).val; rw [e1]; omega

/-- An index of the array is in point t's block iff each coordinate is in the block's range on its axis. -/
theorem mem_blk8 (t : Fin cfg0.N) (i : S8192x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v3_3).slice (win0_8.rect t)).set ↔ _
  rw [View.set_slice_whole, Rect.mem_set_unit]
  exact Iff.rfl

/-- Row r of the array is in the block of point r / 256. -/
theorem cover8 (i : S8192x2048.Idx) : ∃ t : Fin cfg0.N, (cfg0.win 8).flush t = true ∧ i ∈ ((cfg0.win 8).blk t).view.set := by
  have h0 : (i 0).val < 8192 := (i 0).isLt
  have h1 : (i 1).val < 2048 := (i 1).isLt
  have hN : (i 0).val / 256 < cfg0.N := lt_of_lt_of_eq (show (i 0).val / 256 < 32 by omega) N_0.symm
  refine ⟨⟨(i 0).val / 256, hN⟩, flush0_8 _, ?_⟩
  obtain ⟨-, -, -, -, -, -, -, -, -, -, -, -, -, -, -, -, e0, e1⟩ := idx_facts0 ⟨(i 0).val / 256, hN⟩
  rw [mem_blk8]
  intro a
  match a with
  | ⟨0, _⟩ => show win0_8.index ⟨(i 0).val / 256, hN⟩ (0 : Fin 2) * 256 ≤ (i 0).val ∧ (i 0).val < win0_8.index ⟨(i 0).val / 256, hN⟩ (0 : Fin 2) * 256 + 256; rw [e0]; show (i 0).val / 256 * 256 ≤ (i 0).val ∧ (i 0).val < (i 0).val / 256 * 256 + 256; omega
  | ⟨1, _⟩ => show win0_8.index ⟨(i 0).val / 256, hN⟩ (1 : Fin 2) * 2048 ≤ (i 1).val ∧ (i 1).val < win0_8.index ⟨(i 0).val / 256, hN⟩ (1 : Fin 2) * 2048 + 2048; rw [e1]; omega

/-- Window 8's array after the call: the reference's first slice (the kernel stores it through window 8). -/
theorem final0_8 (c : Dev nD) : (dat0 (F := Ideal) (E1 m ρ) c).arrAt 8 cfg0.N = fun i =>
    Cert.ReferenceIdeal.Read.val_main_v5 (F := Ideal)
      (m ((c.tc : Thread nD τ).loc main_arg0)) (m ((c.tc : Thread nD τ).loc main_arg1)) (m ((c.tc : Thread nD τ).loc main_arg2))
      (ix3 ⟨(i 0).val / 2048, by have h : (i 0).val < 8192 := (i 0).isLt; omega⟩
        ⟨(i 0).val % 2048, by omega⟩ ⟨(i 1).val, (i 1).isLt⟩) :=
  (dat0 (E1 m ρ) c).arrAt_eq_of_cover 8 (G8 m c) (fun t _ => flushed8_eq m ρ c t) cover8

/-! ## Window 6: the second affine head of the base columns -/

/-- What window 6's array ends holding: the reference's second head. -/
abbrev G6 (c : Dev nD) : S8192x128.Idx → EReal := fun i =>
  Cert.ReferenceIdeal.Read.val_main_v19 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
    (ix3 ⟨(i 0).val / 2048, by have h : (i 0).val < 8192 := (i 0).isLt; omega⟩
      ⟨(i 0).val % 2048, by omega⟩ ⟨(i 1).val, (i 1).isLt⟩)

/-- Point t writes back block t of that array. -/
theorem flushed6_eq (c : Dev nD) (t : Fin cfg0.N) :
    (dat0 (E1 m ρ) c).flushed 6 t = ((cfg0.win 6).blk t).view.read (Elt Ideal) (G6 m c) := by
  show (cfg0.win 6).cut (grid0.coords t) ((dat0 (E1 m ρ) c).after 6 t) = _
  rw [after0_6]
  unfold out0_6
  rw [View.canon_unit_zero hz]
  simp only [View.ld_unit_zero (S := S256x1024) hz, View.ld_unit_zero (S := S1024x4224) hz, View.ld_unit_zero (S := S1x4224) hz, View.ld_unit_zero (S := S2x128) hz]
  obtain ⟨-, -, -, -, -, -, -, -, -, -, -, -, e0, e1, -⟩ := idx_facts0 t
  have ht : t.val < 32 := lt_of_lt_of_eq t.isLt N_0
  funext j
  have hp : (j 0).val < 256 := (j 0).isLt
  have hq : (j 1).val < 128 := (j 1).isLt
  show k0_pay4 (iblk0 (E1 m ρ) c 0 t) (iblk0 (E1 m ρ) c 1 t) (iblk0 (E1 m ρ) c 2 t) (iblk0 (E1 m ρ) c 3 t) (iblk0 (E1 m ρ) c 4 t) j = G6 m c (((cfg0.win 6).blk t).view.emb j)
  have ej : (j : S256x128.Idx) = ix2 (⟨(j 0).val, hp⟩ : Fin 256) (⟨(j 1).val, hq⟩ : Fin 128) := funext fun a => by
    match a with | ⟨0, _⟩ => rfl | ⟨1, _⟩ => rfl
  refine (congrArg (k0_pay4 (iblk0 (E1 m ρ) c 0 t) (iblk0 (E1 m ρ) c 1 t) (iblk0 (E1 m ρ) c 2 t) (iblk0 (E1 m ρ) c 3 t) (iblk0 (E1 m ρ) c 4 t)) ej).trans ?_
  refine (pay4_eq_ref (iblk0 (E1 m ρ) c 0 t) (iblk0 (E1 m ρ) c 1 t) (iblk0 (E1 m ρ) c 2 t) (iblk0 (E1 m ρ) c 3 t) (iblk0 (E1 m ρ) c 4 t)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
    (⟨(j 0).val, hp⟩ : Fin 256) (⟨(256 * t.val + (j 0).val) / 2048, by omega⟩ : Fin 4) (⟨(256 * t.val + (j 0).val) % 2048, by omega⟩ : Fin 2048)
    (fun k => blk0_at m ρ c t ⟨(j 0).val, hp⟩ k ⟨(256 * t.val + (j 0).val) / 2048, by omega⟩ ⟨(256 * t.val + (j 0).val) % 2048, by omega⟩
      (by show (256 * t.val + (j 0).val) / 2048 * 2048 + (256 * t.val + (j 0).val) % 2048 = 256 * t.val + (j 0).val; omega))
    (fun k q => blk1_at m ρ c t k q) (fun q => blk2_at m ρ c t q) (fun r j' => blk3_at m ρ c t r j') (fun r j' => blk4_at m ρ c t r j')
    (⟨(j 1).val, hq⟩ : Fin 128)).trans ?_
  refine congrArg (Cert.ReferenceIdeal.Read.val_main_v19 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)))
    (funext fun a => Fin.ext ?_)
  match a with
  | ⟨0, _⟩ => show (256 * t.val + (j 0).val) / 2048 = (win0_6.index t (0 : Fin 2) * 256 + 1 * (j 0).val) / 2048; rw [e0]; congr 1; omega
  | ⟨1, _⟩ => show (256 * t.val + (j 0).val) % 2048 = (win0_6.index t (0 : Fin 2) * 256 + 1 * (j 0).val) % 2048; rw [e0]; congr 1; omega
  | ⟨2, _⟩ => show (j 1).val = win0_6.index t (1 : Fin 2) * 128 + 1 * (j 1).val; rw [e1]; omega

/-- An index of the array is in point t's block iff each coordinate is in the block's range on its axis. -/
theorem mem_blk6 (t : Fin cfg0.N) (i : S8192x128.Idx) :
    i ∈ ((cfg0.win 6).blk t).view.set ↔ ∀ a : Fin 2, win0_6.index t a * S256x128.size a ≤ (i a).val ∧ (i a).val < win0_6.index t a * S256x128.size a + S256x128.size a := by
  show i ∈ ((View.whole main_v3_1).slice (win0_6.rect t)).set ↔ _
  rw [View.set_slice_whole, Rect.mem_set_unit]
  exact Iff.rfl

/-- Row r of the array is in the block of point r / 256. -/
theorem cover6 (i : S8192x128.Idx) : ∃ t : Fin cfg0.N, (cfg0.win 6).flush t = true ∧ i ∈ ((cfg0.win 6).blk t).view.set := by
  have h0 : (i 0).val < 8192 := (i 0).isLt
  have h1 : (i 1).val < 128 := (i 1).isLt
  have hN : (i 0).val / 256 < cfg0.N := lt_of_lt_of_eq (show (i 0).val / 256 < 32 by omega) N_0.symm
  refine ⟨⟨(i 0).val / 256, hN⟩, flush0_6 _, ?_⟩
  obtain ⟨-, -, -, -, -, -, -, -, -, -, -, -, e0, e1, -⟩ := idx_facts0 ⟨(i 0).val / 256, hN⟩
  rw [mem_blk6]
  intro a
  match a with
  | ⟨0, _⟩ => show win0_6.index ⟨(i 0).val / 256, hN⟩ (0 : Fin 2) * 256 ≤ (i 0).val ∧ (i 0).val < win0_6.index ⟨(i 0).val / 256, hN⟩ (0 : Fin 2) * 256 + 256; rw [e0]; show (i 0).val / 256 * 256 ≤ (i 0).val ∧ (i 0).val < (i 0).val / 256 * 256 + 256; omega
  | ⟨1, _⟩ => show win0_6.index ⟨(i 0).val / 256, hN⟩ (1 : Fin 2) * 128 ≤ (i 1).val ∧ (i 1).val < win0_6.index ⟨(i 0).val / 256, hN⟩ (1 : Fin 2) * 128 + 128; rw [e1]; omega

/-- Window 6's array after the call: the reference's second head. -/
theorem final0_6 (c : Dev nD) : (dat0 (F := Ideal) (E1 m ρ) c).arrAt 6 cfg0.N = fun i =>
    Cert.ReferenceIdeal.Read.val_main_v19 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))
      (ix3 ⟨(i 0).val / 2048, by have h : (i 0).val < 8192 := (i 0).isLt; omega⟩
        ⟨(i 0).val % 2048, by omega⟩ ⟨(i 1).val, (i 1).isLt⟩) :=
  (dat0 (E1 m ρ) c).arrAt_eq_of_cover 6 (G6 m c) (fun t _ => flushed6_eq m ρ c t) cover6

/-! ## Window 5: the first affine head of the base columns, times the score scale -/

/-- What window 5's array ends holding: the reference's first head times the score scale. -/
abbrev G5 (c : Dev nD) : S8192x128.Idx → EReal := fun i =>
  Cert.ReferenceIdeal.Read.val_main_v17 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
    (ix3 ⟨(i 0).val / 2048, by have h : (i 0).val < 8192 := (i 0).isLt; omega⟩
      ⟨(i 0).val % 2048, by omega⟩ ⟨(i 1).val, (i 1).isLt⟩) * Cert.Spec.qscale

/-- Point t writes back block t of that array. -/
theorem flushed5_eq (c : Dev nD) (t : Fin cfg0.N) :
    (dat0 (E1 m ρ) c).flushed 5 t = ((cfg0.win 5).blk t).view.read (Elt Ideal) (G5 m c) := by
  show (cfg0.win 5).cut (grid0.coords t) ((dat0 (E1 m ρ) c).after 5 t) = _
  rw [after0_5]
  unfold out0_5
  rw [View.canon_unit_zero hz]
  simp only [View.ld_unit_zero (S := S256x1024) hz, View.ld_unit_zero (S := S1024x4224) hz, View.ld_unit_zero (S := S1x4224) hz, View.ld_unit_zero (S := S2x128) hz]
  obtain ⟨-, -, -, -, -, -, -, -, -, -, e0, e1, -⟩ := idx_facts0 t
  have ht : t.val < 32 := lt_of_lt_of_eq t.isLt N_0
  funext j
  have hp : (j 0).val < 256 := (j 0).isLt
  have hq : (j 1).val < 128 := (j 1).isLt
  show k0_pay3 (iblk0 (E1 m ρ) c 0 t) (iblk0 (E1 m ρ) c 1 t) (iblk0 (E1 m ρ) c 2 t) (iblk0 (E1 m ρ) c 3 t) (iblk0 (E1 m ρ) c 4 t) j = G5 m c (((cfg0.win 5).blk t).view.emb j)
  have ej : (j : S256x128.Idx) = ix2 (⟨(j 0).val, hp⟩ : Fin 256) (⟨(j 1).val, hq⟩ : Fin 128) := funext fun a => by
    match a with | ⟨0, _⟩ => rfl | ⟨1, _⟩ => rfl
  refine (congrArg (k0_pay3 (iblk0 (E1 m ρ) c 0 t) (iblk0 (E1 m ρ) c 1 t) (iblk0 (E1 m ρ) c 2 t) (iblk0 (E1 m ρ) c 3 t) (iblk0 (E1 m ρ) c 4 t)) ej).trans ?_
  refine (pay3_eq_ref (iblk0 (E1 m ρ) c 0 t) (iblk0 (E1 m ρ) c 1 t) (iblk0 (E1 m ρ) c 2 t) (iblk0 (E1 m ρ) c 3 t) (iblk0 (E1 m ρ) c 4 t)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
    (⟨(j 0).val, hp⟩ : Fin 256) (⟨(256 * t.val + (j 0).val) / 2048, by omega⟩ : Fin 4) (⟨(256 * t.val + (j 0).val) % 2048, by omega⟩ : Fin 2048)
    (fun k => blk0_at m ρ c t ⟨(j 0).val, hp⟩ k ⟨(256 * t.val + (j 0).val) / 2048, by omega⟩ ⟨(256 * t.val + (j 0).val) % 2048, by omega⟩
      (by show (256 * t.val + (j 0).val) / 2048 * 2048 + (256 * t.val + (j 0).val) % 2048 = 256 * t.val + (j 0).val; omega))
    (fun k q => blk1_at m ρ c t k q) (fun q => blk2_at m ρ c t q) (fun r j' => blk3_at m ρ c t r j') (fun r j' => blk4_at m ρ c t r j')
    (⟨(j 1).val, hq⟩ : Fin 128)).trans ?_
  refine congrArg (fun I => Cert.ReferenceIdeal.Read.val_main_v17 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) I * Cert.Spec.qscale)
    (funext fun a => Fin.ext ?_)
  match a with
  | ⟨0, _⟩ => show (256 * t.val + (j 0).val) / 2048 = (win0_5.index t (0 : Fin 2) * 256 + 1 * (j 0).val) / 2048; rw [e0]; congr 1; omega
  | ⟨1, _⟩ => show (256 * t.val + (j 0).val) % 2048 = (win0_5.index t (0 : Fin 2) * 256 + 1 * (j 0).val) % 2048; rw [e0]; congr 1; omega
  | ⟨2, _⟩ => show (j 1).val = win0_5.index t (1 : Fin 2) * 128 + 1 * (j 1).val; rw [e1]; omega

/-- An index of the array is in point t's block iff each coordinate is in the block's range on its axis. -/
theorem mem_blk5 (t : Fin cfg0.N) (i : S8192x128.Idx) :
    i ∈ ((cfg0.win 5).blk t).view.set ↔ ∀ a : Fin 2, win0_5.index t a * S256x128.size a ≤ (i a).val ∧ (i a).val < win0_5.index t a * S256x128.size a + S256x128.size a := by
  show i ∈ ((View.whole main_v3_0).slice (win0_5.rect t)).set ↔ _
  rw [View.set_slice_whole, Rect.mem_set_unit]
  exact Iff.rfl

/-- Row r of the array is in the block of point r / 256. -/
theorem cover5 (i : S8192x128.Idx) : ∃ t : Fin cfg0.N, (cfg0.win 5).flush t = true ∧ i ∈ ((cfg0.win 5).blk t).view.set := by
  have h0 : (i 0).val < 8192 := (i 0).isLt
  have h1 : (i 1).val < 128 := (i 1).isLt
  have hN : (i 0).val / 256 < cfg0.N := lt_of_lt_of_eq (show (i 0).val / 256 < 32 by omega) N_0.symm
  refine ⟨⟨(i 0).val / 256, hN⟩, flush0_5 _, ?_⟩
  obtain ⟨-, -, -, -, -, -, -, -, -, -, e0, e1, -⟩ := idx_facts0 ⟨(i 0).val / 256, hN⟩
  rw [mem_blk5]
  intro a
  match a with
  | ⟨0, _⟩ => show win0_5.index ⟨(i 0).val / 256, hN⟩ (0 : Fin 2) * 256 ≤ (i 0).val ∧ (i 0).val < win0_5.index ⟨(i 0).val / 256, hN⟩ (0 : Fin 2) * 256 + 256; rw [e0]; show (i 0).val / 256 * 256 ≤ (i 0).val ∧ (i 0).val < (i 0).val / 256 * 256 + 256; omega
  | ⟨1, _⟩ => show win0_5.index ⟨(i 0).val / 256, hN⟩ (1 : Fin 2) * 128 ≤ (i 1).val ∧ (i 1).val < win0_5.index ⟨(i 0).val / 256, hN⟩ (1 : Fin 2) * 128 + 128; rw [e1]; omega

/-- Window 5's array after the call: the reference's first head times the score scale. -/
theorem final0_5 (c : Dev nD) : (dat0 (F := Ideal) (E1 m ρ) c).arrAt 5 cfg0.N = fun i =>
    Cert.ReferenceIdeal.Read.val_main_v17 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))
      (ix3 ⟨(i 0).val / 2048, by have h : (i 0).val < 8192 := (i 0).isLt; omega⟩
        ⟨(i 0).val % 2048, by omega⟩ ⟨(i 1).val, (i 1).isLt⟩) * Cert.Spec.qscale :=
  (dat0 (E1 m ρ) c).arrAt_eq_of_cover 5 (G5 m c) (fun t _ => flushed5_eq m ρ c t) cover5

end Cert.KernelIdeal.Fr

end
-- ==== Proof.KI.Bridge.lean ====
import proofs.«132598_j6073083756839_2_alg».proof.Proof.KI.Val1b
import proofs.«132598_j6073083756839_2_alg».proof.Proof.KI.Entry
import proofs.«132598_j6073083756839_2_alg».proof.Proof.Algebra
import proofs.«132598_j6073083756839_2_alg».proof.Proof.KI.Val0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! # The kernel's result is the reference's result stage -/

variable (m : (ℓ : Loc nD τ sig) → Buf (Elt Ideal) ℓ) (ρ : Dev nD → PrngReg) (c : Dev nD)

/-- Flattened row `2048·b + n` splits back into batch `b`, row `n`. -/
theorem ix3_flat {C : Nat} (b : Fin 4) (n : Fin 2048) (j : Fin C) (h1 : (2048 * b.val + n.val) / 2048 < 4)
    (h2 : (2048 * b.val + n.val) % 2048 < 2048) (h3 : j.val < C) :
    (ix3 (⟨(2048 * b.val + n.val) / 2048, h1⟩ : Fin 4) (⟨(2048 * b.val + n.val) % 2048, h2⟩ : Fin 2048) (⟨j.val, h3⟩ : Fin C)) = ix3 b n j := by
  have hb := b.isLt
  have hn := n.isLt
  funext a
  match a with
  | ⟨0, _⟩ => exact Fin.ext (by show (2048 * b.val + n.val) / 2048 = b.val; omega)
  | ⟨1, _⟩ => exact Fin.ext (by show (2048 * b.val + n.val) % 2048 = n.val; omega)
  | ⟨2, _⟩ => rfl

/-- THE KERNEL'S RESULT: the second call's output array after its last write-back is the reference's result stage of the
    argument arrays. The first call leaves the scaled queries, the keys, the values and the gates (as flattened rows);
    the host reshapes them; the second call computes the blocked attention formula of them; and that formula of those
    arrays is the reference's (the scale moved out of the product sum, the four key blocks joined into one sum). -/
theorem kernel_value : (dat1 (F := Ideal) (E3 m ρ) c).arrAt 6 cfg1.N
    = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have hQ : Qa (E3 m ρ) c = fun i => Cert.ReferenceIdeal.Read.val_main_v17 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i * Cert.Spec.qscale := by
    funext i
    obtain ⟨b, n, j, rfl⟩ : ∃ (b : Fin 4) (n : Fin 2048) (j : Fin 128), i = ix3 b n j := ⟨i 0, i 1, i 2, eq_ix3 i⟩
    show (E3 m ρ c main_v4 : S4x2048x128.Idx → EReal) (ix3 b n j) = _
    rw [E3_main_v4_apply, final0_5]
    exact congrArg (fun x => Cert.ReferenceIdeal.Read.val_main_v17 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) x * Cert.Spec.qscale) (ix3_flat b n j _ _ _)
  have hK : Ka (E3 m ρ) c = Cert.ReferenceIdeal.Read.val_main_v19 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
    funext i
    obtain ⟨b, n, j, rfl⟩ : ∃ (b : Fin 4) (n : Fin 2048) (j : Fin 128), i = ix3 b n j := ⟨i 0, i 1, i 2, eq_ix3 i⟩
    show (E3 m ρ c main_v5 : S4x2048x128.Idx → EReal) (ix3 b n j) = _
    rw [E3_main_v5_apply, final0_6]
    exact congrArg (fun x => Cert.ReferenceIdeal.Read.val_main_v19 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) x) (ix3_flat b n j _ _ _)
  have hV : Va (E3 m ρ) c = Cert.ReferenceIdeal.Read.val_main_v6 (F := Ideal) (m ((c.tc : Thread nD τ).loc main_arg0)) (m ((c.tc : Thread nD τ).loc main_arg1)) (m ((c.tc : Thread nD τ).loc main_arg2)) := by
    funext i
    obtain ⟨b, n, j, rfl⟩ : ∃ (b : Fin 4) (n : Fin 2048) (j : Fin 2048), i = ix3 b n j := ⟨i 0, i 1, i 2, eq_ix3 i⟩
    show (E3 m ρ c main_v6 : S4x2048x2048.Idx → EReal) (ix3 b n j) = _
    rw [E3_main_v6_apply, final0_7]
    exact congrArg (fun x => Cert.ReferenceIdeal.Read.val_main_v6 (F := Ideal) (m ((c.tc : Thread nD τ).loc main_arg0)) (m ((c.tc : Thread nD τ).loc main_arg1)) (m ((c.tc : Thread nD τ).loc main_arg2)) x) (ix3_flat b n j _ _ _)
  have hU : Ua (E3 m ρ) c = Cert.ReferenceIdeal.Read.val_main_v5 (F := Ideal) (m ((c.tc : Thread nD τ).loc main_arg0)) (m ((c.tc : Thread nD τ).loc main_arg1)) (m ((c.tc : Thread nD τ).loc main_arg2)) := by
    funext i
    obtain ⟨b, n, j, rfl⟩ : ∃ (b : Fin 4) (n : Fin 2048) (j : Fin 2048), i = ix3 b n j := ⟨i 0, i 1, i 2, eq_ix3 i⟩
    show (E3 m ρ c main_v7 : S4x2048x2048.Idx → EReal) (ix3 b n j) = _
    rw [E3_main_v7_apply, final0_8]
    exact congrArg (fun x => Cert.ReferenceIdeal.Read.val_main_v5 (F := Ideal) (m ((c.tc : Thread nD τ).loc main_arg0)) (m ((c.tc : Thread nD τ).loc main_arg1)) (m ((c.tc : Thread nD τ).loc main_arg2)) x) (ix3_flat b n j _ _ _)
  have hW : Wa (E3 m ρ) c = (m ((c.tc : Thread nD τ).loc main_arg5)) := E3_main_v8 m ρ c
  have hB : Ba (E3 m ρ) c = fun i => ((m ((c.tc : Thread nD τ).loc main_arg6)) : S1024.Idx → EReal) (ix1 (i 1)) := by
    funext i
    obtain ⟨h, rfl⟩ : ∃ h : Fin 1024, i = ix2 0 h := ⟨i 1, funext fun a => by
      match a with
      | ⟨0, _⟩ => exact Fin.ext (Nat.lt_one_iff.mp (i 0).isLt)
      | ⟨1, _⟩ => rfl⟩
    exact E3_main_v9_apply m ρ c h
  rw [final1 (E3 m ρ) c, hQ, hK, hV, hU, hW, hB]
  exact Cert.Bridge.outK_eq_ref _ _ _ _ _ _ _

end Cert.KernelIdeal.Fr

end
-- ==== Proof.RefFrame.lean ====
import proofs.«132598_j6073083756839_2_alg».proof.Defs
import proofs.«132598_j6073083756839_2_alg».proof.Proof.Gen.ReferenceIdeal
import proofs.«132598_j6073083756839_2_alg».proof.Proof.Gen.Pre_finite_inputs
import proofs.«132598_j6073083756839_2_alg».proof.Proof.Gen.ReferenceIdeal.Read

noncomputable section

open Idealize.ShloMosaic Idealize.ShloMosaic.TcCoe Idealize.SL.Sem

namespace Cert.Proof.RefClaims

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.lean ====
/- The proof of `Cert.Claim`: the three frames, the (empty) idealization ledger, and the algebraic claim.

   The kernel is two calls. The first projects the flattened input, applies the gate activation and the two affine heads,
   and leaves four arrays: the queries ALREADY multiplied by the score scale 2⁻¹¹, the keys, the values and the gates.
   The second, over a (batch, query tile, key tile) grid, keeps an accumulator across the four key tiles of a group — zeroed
   at the first, gaining at each tile the squared positive scores times the tile's value rows, read at the last by the
   epilogue that gates it, multiplies by the output matrix and adds the bias.
   Frames: each call's body is run once per control case and the launch composes host stretches and calls in order; the
   word-level program and its idealization are one text, so their frames are one proof read at two instances; the
   reference has no kernel and its frame is its run.
   Value, on the extended reals: the first call's arrays are the reference's own stages (the query stage times the scale);
   the second call's output array is the blocked attention formula of the arrays it is entered with (an induction on the
   grid point for the accumulator); and that formula of those stages is the reference's result — the positive finite scale
   comes out of the product sum (so the pre-scaled score is the reference's quotient by 2048), and the four blocks of 512
   key rows added onto the zero word are the one sum over 2048. Neither law needs finiteness, so the precondition is never
   opened. -/
import proofs.«132598_j6073083756839_2_alg».proof.Defs
import proofs.«132598_j6073083756839_2_alg».proof.Proof.Gen.Kernel
import proofs.«132598_j6073083756839_2_alg».proof.Proof.Gen.KernelIdeal
import proofs.«132598_j6073083756839_2_alg».proof.Proof.Gen.ReferenceIdeal
import proofs.«132598_j6073083756839_2_alg».proof.Proof.Gen.Pre_finite_inputs
import proofs.«132598_j6073083756839_2_alg».proof.Proof.K.Run
import proofs.«132598_j6073083756839_2_alg».proof.Proof.KI.Bridge
import proofs.«132598_j6073083756839_2_alg».proof.Proof.RefFrame
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ

/-- The ideal pass rewrote nothing. -/
theorem preserves : Cert.preserves_Kernel_KernelIdeal := trivial

/-- Both programs end with the result at the reference's result stage of the (agreeing) argument arrays. -/
theorem algebraic : Cert.algebraic_KernelIdeal_ReferenceIdeal := by
  intro m ρ m' ρ' _ hagree
  refine ⟨fun c => Cert.ReferenceIdeal.Read.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fr.kernel_value m ρ c), (h c).2⟩)
      (Cert.KernelIdeal.Fr.run_value (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v30_eq, (hagree c).1, (hagree c).2.1, (hagree c).2.2.1,
      (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.Proof.RefClaims.frame_ri, preserves, algebraic⟩

end Cert.Proof

end
